-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x7 : Shape := ⟨2, ![256, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part6 {F : FTy → Type} [FloatOps F] (main_v98 : IVec S_ 1) (main_v101 : IVec S7 1) (main_c_39 : IVec S_ 1) : IVec S_ 1 :=
  let main_v102 : IVec S_ 1 := (fun x v => Host.reduce IntOp.andi x v reducesTo_S7_S_d0 h_S_) main_v101 main_c_39
  let main_v103 : IVec S_ 1 := andi main_v98 main_v102
  main_v103

def fn_part5 {F : FTy → Type} [FloatOps F] (main_arg22 : FVec F S256 .f32) (main_arg23 : FVec F S256x7 .f32) (main_arg24 : FVec F S7 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x7 .f32 := Host.absf main_arg23
  let main_cst_36 : FVec F S_ .f32 := constant S_ .f32 0x7F800000#32
  let main_v95 : FVec F S256x7 .f32 := broadcastInDim S256x7 ![] bcast_S_S256x7 main_cst_36
  let main_v96 : IVec S256x7 1 := cmpf .olt main_v94 main_v95
  let main_c_37 : IVec S_ 1 := constantI S_ 1 1#1
  let main_v97 : IVec S_ 1 := (fun x v => Host.reduce IntOp.andi x v reducesTo_S256x7_S_d0_1 h_S_) main_v96 main_c_37
  let main_v98 : IVec S_ 1 := andi main_v93 main_v97
  let main_v99 : FVec F S7 .f32 := Host.absf main_arg24
  let main_cst_38 : FVec F S_ .f32 := constant S_ .f32 0x7F800000#32
  let main_v100 : FVec F S7 .f32 := broadcastInDim S7 ![] bcast_S_S7 main_cst_38
  let main_v101 : IVec S7 1 := cmpf .olt main_v99 main_v100
  let main_c_39 : IVec S_ 1 := constantI S_ 1 1#1
  fn_part6 (F := F) main_v98 main_v101 main_c_39

def fn_part4 {F : FTy → Type} [FloatOps F] (main_arg18 : FVec F S256 .f32) (main_arg19 : FVec F S256x256 .f32) (main_arg20 : FVec F S256 .f32) (main_arg21 : FVec F S512x256 .f32) (main_arg22 : FVec F S256 .f32) (main_arg23 : FVec F S256x7 .f32) (main_arg24 : FVec F S7 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg19
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S512x256 .f32 := Host.absf main_arg21
  let main_cst_32 : FVec F S_ .f32 := constant S_ .f32 0x7F800000#32
  fn_part5 (F := F) main_arg22 main_arg23 main_arg24 main_v83 main_v84 main_cst_32

def fn_part3 {F : FTy → Type} [FloatOps F] (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x7 .f32) (main_arg24 : FVec F S7 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S512x256 .f32 := Host.absf main_arg17
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg18 main_arg19 main_arg20 main_arg21 main_arg22 main_arg23 main_arg24 main_v63 main_v67

def fn_part2 {F : FTy → Type} [FloatOps F] (main_arg11 : FVec F S256x256 .f32) (main_arg12 : FVec F S256 .f32) (main_arg13 : FVec F S512x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x7 .f32) (main_arg24 : FVec F S7 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg13
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_arg21 main_arg22 main_arg23 main_arg24 main_v48 main_v49 main_v50

def fn_part1 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S512x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x7 .f32) (main_arg24 : FVec F S7 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x800000 32) (main_arg2 : IVec S2x800000 32) (main_arg3 : IVec S100000 32) (main_arg4 : IVec S100000 32) (main_arg5 : FVec F S128x256 .f32) (main_arg6 : FVec F S256 .f32) (main_arg7 : FVec F S128x256 .f32) (main_arg8 : FVec F S256 .f32) (main_arg9 : FVec F S256x256 .f32) (main_arg10 : FVec F S256 .f32) (main_arg11 : FVec F S256x256 .f32) (main_arg12 : FVec F S256 .f32) (main_arg13 : FVec F S512x256 .f32) (main_arg14 : FVec F S256 .f32) (main_arg15 : FVec F S256x256 .f32) (main_arg16 : FVec F S256 .f32) (main_arg17 : FVec F S512x256 .f32) (main_arg18 : FVec F S256 .f32) (main_arg19 : FVec F S256x256 .f32) (main_arg20 : FVec F S256 .f32) (main_arg21 : FVec F S512x256 .f32) (main_arg22 : FVec F S256 .f32) (main_arg23 : FVec F S256x7 .f32) (main_arg24 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S2000x128 : Shape := ⟨2, ![2000, 128]⟩
abbrev S2000x256 : Shape := ⟨2, ![2000, 256]⟩
abbrev S900000x256 : Shape := ⟨2, ![900000, 256]⟩
abbrev S1x256 : Shape := ⟨2, ![1, 256]⟩
abbrev S5000x256 : Shape := ⟨2, ![5000, 256]⟩
abbrev S100000x1 : Shape := ⟨2, ![100000, 1]⟩
abbrev S5000 : Shape := ⟨1, ![5000]⟩
abbrev S5000x1 : Shape := ⟨2, ![5000, 1]⟩
abbrev S5000x512 : Shape := ⟨2, ![5000, 512]⟩
abbrev S5000x7 : Shape := ⟨2, ![5000, 7]⟩
abbrev S1x7 : Shape := ⟨2, ![1, 7]⟩

abbrev nBuf : Space → Nat
  | .hbm => 276
  | .vmem => 42
  | .smem => 0
  | _ => 0

abbrev hbmTy0_0 (i : Nat) : BufTy := match i % 128 with
  | 0 => ⟨S100000x128, .f32⟩
  | 1 => ⟨S2x800000, .i32⟩
  | 2 => ⟨S2x800000, .i32⟩
  | 3 => ⟨S100000, .i32⟩
  | 4 => ⟨S100000, .i32⟩
  | 5 => ⟨S128x256, .f32⟩
  | 6 => ⟨S256, .f32⟩
  | 7 => ⟨S128x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S512x256, .f32⟩
  | 14 => ⟨S256, .f32⟩
  | 15 => ⟨S256x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S512x256, .f32⟩
  | 22 => ⟨S256, .f32⟩
  | 23 => ⟨S256x7, .f32⟩
  | 24 => ⟨S7, .f32⟩
  | 25 => ⟨S1x800000, .i32⟩
  | 26 => ⟨S800000, .i32⟩
  | 27 => ⟨S1x800000, .i32⟩
  | 28 => ⟨S800000, .i32⟩
  | 29 => ⟨S100000, .i32⟩
  | 30 => ⟨S900000, .i32⟩
  | 31 => ⟨S900000, .i32⟩
  | 32 => ⟨S_, .f32⟩
  | 33 => ⟨S900000, .f32⟩
  | 34 => ⟨S_, .f32⟩
  | 35 => ⟨S100000, .f32⟩
  | 36 => ⟨S900000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S1x800000, .i32⟩
  | 47 => ⟨S800000, .i32⟩
  | 48 => ⟨S1x800000, .i32⟩
  | 49 => ⟨S800000, .i32⟩
  | 50 => ⟨S100000, .i32⟩
  | 51 => ⟨S900000, .i32⟩
  | 52 => ⟨S900000, .i32⟩
  | 53 => ⟨S_, .f32⟩
  | 54 => ⟨S900000, .f32⟩
  | 55 => ⟨S_, .f32⟩
  | 56 => ⟨S100000, .f32⟩
  | 57 => ⟨S900000x1, .i32⟩
  | 58 => ⟨S100000, .f32⟩
  | 59 => ⟨S_, .f32⟩
  | 60 => ⟨S100000, .f32⟩
  | 61 => ⟨S100000, .i1⟩
  | 62 => ⟨S100000, .f32⟩
  | 63 => ⟨S_, .f32⟩
  | 64 => ⟨S_, .f32⟩
  | 65 => ⟨S100000, .f32⟩
  | 66 => ⟨S100000, .f32⟩
  | 67 => ⟨S100000x256, .f32⟩
  | 68 => ⟨S100000x256, .f32⟩
  | 69 => ⟨S_, .i32⟩
  | 70 => ⟨S900000, .i32⟩
  | 71 => ⟨S900000, .i1⟩
  | 72 => ⟨S_, .i32⟩
  | 73 => ⟨S900000, .i32⟩
  | 74 => ⟨S900000, .i32⟩
  | 75 => ⟨S900000, .i32⟩
  | 76 => ⟨S900000x1, .i32⟩
  | 77 => ⟨S900000, .f32⟩
  | 78 => ⟨S_, .i32⟩
  | 79 => ⟨S900000, .i32⟩
  | 80 => ⟨S900000, .i1⟩
  | 81 => ⟨S_, .i32⟩
  | 82 => ⟨S900000, .i32⟩
  | 83 => ⟨S900000, .i32⟩
  | 84 => ⟨S900000, .i32⟩
  | 85 => ⟨S900000x1, .i32⟩
  | 86 => ⟨S900000, .f32⟩
  | 87 => ⟨S900000, .f32⟩
  | 88 => ⟨S900000x1, .f32⟩
  | 89 => ⟨S_, .i32⟩
  | 90 => ⟨S900000, .i32⟩
  | 91 => ⟨S900000, .i1⟩
  | 92 => ⟨S_, .i32⟩
  | 93 => ⟨S900000, .i32⟩
  | 94 => ⟨S900000, .i32⟩
  | 95 => ⟨S900000, .i32⟩
  | 96 => ⟨S900000x1, .i32⟩
  | 97 => ⟨S900000x256, .f32⟩
  | 98 => ⟨S900000x256, .f32⟩
  | 99 => ⟨S900000x256, .f32⟩
  | 100 => ⟨S_, .f32⟩
  | 101 => ⟨S100000x256, .f32⟩
  | 102 => ⟨S900000x1, .i32⟩
  | 103 => ⟨S100000x256, .f32⟩
  | 104 => ⟨S_, .i32⟩
  | 105 => ⟨S900000, .i32⟩
  | 106 => ⟨S900000, .i1⟩
  | 107 => ⟨S_, .i32⟩
  | 108 => ⟨S900000, .i32⟩
  | 109 => ⟨S900000, .i32⟩
  | 110 => ⟨S900000, .i32⟩
  | 111 => ⟨S900000x1, .i32⟩
  | 112 => ⟨S900000, .f32⟩
  | 113 => ⟨S_, .i32⟩
  | 114 => ⟨S900000, .i32⟩
  | 115 => ⟨S900000, .i1⟩
  | 116 => ⟨S_, .i32⟩
  | 117 => ⟨S900000, .i32⟩
  | 118 => ⟨S900000, .i32⟩
  | 119 => ⟨S900000, .i32⟩
  | 120 => ⟨S900000x1, .i32⟩
  | 121 => ⟨S900000, .f32⟩
  | 122 => ⟨S900000, .f32⟩
  | 123 => ⟨S900000x1, .f32⟩
  | 124 => ⟨S_, .i32⟩
  | 125 => ⟨S900000, .i32⟩
  | 126 => ⟨S900000, .i1⟩
  | 127 => ⟨S_, .i32⟩
  | _ => ⟨S100000x128, .f32⟩

abbrev hbmTy0_1 (i : Nat) : BufTy := match i % 128 with
  | 0 => ⟨S900000, .i32⟩
  | 1 => ⟨S900000, .i32⟩
  | 2 => ⟨S900000, .i32⟩
  | 3 => ⟨S900000x1, .i32⟩
  | 4 => ⟨S900000x256, .f32⟩
  | 5 => ⟨S900000x256, .f32⟩
  | 6 => ⟨S900000x256, .f32⟩
  | 7 => ⟨S_, .f32⟩
  | 8 => ⟨S100000x256, .f32⟩
  | 9 => ⟨S900000x1, .i32⟩
  | 10 => ⟨S100000x256, .f32⟩
  | 11 => ⟨S256x256, .f32⟩
  | 12 => ⟨S256x256, .f32⟩
  | 13 => ⟨S100000x256, .f32⟩
  | 14 => ⟨S100000x256, .f32⟩
  | 15 => ⟨S100000x256, .f32⟩
  | 16 => ⟨S_, .i32⟩
  | 17 => ⟨S900000, .i32⟩
  | 18 => ⟨S900000, .i1⟩
  | 19 => ⟨S_, .i32⟩
  | 20 => ⟨S900000, .i32⟩
  | 21 => ⟨S900000, .i32⟩
  | 22 => ⟨S900000, .i32⟩
  | 23 => ⟨S900000x1, .i32⟩
  | 24 => ⟨S900000, .f32⟩
  | 25 => ⟨S_, .i32⟩
  | 26 => ⟨S900000, .i32⟩
  | 27 => ⟨S900000, .i1⟩
  | 28 => ⟨S_, .i32⟩
  | 29 => ⟨S900000, .i32⟩
  | 30 => ⟨S900000, .i32⟩
  | 31 => ⟨S900000, .i32⟩
  | 32 => ⟨S900000x1, .i32⟩
  | 33 => ⟨S900000, .f32⟩
  | 34 => ⟨S900000, .f32⟩
  | 35 => ⟨S900000x1, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000x256, .f32⟩
  | 45 => ⟨S900000x256, .f32⟩
  | 46 => ⟨S900000x256, .f32⟩
  | 47 => ⟨S_, .f32⟩
  | 48 => ⟨S100000x256, .f32⟩
  | 49 => ⟨S900000x1, .i32⟩
  | 50 => ⟨S100000x256, .f32⟩
  | 51 => ⟨S_, .i32⟩
  | 52 => ⟨S900000, .i32⟩
  | 53 => ⟨S900000, .i1⟩
  | 54 => ⟨S_, .i32⟩
  | 55 => ⟨S900000, .i32⟩
  | 56 => ⟨S900000, .i32⟩
  | 57 => ⟨S900000, .i32⟩
  | 58 => ⟨S900000x1, .i32⟩
  | 59 => ⟨S900000, .f32⟩
  | 60 => ⟨S_, .i32⟩
  | 61 => ⟨S900000, .i32⟩
  | 62 => ⟨S900000, .i1⟩
  | 63 => ⟨S_, .i32⟩
  | 64 => ⟨S900000, .i32⟩
  | 65 => ⟨S900000, .i32⟩
  | 66 => ⟨S900000, .i32⟩
  | 67 => ⟨S900000x1, .i32⟩
  | 68 => ⟨S900000, .f32⟩
  | 69 => ⟨S900000, .f32⟩
  | 70 => ⟨S900000x1, .f32⟩
  | 71 => ⟨S_, .i32⟩
  | 72 => ⟨S900000, .i32⟩
  | 73 => ⟨S900000, .i1⟩
  | 74 => ⟨S_, .i32⟩
  | 75 => ⟨S900000, .i32⟩
  | 76 => ⟨S900000, .i32⟩
  | 77 => ⟨S900000, .i32⟩
  | 78 => ⟨S900000x1, .i32⟩
  | 79 => ⟨S900000x256, .f32⟩
  | 80 => ⟨S900000x256, .f32⟩
  | 81 => ⟨S900000x256, .f32⟩
  | 82 => ⟨S_, .f32⟩
  | 83 => ⟨S100000x256, .f32⟩
  | 84 => ⟨S900000x1, .i32⟩
  | 85 => ⟨S100000x256, .f32⟩
  | 86 => ⟨S256x256, .f32⟩
  | 87 => ⟨S256x256, .f32⟩
  | 88 => ⟨S100000x256, .f32⟩
  | 89 => ⟨S_, .f32⟩
  | 90 => ⟨S5000x256, .f32⟩
  | 91 => ⟨S100000x1, .i32⟩
  | 92 => ⟨S5000x256, .f32⟩
  | 93 => ⟨S_, .f32⟩
  | 94 => ⟨S100000, .f32⟩
  | 95 => ⟨S_, .f32⟩
  | 96 => ⟨S5000, .f32⟩
  | 97 => ⟨S100000x1, .i32⟩
  | 98 => ⟨S5000, .f32⟩
  | 99 => ⟨S_, .f32⟩
  | 100 => ⟨S5000, .f32⟩
  | 101 => ⟨S5000, .f32⟩
  | 102 => ⟨S5000x1, .f32⟩
  | 103 => ⟨S5000x256, .f32⟩
  | 104 => ⟨S5000x256, .f32⟩
  | 105 => ⟨S_, .f32⟩
  | 106 => ⟨S5000x256, .f32⟩
  | 107 => ⟨S100000x1, .i32⟩
  | 108 => ⟨S5000x256, .f32⟩
  | 109 => ⟨S_, .f32⟩
  | 110 => ⟨S100000, .f32⟩
  | 111 => ⟨S_, .f32⟩
  | 112 => ⟨S5000, .f32⟩
  | 113 => ⟨S100000x1, .i32⟩
  | 114 => ⟨S5000, .f32⟩
  | 115 => ⟨S_, .f32⟩
  | 116 => ⟨S5000, .f32⟩
  | 117 => ⟨S5000, .f32⟩
  | 118 => ⟨S5000x1, .f32⟩
  | 119 => ⟨S5000x256, .f32⟩
  | 120 => ⟨S5000x256, .f32⟩
  | 121 => ⟨S5000x512, .f32⟩
  | 122 => ⟨S5000x256, .f32⟩
  | 123 => ⟨S1x256, .f32⟩
  | 124 => ⟨S5000x256, .f32⟩
  | 125 => ⟨S5000x256, .f32⟩
  | 126 => ⟨S_, .f32⟩
  | 127 => ⟨S5000x256, .f32⟩
  | _ => ⟨S100000x128, .f32⟩

abbrev hbmTy0_2 (i : Nat) : BufTy := match i % 128 with
  | 0 => ⟨S5000x256, .f32⟩
  | 1 => ⟨S5000x7, .f32⟩
  | 2 => ⟨S1x7, .f32⟩
  | 3 => ⟨S5000x7, .f32⟩
  | 4 => ⟨S5000x7, .f32⟩
  | 5 => ⟨S_, .f32⟩
  | 6 => ⟨S5000, .f32⟩
  | 7 => ⟨S_, .f32⟩
  | 8 => ⟨S5000, .f32⟩
  | 9 => ⟨S5000, .f32⟩
  | 10 => ⟨S5000x1, .f32⟩
  | 11 => ⟨S5000x7, .f32⟩
  | 12 => ⟨S5000x7, .f32⟩
  | 13 => ⟨S5000x7, .f32⟩
  | 14 => ⟨S_, .f32⟩
  | 15 => ⟨S5000, .f32⟩
  | 16 => ⟨S5000x1, .f32⟩
  | 17 => ⟨S5000x1, .f32⟩
  | 18 => ⟨S5000x7, .f32⟩
  | 19 => ⟨S5000x7, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S128x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256, .f32⟩
  | .local _ .vmem, ⟨13, _⟩ => ⟨S256, .f32⟩
  | .local _ .vmem, ⟨14, _⟩ => ⟨S256x256, .f32⟩
  | .local _ .vmem, ⟨15, _⟩ => ⟨S256x256, .f32⟩
  | .local _ .vmem, ⟨16, _⟩ => ⟨S256, .f32⟩
  | .local _ .vmem, ⟨17, _⟩ => ⟨S256x256, .f32⟩
  | .local _ .vmem, ⟨18, _⟩ => ⟨S256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S256, .f32⟩
  | .local _ .vmem, ⟨34, _⟩ => ⟨S256, .f32⟩
  | .local _ .vmem, ⟨35, _⟩ => ⟨S256x256, .f32⟩
  | .local _ .vmem, ⟨36, _⟩ => ⟨S256x256, .f32⟩
  | .local _ .vmem, ⟨37, _⟩ => ⟨S256, .f32⟩
  | .local _ .vmem, ⟨38, _⟩ => ⟨S256x256, .f32⟩
  | .local _ .vmem, ⟨39, _⟩ => ⟨S256, .f32⟩
  | .local _ .vmem, ⟨40, _⟩ => ⟨S2000x256, .f32⟩
  | .local _ .vmem, ⟨41, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_v29 : Ref sig .tc := ⟨.hbm, 66, rfl⟩
abbrev main_v30_0 : Ref sig .tc := ⟨.hbm, 67, rfl⟩
abbrev main_v30_1 : Ref sig .tc := ⟨.hbm, 68, rfl⟩
abbrev main_c : Ref sig .tc := ⟨.hbm, 69, rfl⟩
abbrev main_v31 : Ref sig .tc := ⟨.hbm, 70, rfl⟩
abbrev main_v32 : Ref sig .tc := ⟨.hbm, 71, rfl⟩
abbrev main_c_7 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_8 : Ref sig .tc := ⟨.hbm, 78, rfl⟩
abbrev main_v38 : Ref sig .tc := ⟨.hbm, 79, rfl⟩
abbrev main_v39 : Ref sig .tc := ⟨.hbm, 80, rfl⟩
abbrev main_c_9 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_10 : Ref sig .tc := ⟨.hbm, 89, rfl⟩
abbrev main_v47 : Ref sig .tc := ⟨.hbm, 90, rfl⟩
abbrev main_v48 : Ref sig .tc := ⟨.hbm, 91, rfl⟩
abbrev main_c_11 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_12 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_13 : Ref sig .tc := ⟨.hbm, 104, rfl⟩
abbrev main_v59 : Ref sig .tc := ⟨.hbm, 105, rfl⟩
abbrev main_v60 : Ref sig .tc := ⟨.hbm, 106, rfl⟩
abbrev main_c_14 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_15 : Ref sig .tc := ⟨.hbm, 113, rfl⟩
abbrev main_v66 : Ref sig .tc := ⟨.hbm, 114, rfl⟩
abbrev main_v67 : Ref sig .tc := ⟨.hbm, 115, rfl⟩
abbrev main_c_16 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_17 : Ref sig .tc := ⟨.hbm, 124, rfl⟩
abbrev main_v75 : Ref sig .tc := ⟨.hbm, 125, rfl⟩
abbrev main_v76 : Ref sig .tc := ⟨.hbm, 126, rfl⟩
abbrev main_c_18 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_19 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90_0 : Ref sig .tc := ⟨.hbm, 142, rfl⟩
abbrev main_v90_1 : Ref sig .tc := ⟨.hbm, 143, rfl⟩
abbrev main_c_20 : Ref sig .tc := ⟨.hbm, 144, rfl⟩
abbrev main_v91 : Ref sig .tc := ⟨.hbm, 145, rfl⟩
abbrev main_v92 : Ref sig .tc := ⟨.hbm, 146, rfl⟩
abbrev main_c_21 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_22 : Ref sig .tc := ⟨.hbm, 153, rfl⟩
abbrev main_v98 : Ref sig .tc := ⟨.hbm, 154, rfl⟩
abbrev main_v99 : Ref sig .tc := ⟨.hbm, 155, rfl⟩
abbrev main_c_23 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_24 : Ref sig .tc := ⟨.hbm, 164, rfl⟩
abbrev main_v107 : Ref sig .tc := ⟨.hbm, 165, rfl⟩
abbrev main_v108 : Ref sig .tc := ⟨.hbm, 166, rfl⟩
abbrev main_c_25 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_26 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_c_27 : Ref sig .tc := ⟨.hbm, 179, rfl⟩
abbrev main_v119 : Ref sig .tc := ⟨.hbm, 180, rfl⟩
abbrev main_v120 : Ref sig .tc := ⟨.hbm, 181, rfl⟩
abbrev main_c_28 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_29 : Ref sig .tc := ⟨.hbm, 188, rfl⟩
abbrev main_v126 : Ref sig .tc := ⟨.hbm, 189, rfl⟩
abbrev main_v127 : Ref sig .tc := ⟨.hbm, 190, rfl⟩
abbrev main_c_30 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_31 : Ref sig .tc := ⟨.hbm, 199, rfl⟩
abbrev main_v135 : Ref sig .tc := ⟨.hbm, 200, rfl⟩
abbrev main_v136 : Ref sig .tc := ⟨.hbm, 201, rfl⟩
abbrev main_c_32 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_33 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_34 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_35 : Ref sig .tc := ⟨.hbm, 221, rfl⟩
abbrev main_v153 : Ref sig .tc := ⟨.hbm, 222, rfl⟩
abbrev main_cst_36 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_37 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_cst_38 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_cst_39 : Ref sig .tc := ⟨.hbm, 237, rfl⟩
abbrev main_v165 : Ref sig .tc := ⟨.hbm, 238, rfl⟩
abbrev main_cst_40 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_41 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_call2_cst : Ref sig .tc := ⟨.hbm, 254, rfl⟩
abbrev main_call2_v0 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_call3_cst : Ref sig .tc := ⟨.hbm, 261, rfl⟩
abbrev main_call3_v0 : Ref sig .tc := ⟨.hbm, 262, rfl⟩
abbrev main_call3_cst_0 : Ref sig .tc := ⟨.hbm, 263, rfl⟩
abbrev main_call3_v1 : Ref sig .tc := ⟨.hbm, 264, rfl⟩
abbrev main_call3_v2 : Ref sig .tc := ⟨.hbm, 265, rfl⟩
abbrev main_call3_v3 : Ref sig .tc := ⟨.hbm, 266, rfl⟩
abbrev main_call3_v4 : Ref sig .tc := ⟨.hbm, 267, rfl⟩
abbrev main_call3_v5 : Ref sig .tc := ⟨.hbm, 268, rfl⟩
abbrev main_call3_v6 : Ref sig .tc := ⟨.hbm, 269, rfl⟩
abbrev main_call3_cst_1 : Ref sig .tc := ⟨.hbm, 270, rfl⟩
abbrev main_call3_v7 : Ref sig .tc := ⟨.hbm, 271, rfl⟩
abbrev main_call3_v8 : Ref sig .tc := ⟨.hbm, 272, rfl⟩
abbrev main_call3_v9 : Ref sig .tc := ⟨.hbm, 273, rfl⟩
abbrev main_call3_v10 : Ref sig .tc := ⟨.hbm, 274, rfl⟩
abbrev main_v184 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  slices_S512x256_S256x256_0_0 : S512x256.Slices ![0, 0] S256x256
  slices_S512x256_S256x256_256_0 : S512x256.Slices ![256, 0] S256x256
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S5000x256 : S_.BroadcastsInDim S5000x256 (![] : Fin 0 → Fin S5000x256.rank)
  bcast_S100000_S100000x1_0 : S100000.BroadcastsInDim S100000x1 (![0] : Fin 1 → Fin S100000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  concatenates_S5000x256_S5000x256_S5000x512_d1 : Shape.Concatenates [S5000x256, S5000x256] S5000x512 1
  bcast_S256_S1x256_1 : S256.BroadcastsInDim S1x256 (![1] : Fin 1 → Fin S1x256.rank)
  bcast_S1x256_S5000x256_0_1 : S1x256.BroadcastsInDim S5000x256 (![0, 1] : Fin 2 → Fin S5000x256.rank)
  bcast_S7_S1x7_1 : S7.BroadcastsInDim S1x7 (![1] : Fin 1 → Fin S1x7.rank)
  bcast_S1x7_S5000x7_0_1 : S1x7.BroadcastsInDim S5000x7 (![0, 1] : Fin 2 → Fin S5000x7.rank)
  reducesTo_S5000x7_S5000_d1 : S5000x7.ReducesTo [1] S5000
  h_S_ : 0 < S_.numel
  bcast_S5000x1_S5000x7_0_1 : S5000x1.BroadcastsInDim S5000x7 (![0, 1] : Fin 2 → Fin S5000x7.rank)
  scatter_S100000_S900000x1_S900000_n_0_0_1_wf : ScatterDims.WF S100000 S900000x1 S900000 [] [0] [0] 1
  dot_S2000x128_S128x256_S2000x256_1_0_0_1_n_n_wf : DotDims.WF S2000x128 S128x256 S2000x256 [1] [0] [0] [1] [] []
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S2000x256_S256x256_S2000x256_1_0_0_1_n_n_wf : DotDims.WF S2000x256 S256x256 S2000x256 [1] [0] [0] [1] [] []
  scatter_S5000x256_S100000x1_S100000x256_1_0_0_1_wf : ScatterDims.WF S5000x256 S100000x1 S100000x256 [1] [0] [0] 1
  scatter_S5000_S100000x1_S100000_n_0_0_1_wf : ScatterDims.WF S5000 S100000x1 S100000 [] [0] [0] 1
  dot_S5000x512_S512x256_S5000x256_1_0_0_1_n_n_wf : DotDims.WF S5000x512 S512x256 S5000x256 [1] [0] [0] [1] [] []
  dot_S5000x256_S256x7_S5000x7_1_0_0_1_n_n_wf : DotDims.WF S5000x256 S256x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S100000x256.size a
  hwx1_9 : ∀ i : grid1.Coords, EltTy.bits .f32 = 32 ∨ (Rect.block (s := S100000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S100000x256.size a
  hwx2_4 : ∀ i : grid2.Coords, EltTy.bits .f32 = 32 ∨ (Rect.block (s := S100000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256.size a ≤ S256.size a
  hwx3_8 : ∀ i : grid3.Coords, EltTy.bits .f32 = 32 ∨ (Rect.block (s := S256) S256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S100000x256.size a
  hwx3_9 : ∀ i : grid3.Coords, EltTy.bits .f32 = 32 ∨ (Rect.block (s := S100000x256) S2000x256.size (cc3_transform_9 i) (hinb3_9 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x7_S5000x7_1_0_0_1_n_n : DotDims S5000x256 S256x7 S5000x7 where
  lhsContracting := [1]
  rhsContracting := [0]
  lhsNonContracting := [0]
  rhsNonContracting := [1]
  lhsBatch := []
  rhsBatch := []
  wf := dot_S5000x256_S256x7_S5000x7_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v89) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v89) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90_0) S2000x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v90_1) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v118) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v146) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v147) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v148) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg20) S256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v149) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S900000x256 : Shape := ⟨2, ![900000, 256]⟩
abbrev S1x256 : Shape := ⟨2, ![1, 256]⟩
abbrev S100000x512 : Shape := ⟨2, ![100000, 512]⟩
abbrev S5000x256 : Shape := ⟨2, ![5000, 256]⟩
abbrev S100000x1 : Shape := ⟨2, ![100000, 1]⟩
abbrev S5000 : Shape := ⟨1, ![5000]⟩
abbrev S5000x1 : Shape := ⟨2, ![5000, 1]⟩
abbrev S5000x512 : Shape := ⟨2, ![5000, 512]⟩
abbrev S5000x7 : Shape := ⟨2, ![5000, 7]⟩
abbrev S1x7 : Shape := ⟨2, ![1, 7]⟩

abbrev nBuf : Space → Nat
  | .hbm => 360
  | .vmem => 0
  | .smem => 0
  | _ => 0

abbrev hbmTy0_0 (i : Nat) : BufTy := match i % 128 with
  | 0 => ⟨S100000x128, .f32⟩
  | 1 => ⟨S2x800000, .i32⟩
  | 2 => ⟨S2x800000, .i32⟩
  | 3 => ⟨S100000, .i32⟩
  | 4 => ⟨S100000, .i32⟩
  | 5 => ⟨S128x256, .f32⟩
  | 6 => ⟨S256, .f32⟩
  | 7 => ⟨S128x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S512x256, .f32⟩
  | 14 => ⟨S256, .f32⟩
  | 15 => ⟨S256x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S512x256, .f32⟩
  | 22 => ⟨S256, .f32⟩
  | 23 => ⟨S256x7, .f32⟩
  | 24 => ⟨S7, .f32⟩
  | 25 => ⟨S1x800000, .i32⟩
  | 26 => ⟨S800000, .i32⟩
  | 27 => ⟨S1x800000, .i32⟩
  | 28 => ⟨S800000, .i32⟩
  | 29 => ⟨S100000, .i32⟩
  | 30 => ⟨S900000, .i32⟩
  | 31 => ⟨S900000, .i32⟩
  | 32 => ⟨S_, .f32⟩
  | 33 => ⟨S900000, .f32⟩
  | 34 => ⟨S_, .f32⟩
  | 35 => ⟨S100000, .f32⟩
  | 36 => ⟨S900000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S100000x256, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000, .f32⟩
  | 65 => ⟨S900000, .f32⟩
  | 66 => ⟨S900000x1, .f32⟩
  | 67 => ⟨S_, .i32⟩
  | 68 => ⟨S900000, .i32⟩
  | 69 => ⟨S900000, .i1⟩
  | 70 => ⟨S_, .i32⟩
  | 71 => ⟨S900000, .i32⟩
  | 72 => ⟨S900000, .i32⟩
  | 73 => ⟨S900000, .i32⟩
  | 74 => ⟨S900000x1, .i32⟩
  | 75 => ⟨S900000x256, .f32⟩
  | 76 => ⟨S900000x256, .f32⟩
  | 77 => ⟨S900000x256, .f32⟩
  | 78 => ⟨S_, .f32⟩
  | 79 => ⟨S100000x256, .f32⟩
  | 80 => ⟨S900000x1, .i32⟩
  | 81 => ⟨S100000x256, .f32⟩
  | 82 => ⟨S1x256, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S1x800000, .i32⟩
  | 89 => ⟨S800000, .i32⟩
  | 90 => ⟨S1x800000, .i32⟩
  | 91 => ⟨S800000, .i32⟩
  | 92 => ⟨S100000, .i32⟩
  | 93 => ⟨S900000, .i32⟩
  | 94 => ⟨S900000, .i32⟩
  | 95 => ⟨S_, .f32⟩
  | 96 => ⟨S900000, .f32⟩
  | 97 => ⟨S_, .f32⟩
  | 98 => ⟨S100000, .f32⟩
  | 99 => ⟨S900000x1, .i32⟩
  | 100 => ⟨S100000, .f32⟩
  | 101 => ⟨S_, .f32⟩
  | 102 => ⟨S100000, .f32⟩
  | 103 => ⟨S100000, .i1⟩
  | 104 => ⟨S100000, .f32⟩
  | 105 => ⟨S_, .f32⟩
  | 106 => ⟨S_, .f32⟩
  | 107 => ⟨S100000, .f32⟩
  | 108 => ⟨S100000, .f32⟩
  | 109 => ⟨S100000x256, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000, .f32⟩
  | 119 => ⟨S_, .i32⟩
  | 120 => ⟨S900000, .i32⟩
  | 121 => ⟨S900000, .i1⟩
  | 122 => ⟨S_, .i32⟩
  | 123 => ⟨S900000, .i32⟩
  | 124 => ⟨S900000, .i32⟩
  | 125 => ⟨S900000, .i32⟩
  | 126 => ⟨S900000x1, .i32⟩
  | 127 => ⟨S900000, .f32⟩
  | _ => ⟨S100000x128, .f32⟩

abbrev hbmTy0_1 (i : Nat) : BufTy := match i % 128 with
  | 0 => ⟨S900000, .f32⟩
  | 1 => ⟨S900000x1, .f32⟩
  | 2 => ⟨S_, .i32⟩
  | 3 => ⟨S900000, .i32⟩
  | 4 => ⟨S900000, .i1⟩
  | 5 => ⟨S_, .i32⟩
  | 6 => ⟨S900000, .i32⟩
  | 7 => ⟨S900000, .i32⟩
  | 8 => ⟨S900000, .i32⟩
  | 9 => ⟨S900000x1, .i32⟩
  | 10 => ⟨S900000x256, .f32⟩
  | 11 => ⟨S900000x256, .f32⟩
  | 12 => ⟨S900000x256, .f32⟩
  | 13 => ⟨S_, .f32⟩
  | 14 => ⟨S100000x256, .f32⟩
  | 15 => ⟨S900000x1, .i32⟩
  | 16 => ⟨S100000x256, .f32⟩
  | 17 => ⟨S1x256, .f32⟩
  | 18 => ⟨S100000x256, .f32⟩
  | 19 => ⟨S100000x256, .f32⟩
  | 20 => ⟨S_, .f32⟩
  | 21 => ⟨S100000x256, .f32⟩
  | 22 => ⟨S100000x256, .f32⟩
  | 23 => ⟨S100000x512, .f32⟩
  | 24 => ⟨S100000x256, .f32⟩
  | 25 => ⟨S1x256, .f32⟩
  | 26 => ⟨S100000x256, .f32⟩
  | 27 => ⟨S100000x256, .f32⟩
  | 28 => ⟨S_, .f32⟩
  | 29 => ⟨S100000x256, .f32⟩
  | 30 => ⟨S100000x256, .f32⟩
  | 31 => ⟨S100000x256, .f32⟩
  | 32 => ⟨S1x256, .f32⟩
  | 33 => ⟨S100000x256, .f32⟩
  | 34 => ⟨S100000x256, .f32⟩
  | 35 => ⟨S1x800000, .i32⟩
  | 36 => ⟨S800000, .i32⟩
  | 37 => ⟨S1x800000, .i32⟩
  | 38 => ⟨S800000, .i32⟩
  | 39 => ⟨S100000, .i32⟩
  | 40 => ⟨S900000, .i32⟩
  | 41 => ⟨S900000, .i32⟩
  | 42 => ⟨S_, .f32⟩
  | 43 => ⟨S900000, .f32⟩
  | 44 => ⟨S_, .f32⟩
  | 45 => ⟨S100000, .f32⟩
  | 46 => ⟨S900000x1, .i32⟩
  | 47 => ⟨S100000, .f32⟩
  | 48 => ⟨S_, .f32⟩
  | 49 => ⟨S100000, .f32⟩
  | 50 => ⟨S100000, .i1⟩
  | 51 => ⟨S100000, .f32⟩
  | 52 => ⟨S_, .f32⟩
  | 53 => ⟨S_, .f32⟩
  | 54 => ⟨S100000, .f32⟩
  | 55 => ⟨S100000, .f32⟩
  | 56 => ⟨S100000x256, .f32⟩
  | 57 => ⟨S_, .i32⟩
  | 58 => ⟨S900000, .i32⟩
  | 59 => ⟨S900000, .i1⟩
  | 60 => ⟨S_, .i32⟩
  | 61 => ⟨S900000, .i32⟩
  | 62 => ⟨S900000, .i32⟩
  | 63 => ⟨S900000, .i32⟩
  | 64 => ⟨S900000x1, .i32⟩
  | 65 => ⟨S900000, .f32⟩
  | 66 => ⟨S_, .i32⟩
  | 67 => ⟨S900000, .i32⟩
  | 68 => ⟨S900000, .i1⟩
  | 69 => ⟨S_, .i32⟩
  | 70 => ⟨S900000, .i32⟩
  | 71 => ⟨S900000, .i32⟩
  | 72 => ⟨S900000, .i32⟩
  | 73 => ⟨S900000x1, .i32⟩
  | 74 => ⟨S900000, .f32⟩
  | 75 => ⟨S900000, .f32⟩
  | 76 => ⟨S900000x1, .f32⟩
  | 77 => ⟨S_, .i32⟩
  | 78 => ⟨S900000, .i32⟩
  | 79 => ⟨S900000, .i1⟩
  | 80 => ⟨S_, .i32⟩
  | 81 => ⟨S900000, .i32⟩
  | 82 => ⟨S900000, .i32⟩
  | 83 => ⟨S900000, .i32⟩
  | 84 => ⟨S900000x1, .i32⟩
  | 85 => ⟨S900000x256, .f32⟩
  | 86 => ⟨S900000x256, .f32⟩
  | 87 => ⟨S900000x256, .f32⟩
  | 88 => ⟨S_, .f32⟩
  | 89 => ⟨S100000x256, .f32⟩
  | 90 => ⟨S900000x1, .i32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S1x800000, .i32⟩
  | 99 => ⟨S800000, .i32⟩
  | 100 => ⟨S1x800000, .i32⟩
  | 101 => ⟨S800000, .i32⟩
  | 102 => ⟨S100000, .i32⟩
  | 103 => ⟨S900000, .i32⟩
  | 104 => ⟨S900000, .i32⟩
  | 105 => ⟨S_, .f32⟩
  | 106 => ⟨S900000, .f32⟩
  | 107 => ⟨S_, .f32⟩
  | 108 => ⟨S100000, .f32⟩
  | 109 => ⟨S900000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S100000x256, .f32⟩
  | 120 => ⟨S_, .i32⟩
  | 121 => ⟨S900000, .i32⟩
  | 122 => ⟨S900000, .i1⟩
  | 123 => ⟨S_, .i32⟩
  | 124 => ⟨S900000, .i32⟩
  | 125 => ⟨S900000, .i32⟩
  | 126 => ⟨S900000, .i32⟩
  | 127 => ⟨S900000x1, .i32⟩
  | _ => ⟨S100000x128, .f32⟩

abbrev hbmTy0_2 (i : Nat) : BufTy := match i % 128 with
  | 0 => ⟨S900000, .f32⟩
  | 1 => ⟨S_, .i32⟩
  | 2 => ⟨S900000, .i32⟩
  | 3 => ⟨S900000, .i1⟩
  | 4 => ⟨S_, .i32⟩
  | 5 => ⟨S900000, .i32⟩
  | 6 => ⟨S900000, .i32⟩
  | 7 => ⟨S900000, .i32⟩
  | 8 => ⟨S900000x1, .i32⟩
  | 9 => ⟨S900000, .f32⟩
  | 10 => ⟨S900000, .f32⟩
  | 11 => ⟨S900000x1, .f32⟩
  | 12 => ⟨S_, .i32⟩
  | 13 => ⟨S900000, .i32⟩
  | 14 => ⟨S900000, .i1⟩
  | 15 => ⟨S_, .i32⟩
  | 16 => ⟨S900000, .i32⟩
  | 17 => ⟨S900000, .i32⟩
  | 18 => ⟨S900000, .i32⟩
  | 19 => ⟨S900000x1, .i32⟩
  | 20 => ⟨S900000x256, .f32⟩
  | 21 => ⟨S900000x256, .f32⟩
  | 22 => ⟨S900000x256, .f32⟩
  | 23 => ⟨S_, .f32⟩
  | 24 => ⟨S100000x256, .f32⟩
  | 25 => ⟨S900000x1, .i32⟩
  | 26 => ⟨S100000x256, .f32⟩
  | 27 => ⟨S1x256, .f32⟩
  | 28 => ⟨S100000x256, .f32⟩
  | 29 => ⟨S100000x256, .f32⟩
  | 30 => ⟨S_, .f32⟩
  | 31 => ⟨S100000x256, .f32⟩
  | 32 => ⟨S100000x256, .f32⟩
  | 33 => ⟨S100000x512, .f32⟩
  | 34 => ⟨S100000x256, .f32⟩
  | 35 => ⟨S1x256, .f32⟩
  | 36 => ⟨S100000x256, .f32⟩
  | 37 => ⟨S100000x256, .f32⟩
  | 38 => ⟨S_, .f32⟩
  | 39 => ⟨S100000x256, .f32⟩
  | 40 => ⟨S100000x256, .f32⟩
  | 41 => ⟨S100000x256, .f32⟩
  | 42 => ⟨S1x256, .f32⟩
  | 43 => ⟨S100000x256, .f32⟩
  | 44 => ⟨S100000x256, .f32⟩
  | 45 => ⟨S_, .f32⟩
  | 46 => ⟨S5000x256, .f32⟩
  | 47 => ⟨S100000x1, .i32⟩
  | 48 => ⟨S5000x256, .f32⟩
  | 49 => ⟨S_, .f32⟩
  | 50 => ⟨S100000, .f32⟩
  | 51 => ⟨S_, .f32⟩
  | 52 => ⟨S5000, .f32⟩
  | 53 => ⟨S100000x1, .i32⟩
  | 54 => ⟨S5000, .f32⟩
  | 55 => ⟨S_, .f32⟩
  | 56 => ⟨S5000, .f32⟩
  | 57 => ⟨S5000, .f32⟩
  | 58 => ⟨S5000x1, .f32⟩
  | 59 => ⟨S5000x256, .f32⟩
  | 60 => ⟨S5000x256, .f32⟩
  | 61 => ⟨S_, .f32⟩
  | 62 => ⟨S5000x256, .f32⟩
  | 63 => ⟨S100000x1, .i32⟩
  | 64 => ⟨S5000x256, .f32⟩
  | 65 => ⟨S_, .f32⟩
  | 66 => ⟨S100000, .f32⟩
  | 67 => ⟨S_, .f32⟩
  | 68 => ⟨S5000, .f32⟩
  | 69 => ⟨S100000x1, .i32⟩
  | 70 => ⟨S5000, .f32⟩
  | 71 => ⟨S_, .f32⟩
  | 72 => ⟨S5000, .f32⟩
  | 73 => ⟨S5000, .f32⟩
  | 74 => ⟨S5000x1, .f32⟩
  | 75 => ⟨S5000x256, .f32⟩
  | 76 => ⟨S5000x256, .f32⟩
  | 77 => ⟨S5000x512, .f32⟩
  | 78 => ⟨S5000x256, .f32⟩
  | 79 => ⟨S1x256, .f32⟩
  | 80 => ⟨S5000x256, .f32⟩
  | 81 => ⟨S5000x256, .f32⟩
  | 82 => ⟨S_, .f32⟩
  | 83 => ⟨S5000x256, .f32⟩
  | 84 => ⟨S5000x256, .f32⟩
  | 85 => ⟨S5000x7, .f32⟩
  | 86 => ⟨S1x7, .f32⟩
  | 87 => ⟨S5000x7, .f32⟩
  | 88 => ⟨S5000x7, .f32⟩
  | 89 => ⟨S_, .f32⟩
  | 90 => ⟨S5000, .f32⟩
  | 91 => ⟨S_, .f32⟩
  | 92 => ⟨S5000, .f32⟩
  | 93 => ⟨S5000, .f32⟩
  | 94 => ⟨S5000x1, .f32⟩
  | 95 => ⟨S5000x7, .f32⟩
  | 96 => ⟨S5000x7, .f32⟩
  | 97 => ⟨S5000x7, .f32⟩
  | 98 => ⟨S_, .f32⟩
  | 99 => ⟨S5000, .f32⟩
  | 100 => ⟨S5000x1, .f32⟩
  | 101 => ⟨S5000x1, .f32⟩
  | 102 => ⟨S5000x7, .f32⟩
  | 103 => ⟨S5000x7, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v14 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_6 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_call1_cst : Ref sig .tc := ⟨.hbm, 85, rfl⟩
abbrev main_call1_v0 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_9 : Ref sig .tc := ⟨.hbm, 95, rfl⟩
abbrev main_v55 : Ref sig .tc := ⟨.hbm, 96, rfl⟩
abbrev main_cst_10 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_11 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_12 : Ref sig .tc := ⟨.hbm, 105, rfl⟩
abbrev main_call2_v0 : Ref sig .tc := ⟨.hbm, 106, rfl⟩
abbrev main_call2_v1 : Ref sig .tc := ⟨.hbm, 107, rfl⟩
abbrev main_v62 : Ref sig .tc := ⟨.hbm, 108, rfl⟩
abbrev main_v63 : Ref sig .tc := ⟨.hbm, 109, rfl⟩
abbrev main_c_13 : Ref sig .tc := ⟨.hbm, 110, rfl⟩
abbrev main_v64 : Ref sig .tc := ⟨.hbm, 111, rfl⟩
abbrev main_v65 : Ref sig .tc := ⟨.hbm, 112, rfl⟩
abbrev main_c_14 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_15 : Ref sig .tc := ⟨.hbm, 119, rfl⟩
abbrev main_v71 : Ref sig .tc := ⟨.hbm, 120, rfl⟩
abbrev main_v72 : Ref sig .tc := ⟨.hbm, 121, rfl⟩
abbrev main_c_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_c_17 : Ref sig .tc := ⟨.hbm, 130, rfl⟩
abbrev main_v80 : Ref sig .tc := ⟨.hbm, 131, rfl⟩
abbrev main_v81 : Ref sig .tc := ⟨.hbm, 132, rfl⟩
abbrev main_c_18 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_19 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call3_cst : Ref sig .tc := ⟨.hbm, 148, rfl⟩
abbrev main_call3_v0 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call4_cst : Ref sig .tc := ⟨.hbm, 156, rfl⟩
abbrev main_call4_v0 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_20 : Ref sig .tc := ⟨.hbm, 170, rfl⟩
abbrev main_v113 : Ref sig .tc := ⟨.hbm, 171, rfl⟩
abbrev main_cst_21 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_22 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_23 : Ref sig .tc := ⟨.hbm, 180, rfl⟩
abbrev main_call5_v0 : Ref sig .tc := ⟨.hbm, 181, rfl⟩
abbrev main_call5_v1 : Ref sig .tc := ⟨.hbm, 182, rfl⟩
abbrev main_v120 : Ref sig .tc := ⟨.hbm, 183, rfl⟩
abbrev main_v121 : Ref sig .tc := ⟨.hbm, 184, rfl⟩
abbrev main_c_24 : Ref sig .tc := ⟨.hbm, 185, rfl⟩
abbrev main_v122 : Ref sig .tc := ⟨.hbm, 186, rfl⟩
abbrev main_v123 : Ref sig .tc := ⟨.hbm, 187, rfl⟩
abbrev main_c_25 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_c_26 : Ref sig .tc := ⟨.hbm, 194, rfl⟩
abbrev main_v129 : Ref sig .tc := ⟨.hbm, 195, rfl⟩
abbrev main_v130 : Ref sig .tc := ⟨.hbm, 196, rfl⟩
abbrev main_c_27 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_c_28 : Ref sig .tc := ⟨.hbm, 205, rfl⟩
abbrev main_v138 : Ref sig .tc := ⟨.hbm, 206, rfl⟩
abbrev main_v139 : Ref sig .tc := ⟨.hbm, 207, rfl⟩
abbrev main_c_29 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_30 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_call6_cst : Ref sig .tc := ⟨.hbm, 223, rfl⟩
abbrev main_call6_v0 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_31 : Ref sig .tc := ⟨.hbm, 233, rfl⟩
abbrev main_v161 : Ref sig .tc := ⟨.hbm, 234, rfl⟩
abbrev main_cst_32 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_33 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_34 : Ref sig .tc := ⟨.hbm, 243, rfl⟩
abbrev main_call7_v0 : Ref sig .tc := ⟨.hbm, 244, rfl⟩
abbrev main_call7_v1 : Ref sig .tc := ⟨.hbm, 245, rfl⟩
abbrev main_v168 : Ref sig .tc := ⟨.hbm, 246, rfl⟩
abbrev main_v169 : Ref sig .tc := ⟨.hbm, 247, rfl⟩
abbrev main_c_35 : Ref sig .tc := ⟨.hbm, 248, rfl⟩
abbrev main_v170 : Ref sig .tc := ⟨.hbm, 249, rfl⟩
abbrev main_v171 : Ref sig .tc := ⟨.hbm, 250, rfl⟩
abbrev main_c_36 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_c_37 : Ref sig .tc := ⟨.hbm, 257, rfl⟩
abbrev main_v177 : Ref sig .tc := ⟨.hbm, 258, rfl⟩
abbrev main_v178 : Ref sig .tc := ⟨.hbm, 259, rfl⟩
abbrev main_c_38 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_c_39 : Ref sig .tc := ⟨.hbm, 268, rfl⟩
abbrev main_v186 : Ref sig .tc := ⟨.hbm, 269, rfl⟩
abbrev main_v187 : Ref sig .tc := ⟨.hbm, 270, rfl⟩
abbrev main_c_40 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_cst_41 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_call8_cst : Ref sig .tc := ⟨.hbm, 286, rfl⟩
abbrev main_call8_v0 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_call9_cst : Ref sig .tc := ⟨.hbm, 294, rfl⟩
abbrev main_call9_v0 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_cst_42 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_cst_43 : Ref sig .tc := ⟨.hbm, 305, rfl⟩
abbrev main_v215 : Ref sig .tc := ⟨.hbm, 306, rfl⟩
abbrev main_cst_44 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_cst_45 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_cst_46 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_cst_47 : Ref sig .tc := ⟨.hbm, 321, rfl⟩
abbrev main_v227 : Ref sig .tc := ⟨.hbm, 322, rfl⟩
abbrev main_cst_48 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_cst_49 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_call10_cst : Ref sig .tc := ⟨.hbm, 338, rfl⟩
abbrev main_call10_v0 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_call11_cst : Ref sig .tc := ⟨.hbm, 345, rfl⟩
abbrev main_call11_v0 : Ref sig .tc := ⟨.hbm, 346, rfl⟩
abbrev main_call11_cst_0 : Ref sig .tc := ⟨.hbm, 347, rfl⟩
abbrev main_call11_v1 : Ref sig .tc := ⟨.hbm, 348, rfl⟩
abbrev main_call11_v2 : Ref sig .tc := ⟨.hbm, 349, rfl⟩
abbrev main_call11_v3 : Ref sig .tc := ⟨.hbm, 350, rfl⟩
abbrev main_call11_v4 : Ref sig .tc := ⟨.hbm, 351, rfl⟩
abbrev main_call11_v5 : Ref sig .tc := ⟨.hbm, 352, rfl⟩
abbrev main_call11_v6 : Ref sig .tc := ⟨.hbm, 353, rfl⟩
abbrev main_call11_cst_1 : Ref sig .tc := ⟨.hbm, 354, rfl⟩
abbrev main_call11_v7 : Ref sig .tc := ⟨.hbm, 355, rfl⟩
abbrev main_call11_v8 : Ref sig .tc := ⟨.hbm, 356, rfl⟩
abbrev main_call11_v9 : Ref sig .tc := ⟨.hbm, 357, rfl⟩
abbrev main_call11_v10 : Ref sig .tc := ⟨.hbm, 358, rfl⟩
abbrev main_v246 : Ref sig .tc := ⟨.hbm, 359, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  concatenates_S100000x256_S100000x256_S100000x512_d1 : Shape.Concatenates [S100000x256, S100000x256] S100000x512 1
  bcast_S_S5000x256 : S_.BroadcastsInDim S5000x256 (![] : Fin 0 → Fin S5000x256.rank)
  bcast_S100000_S100000x1_0 : S100000.BroadcastsInDim S100000x1 (![0] : Fin 1 → Fin S100000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  concatenates_S5000x256_S5000x256_S5000x512_d1 : Shape.Concatenates [S5000x256, S5000x256] S5000x512 1
  bcast_S1x256_S5000x256_0_1 : S1x256.BroadcastsInDim S5000x256 (![0, 1] : Fin 2 → Fin S5000x256.rank)
  bcast_S7_S1x7_1 : S7.BroadcastsInDim S1x7 (![1] : Fin 1 → Fin S1x7.rank)
  bcast_S1x7_S5000x7_0_1 : S1x7.BroadcastsInDim S5000x7 (![0, 1] : Fin 2 → Fin S5000x7.rank)
  reducesTo_S5000x7_S5000_d1 : S5000x7.ReducesTo [1] S5000
  h_S_ : 0 < S_.numel
  bcast_S5000x1_S5000x7_0_1 : S5000x1.BroadcastsInDim S5000x7 (![0, 1] : Fin 2 → Fin S5000x7.rank)
  scatter_S100000_S900000x1_S900000_n_0_0_1_wf : ScatterDims.WF S100000 S900000x1 S900000 [] [0] [0] 1
  dot_S100000x128_S128x256_S100000x256_1_0_0_1_n_n_wf : DotDims.WF S100000x128 S128x256 S100000x256 [1] [0] [0] [1] [] []
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x512_S512x256_S100000x256_1_0_0_1_n_n_wf : DotDims.WF S100000x512 S512x256 S100000x256 [1] [0] [0] [1] [] []
  dot_S100000x256_S256x256_S100000x256_1_0_0_1_n_n_wf : DotDims.WF S100000x256 S256x256 S100000x256 [1] [0] [0] [1] [] []
  scatter_S5000x256_S100000x1_S100000x256_1_0_0_1_wf : ScatterDims.WF S5000x256 S100000x1 S100000x256 [1] [0] [0] 1
  scatter_S5000_S100000x1_S100000_n_0_0_1_wf : ScatterDims.WF S5000 S100000x1 S100000 [] [0] [0] 1
  dot_S5000x512_S512x256_S5000x256_1_0_0_1_n_n_wf : DotDims.WF S5000x512 S512x256 S5000x256 [1] [0] [0] [1] [] []
  dot_S5000x256_S256x7_S5000x7_1_0_0_1_n_n_wf : DotDims.WF S5000x256 S256x7 S5000x7 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x7_S5000x7_1_0_0_1_n_n : DotDims S5000x256 S256x7 S5000x7 where
  lhsContracting := [1]
  rhsContracting := [0]
  lhsNonContracting := [0]
  rhsNonContracting := [1]
  lhsBatch := []
  rhsBatch := []
  wf := dot_S5000x256_S256x7_S5000x7_1_0_0_1_n_n_wf

class Facts : Prop extends Facts₀ where

variable [Facts]
-- ==== Proof.KerRun.lean ====
/-
  The idealized kernel's run, with its result read as well as its arguments.  @main is fourteen segments: stretches of
  host operations and four pipelined regions.  The buffer contents at every segment boundary are a fold from the launch
  memory (a stretch applies its operations; a region replaces its output arrays by what its write-backs leave and keeps
  every other buffer).  Every weakly fair execution terminates, nothing faults, and the final memory holds the last
  boundary's contents at every unscoped buffer: the arguments as launched, and the result buffer at the fold's value.
-/
import proofs.«115669_j32847909880071_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v184) = W14 m ρ c (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v184 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c)⟩)

end Cert.KernelIdeal.KerRun

end
-- ==== Proof.FoldKeep.lean ====
/-
  What a segment of the kernel program's @main keeps.  The argument arrays are written by no host operation and by no
  region (a region only reads them, through input windows), and the normalisation data of the two edge lists (sources,
  targets, inverse square-root degrees), computed before the first region, are not written again.  So at every later
  segment boundary these buffers hold what they held before: two boundary contents AGREE on a list of buffers.
-/
import proofs.«115669_j32847909880071_1_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.StableHlo Idealize.ShloMosaic.TcCoe Idealize.SL.Sem
open Idealize.ShloMosaic.Pipeline (Dat)

variable {F : FTy → Type} [FloatOps F]

/-- The 25 argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-- The argument arrays and the two edge lists' normalisation data. -/
abbrev liveRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v5, main_v6, main_v14, main_v20, main_v21, main_v29]

/-- `Y` holds at every buffer of `L` what `X` holds there. -/
def Agree (L : List (Ref sig .tc)) (X Y : Valuation τ sig (Elt F)) : Prop :=
  ∀ b ∈ L, Y (Proc.devRef .tc b) = X (Proc.devRef .tc b)

theorem Agree.trans {L : List (Ref sig .tc)} {X Y Z : Valuation τ sig (Elt F)} (h₁ : Agree L X Y) (h₂ : Agree L Y Z) : Agree L X Z :=
  fun b hb => (h₂ b hb).trans (h₁ b hb)

/-- Agreement on a list is agreement on every shorter list. -/
theorem Agree.sub {L L' : List (Ref sig .tc)} {X Y : Valuation τ sig (Elt F)} (h : Agree L X Y) (hsub : ∀ b ∈ L', b ∈ L) : Agree L' X Y :=
  fun b hb => h b (hsub b hb)

/-- A stretch of host operations none of which writes a buffer of `L` keeps `L`. -/
theorem agree_after {L : List (Ref sig .tc)} (ops : List (HloOp τ sig (Elt F))) (X : Valuation τ sig (Elt F))
    (h : ∀ op ∈ ops, ∀ b ∈ L, Proc.devRef (τ := τ) .tc b ∉ op.writes) : Agree L X (after ops X) :=
  fun b hb => after_of_forall_not_mem ops X fun op hop => h op hop b hb

theorem argRefs_sub_liveRefs : ∀ b ∈ argRefs, b ∈ liveRefs := by decide

/-! ## The host stretches -/

/-- The first edge list's preparation writes no argument. -/
theorem keep_hostOps0 (X : Valuation τ sig (Elt F)) : Agree argRefs X (after hostOps0 X) :=
  agree_after hostOps0 X (List.forall_iff_forall_mem.mp (by
    simp only [hostOps0, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-- Nor does the selection that ends it. -/
theorem keep_hostOps0_1 (X : Valuation τ sig (Elt F)) : Agree argRefs X (after hostOps0_1 X) :=
  agree_after hostOps0_1 X (List.forall_iff_forall_mem.mp (by
    simp only [hostOps0_1, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-- The second edge list's preparation writes no argument. -/
theorem keep_hostOps0_2 (X : Valuation τ sig (Elt F)) : Agree argRefs X (after hostOps0_2 X) :=
  agree_after hostOps0_2 X (List.forall_iff_forall_mem.mp (by
    simp only [hostOps0_2, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-- Nor does the selection that ends it. -/
theorem keep_hostOps0_3 (X : Valuation τ sig (Elt F)) : Agree argRefs X (after hostOps0_3 X) :=
  agree_after hostOps0_3 X (List.forall_iff_forall_mem.mp (by
    simp only [hostOps0_3, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-- Round 1's aggregation writes neither an argument nor the normalisation data. -/
theorem keep_hostOps1 (X : Valuation τ sig (Elt F)) : Agree liveRefs X (after hostOps1 X) :=
  agree_after hostOps1 X (List.forall_iff_forall_mem.mp (by
    simp only [hostOps1, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-- Round 2's aggregation writes no argument. -/
theorem keep_hostOps3 (X : Valuation τ sig (Elt F)) : Agree argRefs X (after hostOps3 X) :=
  agree_after hostOps3 X (List.forall_iff_forall_mem.mp (by
    simp only [hostOps3, List.Forall, nullary_writes, unary_writes, binary_writes, ternary_writes, quaternary_writes, reshape_writes, binaryIndexed_writes, Finset.mem_singleton]
    repeat' apply And.intro
    all_goals exact fun b hb => devRef_ne_of_ne (ne_of_mem_of_not_mem hb (by decide))))

/-! ## The regions -/

variable (m : (ℓ : Loc nD τ sig) → Buf (Elt F) ℓ) (ρ : Dev nD → PrngReg)

/-- Region 0 (the first dual projection) reads x and the two weight matrices and writes only its two outputs. -/
theorem keep_region0 (c : Dev nD) : Agree liveRefs (W4 m ρ c) (W5 m ρ c) :=
  List.forall_iff_forall_mem.mp (by
    simp only [List.Forall]
    repeat' apply And.intro
    all_goals first
      | exact W5_of_ne m ρ c _ (by decide)
      | exact (W5_arr m ρ c 0).trans (((dat0 (V4 m ρ) c).arrAt_in 0 rfl _).trans (A_eq0 (V4 m ρ) c 0))
      | exact (W5_arr m ρ c 1).trans (((dat0 (V4 m ρ) c).arrAt_in 1 rfl _).trans (A_eq0 (V4 m ρ) c 1))
      | exact (W5_arr m ρ c 2).trans (((dat0 (V4 m ρ) c).arrAt_in 2 rfl _).trans (A_eq0 (V4 m ρ) c 2)))

/-- Region 1 (the first fused perceptron) reads two biases, a bias, a weight matrix and a bias among the arguments and writes only its output. -/
theorem keep_region1 (c : Dev nD) : Agree liveRefs (W6 m ρ c) (W7 m ρ c) :=
  List.forall_iff_forall_mem.mp (by
    simp only [List.Forall]
    repeat' apply And.intro
    all_goals first
      | exact W7_of_ne m ρ c _ (by decide)
      | exact (W7_arr m ρ c 2).trans (((dat1 (V6 m ρ) c).arrAt_in 2 rfl _).trans (A_eq1 (V6 m ρ) c 2))
      | exact (W7_arr m ρ c 3).trans (((dat1 (V6 m ρ) c).arrAt_in 3 rfl _).trans (A_eq1 (V6 m ρ) c 3))
      | exact (W7_arr m ρ c 6).trans (((dat1 (V6 m ρ) c).arrAt_in 6 rfl _).trans (A_eq1 (V6 m ρ) c 6))
      | exact (W7_arr m ρ c 7).trans (((dat1 (V6 m ρ) c).arrAt_in 7 rfl _).trans (A_eq1 (V6 m ρ) c 7))
      | exact (W7_arr m ρ c 8).trans (((dat1 (V6 m ρ) c).arrAt_in 8 rfl _).trans (A_eq1 (V6 m ρ) c 8)))

/-- Region 2 (the second dual projection) reads two weight matrices among the arguments and writes only its two outputs. -/
theorem keep_region2 (c : Dev nD) : Agree liveRefs (W7 m ρ c) (W8 m ρ c) :=
  List.forall_iff_forall_mem.mp (by
    simp only [List.Forall]
    repeat' apply And.intro
    all_goals first
      | exact W8_of_ne m ρ c _ (by decide)
      | exact (W8_arr m ρ c 1).trans (((dat2 (V7 m ρ) c).arrAt_in 1 rfl _).trans (A_eq2 (V7 m ρ) c 1))
      | exact (W8_arr m ρ c 2).trans (((dat2 (V7 m ρ) c).arrAt_in 2 rfl _).trans (A_eq2 (V7 m ρ) c 2)))

/-- Region 3 (the second fused perceptron) likewise. -/
theorem keep_region3 (c : Dev nD) : Agree argRefs (W9 m ρ c) (W10 m ρ c) :=
  List.forall_iff_forall_mem.mp (by
    simp only [List.Forall]
    repeat' apply And.intro
    all_goals first
      | exact W10_of_ne m ρ c _ (by decide)
      | exact (W10_arr m ρ c 2).trans (((dat3 (V9 m ρ) c).arrAt_in 2 rfl _).trans (A_eq3 (V9 m ρ) c 2))
      | exact (W10_arr m ρ c 3).trans (((dat3 (V9 m ρ) c).arrAt_in 3 rfl _).trans (A_eq3 (V9 m ρ) c 3))
      | exact (W10_arr m ρ c 6).trans (((dat3 (V9 m ρ) c).arrAt_in 6 rfl _).trans (A_eq3 (V9 m ρ) c 6))
      | exact (W10_arr m ρ c 7).trans (((dat3 (V9 m ρ) c).arrAt_in 7 rfl _).trans (A_eq3 (V9 m ρ) c 7))
      | exact (W10_arr m ρ c 8).trans (((dat3 (V9 m ρ) c).arrAt_in 8 rfl _).trans (A_eq3 (V9 m ρ) c 8)))

/-- At the launch every buffer holds the launch memory. -/
theorem W0_eq (c : Dev nD) (b : Ref sig .tc) : W0 m ρ c (Proc.devRef .tc b) = m ((c : Thread nD τ).loc b) := rfl

end Cert.KernelIdeal.Fold

end
-- ==== Proof.Stages.lean ====
/-
  The two programs compute one and the same chain of whole-array stages.  This module names those stages once, for any
  float instance, over the literal shapes of the problem (N = 100000 nodes, E = 800000 edges per list, hidden width 256,
  S = 5000 pooling segments, 7 classes):

    * an edge list with one self-loop appended per node (`rowOf`, `colOf`), the in-degree of every node counted by a
      scatter-add of ones (`degOf`) and its inverse square root where the degree is positive, zero elsewhere (`disOf`);
    * one round of message passing (`aggOf`): every edge carries `dis[row] * dis[col]` times the source node's feature row
      to its target node, where the rows are added up;
    * the bias and rectifier that follow a convolution (`actOf`), the three matrix products (`dense128`, `dense256`,
      `dense512`), the two-layer perceptron on the concatenation of two branches (`mlpOf`);
    * the segment means (`poolOf`), the classifier (`logitsOf`) and the log-softmax over the 7 classes (`logSoftmaxOf`).

  Each stage is spelt with exactly the host operations both programs print for it, so that a stretch of host operations
  of either program reads back as the stage by unfolding.
-/
import proofs.«115669_j32847909880071_1_alg».proof.Proof.Gen.ReferenceIdeal

noncomputable section

namespace Cert.Stages

open Idealize.ShloMosaic Cert.ReferenceIdeal Cert.ReferenceIdeal.Gen

variable {F : FTy → Type} [FloatOps F]

/-- The upper half (rows 0 … 255) of a stacked [512, 256] weight matrix is a [256, 256] window of it. -/
theorem slices_lo : S512x256.Slices ![0, 0] S256x256 := by decide
/-- The lower half (rows 256 … 511) of a stacked [512, 256] weight matrix is a [256, 256] window of it. -/
theorem slices_hi : S512x256.Slices ![256, 0] S256x256 := by decide

/-- The weights that multiply the first branch in a perceptron on a concatenation: rows 0 … 255. -/
def sliceLo (w : (⟨S512x256, .f32⟩ : BufTy).Contents (Elt F)) : (⟨S256x256, .f32⟩ : BufTy).Contents (Elt F) :=
  extractStridedSlice S256x256 ![0, 0] w slices_lo
/-- The weights that multiply the second branch: rows 256 … 511. -/
def sliceHi (w : (⟨S512x256, .f32⟩ : BufTy).Contents (Elt F)) : (⟨S256x256, .f32⟩ : BufTy).Contents (Elt F) :=
  extractStridedSlice S256x256 ![256, 0] w slices_hi

/-- Row 0 of an edge list (the sources), then the node numbers 0 … N-1 (one self-loop per node). -/
def rowOf (e : (⟨S2x800000, .i32⟩ : BufTy).Contents (Elt F)) : (⟨S900000, .i32⟩ : BufTy).Contents (Elt F) :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- Row 1 of an edge list (the targets), then the node numbers 0 … N-1. -/
def colOf (e : (⟨S2x800000, .i32⟩ : BufTy).Contents (Elt F)) : (⟨S900000, .i32⟩ : BufTy).Contents (Elt F) :=
  concatenate S900000 0 [⟨S800000, shapeCast S800000 (extractStridedSlice S1x800000 ![1, 0] e slices_S2x800000_S1x800000_1_0) shapeCasts_S1x800000_S800000⟩, ⟨S100000, iotaInDim S100000 32 0⟩] concatenates_S800000_S100000_S900000_d0

/-- The in-degree of every node, self-loop included: a one added at the target of every edge. -/
def degOf (col : (⟨S900000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32))
    (broadcastInDim S900000x1 ![0] bcast_S900000_S900000x1_0 col) (broadcastInDim S900000 ![] bcast_S_S900000 (constant S_ .f32 0x3F800000#32))

/-- `deg ^ (-1/2)` where the degree is positive, zero elsewhere. -/
def disOf (col : (⟨S900000, .i32⟩ : BufTy).Contents (Elt F)) : (⟨S100000, .f32⟩ : BufTy).Contents (Elt F) :=
  select (cmpf (F := F) .ogt (degOf col) (broadcastInDim S100000 ![] bcast_S_S100000 (constant S_ .f32 0x00000000#32)))
    (Host.rsqrt (degOf col)) (broadcastInDim S100000 ![] bcast_S_S100000 (constant S_ .f32 0x00000000#32))

/-- Node numbers as gather indices: a negative number counts from the end, and the vector becomes a column. -/
def wrapOf (r : (⟨S900000, .i32⟩ : BufTy).Contents (Elt F)) : (⟨S900000x1, .i32⟩ : BufTy).Contents (Elt F) :=
  broadcastInDim S900000x1 ![0] bcast_S900000_S900000x1_0
    (select (cmpi .slt r (broadcastInDim S900000 ![] bcast_S_S900000 (constantI S_ 32 0#32)))
      (addi r (broadcastInDim S900000 ![] bcast_S_S900000 (constantI S_ 32 100000#32))) r)

/-- The weight of every edge, `dis[row] * dis[col]`, as a column. -/
def coefOf (row col : (⟨S900000, .i32⟩ : BufTy).Contents (Elt F)) (dis : (⟨S100000, .f32⟩ : BufTy).Contents (Elt F)) :
    (⟨S900000x1, .f32⟩ : BufTy).Contents (Elt F) :=
  broadcastInDim S900000x1 ![0] bcast_S900000_S900000x1_0
    (mulf (Host.gather gather_S100000_S900000x1_S900000_n_0_n_n_0_1_1 dis (wrapOf row))
      (Host.gather gather_S100000_S900000x1_S900000_n_0_n_n_0_1_1 dis (wrapOf col)))

/-- One round of message passing: the weighted feature row of every edge's source, added up at the edge's target. -/
def aggOf (h : (⟨S100000x256, .f32⟩ : BufTy).Contents (Elt F)) (row col : (⟨S900000, .i32⟩ : BufTy).Contents (Elt F))
    (dis : (⟨S100000, .f32⟩ : BufTy).Contents (Elt F)) : (⟨S100000x256, .f32⟩ : BufTy).Contents (Elt F) :=
  Host.scatterAdd scatter_S100000x256_S900000x1_S900000x256_1_0_0_1 (broadcastInDim S100000x256 ![] bcast_S_S100000x256 (constant S_ .f32 0x00000000#32))
    (broadcastInDim S900000x1 ![0] bcast_S900000_S900000x1_0 col)
    (mulf (broadcastInDim S900000x256 ![0, 1] bcast_S900000x1_S900000x256_0_1 (coefOf row col dis))
      (Host.gather gather_S100000x256_S900000x1_S900000x256_1_0_n_n_0_1_1256 h (wrapOf row)))

/-- A bias vector repeated along the N rows. -/
def biasOf (b : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 b)

/-- The rectifier: the maximum with zero, entry by entry. -/
def reluOf (x : (⟨S100000x256, .f32⟩ : BufTy).Contents (Elt F)) : (⟨S100000x256, .f32⟩ : BufTy).Contents (Elt F) :=
  maximumf x (broadcastInDim S100000x256 ![] bcast_S_S100000x256 (constant S_ .f32 0x00000000#32))

/-- What follows the aggregation in a convolution: add the bias, rectify. -/
def actOf (a : (⟨S100000x256, .f32⟩ : BufTy).Contents (Elt F)) (b : (⟨S256, .f32⟩ : BufTy).Contents (Elt F)) :
    (⟨S100000x256, .f32⟩ : BufTy).Contents (Elt F) :=
  reluOf (addf a (biasOf b))

/-- `x @ w` for 128 input features. -/
def dense128 (x : (⟨S100000x128, .f32⟩ : BufTy).Contents (Elt F)) (w : (⟨S128x256, .f32⟩ : BufTy).Contents (Elt F)) :
    (⟨S100000x256, .f32⟩ : BufTy).Contents (Elt F) :=
  Host.dotGeneral dot_S100000x128_S128x256_S100000x256_1_0_0_1_n_n none x w

/-- `x @ w` for 256 input features. -/
def dense256 (x : (⟨S100000x256, .f32⟩ : BufTy).Contents (Elt F)) (w : (⟨S256x256, .f32⟩ : BufTy).Contents (Elt F)) :
    (⟨S100000x256, .f32⟩ : BufTy).Contents (Elt F) :=
  Host.dotGeneral dot_S100000x256_S256x256_S100000x256_1_0_0_1_n_n none x w

/-- `x @ w` for 512 input features. -/
def dense512 (x : (⟨S100000x512, .f32⟩ : BufTy).Contents (Elt F)) (w : (⟨S512x256, .f32⟩ : BufTy).Contents (Elt F)) :
    (⟨S100000x256, .f32⟩ : BufTy).Contents (Elt F) :=
  Host.dotGeneral dot_S100000x512_S512x256_S100000x256_1_0_0_1_n_n none x w

/-- Two branches side by side: [N, 256] and [N, 256] to [N, 512]. -/
def catOf (x1 x2 : (⟨S100000x256, .f32⟩ : BufTy).Contents (Elt F)) : (⟨S100000x512, .f32⟩ : BufTy).Contents (Elt F) :=
  concatenate S100000x512 1 [⟨S100000x256, x1⟩, ⟨S100000x256, x2⟩] concatenates_S100000x256_S100000x256_S100000x512_d1

/-- The perceptron that mixes two branches: `relu(cat(x1, x2) @ w1 + b1) @ w2 + b2`. -/
def mlpOf (x1 x2 : (⟨S100000x256, .f32⟩ : BufTy).Contents (Elt F)) (w1 : (⟨S512x256, .f32⟩ : BufTy).Contents (Elt F))
    (b1 : (⟨S256, .f32⟩ : BufTy).Contents (Elt F)) (w2 : (⟨S256x256, .f32⟩ : BufTy).Contents (Elt F))
    (b2 : (⟨S256, .f32⟩ : BufTy).Contents (Elt F)) : (⟨S100000x256, .f32⟩ : BufTy).Contents (Elt F) :=
  addf (dense256 (reluOf (addf (dense512 (catOf x1 x2) w1) (biasOf b1))) w2) (biasOf b2)

/-- The mean of the node rows of every segment (an empty segment divides by one). -/
def poolOf (h : (⟨S100000x256, .f32⟩ : BufTy).Contents (Elt F)) (idx : (⟨S100000, .i32⟩ : BufTy).Contents (Elt F)) :
    (⟨S5000x256, .f32⟩ : BufTy).Contents (Elt F) :=
  Host.divf
    (Host.scatterAdd scatter_S5000x256_S100000x1_S100000x256_1_0_0_1 (broadcastInDim S5000x256 ![] bcast_S_S5000x256 (constant S_ .f32 0x00000000#32))
      (broadcastInDim S100000x1 ![0] bcast_S100000_S100000x1_0 idx) h)
    (broadcastInDim S5000x256 ![0, 1] bcast_S5000x1_S5000x256_0_1 (broadcastInDim S5000x1 ![0] bcast_S5000_S5000x1_0
      (maximumf
        (Host.scatterAdd scatter_S5000_S100000x1_S100000_n_0_0_1 (broadcastInDim S5000 ![] bcast_S_S5000 (constant S_ .f32 0x00000000#32))
          (broadcastInDim S100000x1 ![0] bcast_S100000_S100000x1_0 idx) (broadcastInDim S100000 ![] bcast_S_S100000 (constant S_ .f32 0x3F800000#32)))
        (broadcastInDim S5000 ![] bcast_S_S5000 (constant S_ .f32 0x3F800000#32)))))

/-- The classifier on the two pooled branches: `relu(cat(p1, p2) @ w1 + b1) @ w2 + b2`. -/
def logitsOf (p1 p2 : (⟨S5000x256, .f32⟩ : BufTy).Contents (Elt F)) (w1 : (⟨S512x256, .f32⟩ : BufTy).Contents (Elt F))
    (b1 : (⟨S256, .f32⟩ : BufTy).Contents (Elt F)) (w2 : (⟨S256x7, .f32⟩ : BufTy).Contents (Elt F))
    (b2 : (⟨S7, .f32⟩ : BufTy).Contents (Elt F)) : (⟨S5000x7, .f32⟩ : BufTy).Contents (Elt F) :=
  addf
    (Host.dotGeneral dot_S5000x256_S256x7_S5000x7_1_0_0_1_n_n none
      (maximumf
        (addf
          (Host.dotGeneral dot_S5000x512_S512x256_S5000x256_1_0_0_1_n_n none
            (concatenate S5000x512 1 [⟨S5000x256, p1⟩, ⟨S5000x256, p2⟩] concatenates_S5000x256_S5000x256_S5000x512_d1) w1)
          (broadcastInDim S5000x256 ![0, 1] bcast_S1x256_S5000x256_0_1 (broadcastInDim S1x256 ![1] bcast_S256_S1x256_1 b1)))
        (broadcastInDim S5000x256 ![] bcast_S_S5000x256 (constant S_ .f32 0x00000000#32)))
      w2)
    (broadcastInDim S5000x7 ![0, 1] bcast_S1x7_S5000x7_0_1 (broadcastInDim S1x7 ![1] bcast_S7_S1x7_1 b2))

/-- A row minus its maximum (`logSoftmaxOf`'s first half). -/
def shiftedOf (x : (⟨S5000x7, .f32⟩ : BufTy).Contents (Elt F)) : (⟨S5000x7, .f32⟩ : BufTy).Contents (Elt F) :=
  subf x (broadcastInDim S5000x7 ![0, 1] bcast_S5000x1_S5000x7_0_1 (broadcastInDim S5000x1 ![0] bcast_S5000_S5000x1_0
    (maximumf (broadcastInDim S5000 ![] bcast_S_S5000 (constant S_ .f32 0xFF800000#32))
      (Host.reduce FloatOps.maximumf x (constant S_ .f32 0xFF800000#32) reducesTo_S5000x7_S5000_d1 h_S_))))

/-- The log-softmax over the classes of every row: the shifted row minus the logarithm of the sum of its exponentials. -/
def logSoftmaxOf (x : (⟨S5000x7, .f32⟩ : BufTy).Contents (Elt F)) : (⟨S5000x7, .f32⟩ : BufTy).Contents (Elt F) :=
  subf (shiftedOf x) (broadcastInDim S5000x7 ![0, 1] bcast_S5000x1_S5000x7_0_1 (Host.log (broadcastInDim S5000x1 ![0] bcast_S5000_S5000x1_0
    (Host.reduceAdd (Host.exp (shiftedOf x)) (constant S_ .f32 0x00000000#32) reducesTo_S5000x7_S5000_d1 h_S_))))

/-- Everything after the second perceptron: pool by both segmentations, classify, log-softmax. -/
def tailOf (h : (⟨S100000x256, .f32⟩ : BufTy).Contents (Elt F)) (idx1 idx2 : (⟨S100000, .i32⟩ : BufTy).Contents (Elt F))
    (w1 : (⟨S512x256, .f32⟩ : BufTy).Contents (Elt F)) (b1 : (⟨S256, .f32⟩ : BufTy).Contents (Elt F))
    (w2 : (⟨S256x7, .f32⟩ : BufTy).Contents (Elt F)) (b2 : (⟨S7, .f32⟩ : BufTy).Contents (Elt F)) :
    (⟨S5000x7, .f32⟩ : BufTy).Contents (Elt F) :=
  logSoftmaxOf (logitsOf (poolOf h idx1) (poolOf h idx2) w1 b1 w2 b2)

/-- One graph convolution as the reference runs it: project, aggregate over the edge list, add the bias, rectify. -/
def convOf (agg : (⟨S100000x256, .f32⟩ : BufTy).Contents (Elt F)) (b : (⟨S256, .f32⟩ : BufTy).Contents (Elt F)) :
    (⟨S100000x256, .f32⟩ : BufTy).Contents (Elt F) := actOf agg b

/-- The whole network as ONE function of the 25 argument arrays. -/
def netOf (x : (⟨S100000x128, .f32⟩ : BufTy).Contents (Elt F)) (e1 e2 : (⟨S2x800000, .i32⟩ : BufTy).Contents (Elt F))
    (idx1 idx2 : (⟨S100000, .i32⟩ : BufTy).Contents (Elt F))
    (w11 : (⟨S128x256, .f32⟩ : BufTy).Contents (Elt F)) (b11 : (⟨S256, .f32⟩ : BufTy).Contents (Elt F))
    (w12 : (⟨S128x256, .f32⟩ : BufTy).Contents (Elt F)) (b12 : (⟨S256, .f32⟩ : BufTy).Contents (Elt F))
    (w21 : (⟨S256x256, .f32⟩ : BufTy).Contents (Elt F)) (b21 : (⟨S256, .f32⟩ : BufTy).Contents (Elt F))
    (w22 : (⟨S256x256, .f32⟩ : BufTy).Contents (Elt F)) (b22 : (⟨S256, .f32⟩ : BufTy).Contents (Elt F))
    (m1w1 : (⟨S512x256, .f32⟩ : BufTy).Contents (Elt F)) (m1b1 : (⟨S256, .f32⟩ : BufTy).Contents (Elt F))
    (m1w2 : (⟨S256x256, .f32⟩ : BufTy).Contents (Elt F)) (m1b2 : (⟨S256, .f32⟩ : BufTy).Contents (Elt F))
    (m2w1 : (⟨S512x256, .f32⟩ : BufTy).Contents (Elt F)) (m2b1 : (⟨S256, .f32⟩ : BufTy).Contents (Elt F))
    (m2w2 : (⟨S256x256, .f32⟩ : BufTy).Contents (Elt F)) (m2b2 : (⟨S256, .f32⟩ : BufTy).Contents (Elt F))
    (mw1 : (⟨S512x256, .f32⟩ : BufTy).Contents (Elt F)) (mb1 : (⟨S256, .f32⟩ : BufTy).Contents (Elt F))
    (mw2 : (⟨S256x7, .f32⟩ : BufTy).Contents (Elt F)) (mb2 : (⟨S7, .f32⟩ : BufTy).Contents (Elt F)) :
    (⟨S5000x7, .f32⟩ : BufTy).Contents (Elt F) :=
  let h1 := mlpOf (actOf (aggOf (dense128 x w11) (rowOf e1) (colOf e1) (disOf (colOf e1))) b11)
                  (actOf (aggOf (dense128 x w12) (rowOf e2) (colOf e2) (disOf (colOf e2))) b12) m1w1 m1b1 m1w2 m1b2
  let h2 := mlpOf (actOf (aggOf (dense256 h1 w21) (rowOf e1) (colOf e1) (disOf (colOf e1))) b21)
                  (actOf (aggOf (dense256 h1 w22) (rowOf e2) (colOf e2) (disOf (colOf e2))) b22) m2w1 m2b1 m2w2 m2b2
  tailOf h2 idx1 idx2 mw1 mb1 mw2 mb2

end Cert.Stages

end
-- ==== Proof.FoldHostA.lean ====
/-
  The kernel program's host operations before its first region and after its last one, read back as stages.
  Before the first region the two edge lists are prepared: sources and targets with a self-loop per node, and the
  inverse square roots of the in-degrees.  After the last region the node rows are pooled by both segmentations,
  classified, and passed through a log-softmax.  Each statement is over arbitrary buffer contents `X` at the start of
  the stretch and for any float instance.
-/
import proofs.«115669_j32847909880071_1_alg».proof.Proof.Gen.KernelIdeal.Launch
import proofs.«115669_j32847909880071_1_alg».proof.Proof.Stages
import Idealize.ShloMosaic.Lib.StableHlo.Run

noncomputable section

namespace Cert.KernelIdeal.FoldHost

open Cert.KernelIdeal Cert.KernelIdeal.Gen Idealize.ShloMosaic Idealize.ShloMosaic.StableHlo Idealize.ShloMosaic.TcCoe
open Cert.Stages

variable {F : FTy → Type} [FloatOps F]

/-- A value carried into a typed reference's buffer and read back out of it is the value: the two transports along the
    reference's type equation cancel. -/
theorem ofBuf_toBuf {T : BufTy} (x : StableHlo.TRef sig T) (v : T.Contents (Elt F)) : x.ofBuf (x.toBuf v) = v := by
  obtain ⟨r, h, _, _⟩ := x; subst h; rfl

set_option maxHeartbeats 4000000 in
set_option maxRecDepth 8192 in
/-- The first edge list's sources, self-loops appended. -/
theorem s0_v5 (X : Valuation τ sig (Elt F)) :
    after hostOps0_3 (after hostOps0_2 (after hostOps0_1 (after hostOps0 X))) (Proc.devRef .tc main_v5)
      = rowOf (X (Proc.devRef .tc main_arg1)) := by
  simp only [hostOps0, hostOps0_1, hostOps0_2, hostOps0_3]
  after_results_simp
  rfl

set_option maxHeartbeats 4000000 in
set_option maxRecDepth 8192 in
/-- The first edge list's targets, self-loops appended. -/
theorem s0_v6 (X : Valuation τ sig (Elt F)) :
    after hostOps0_3 (after hostOps0_2 (after hostOps0_1 (after hostOps0 X))) (Proc.devRef .tc main_v6)
      = colOf (X (Proc.devRef .tc main_arg1)) := by
  simp only [hostOps0, hostOps0_1, hostOps0_2, hostOps0_3]
  after_results_simp
  rfl

set_option maxHeartbeats 4000000 in
set_option maxRecDepth 8192 in
/-- The first edge list's inverse square-root degrees. -/
theorem s0_v14 (X : Valuation τ sig (Elt F)) :
    after hostOps0_3 (after hostOps0_2 (after hostOps0_1 (after hostOps0 X))) (Proc.devRef .tc main_v14)
      = disOf (colOf (X (Proc.devRef .tc main_arg1))) := by
  simp only [hostOps0, hostOps0_1, hostOps0_2, hostOps0_3]
  after_results_simp
  rfl

set_option maxHeartbeats 4000000 in
set_option maxRecDepth 8192 in
/-- The second edge list's sources, self-loops appended. -/
theorem s0_v20 (X : Valuation τ sig (Elt F)) :
    after hostOps0_3 (after hostOps0_2 (after hostOps0_1 (after hostOps0 X))) (Proc.devRef .tc main_v20)
      = rowOf (X (Proc.devRef .tc main_arg2)) := by
  simp only [hostOps0, hostOps0_1, hostOps0_2, hostOps0_3]
  after_results_simp
  rfl

set_option maxHeartbeats 4000000 in
set_option maxRecDepth 8192 in
/-- The second edge list's targets, self-loops appended. -/
theorem s0_v21 (X : Valuation τ sig (Elt F)) :
    after hostOps0_3 (after hostOps0_2 (after hostOps0_1 (after hostOps0 X))) (Proc.devRef .tc main_v21)
      = colOf (X (Proc.devRef .tc main_arg2)) := by
  simp only [hostOps0, hostOps0_1, hostOps0_2, hostOps0_3]
  after_results_simp
  rfl

set_option maxHeartbeats 4000000 in
set_option maxRecDepth 8192 in
/-- The second edge list's inverse square-root degrees. -/
theorem s0_v29 (X : Valuation τ sig (Elt F)) :
    after hostOps0_3 (after hostOps0_2 (after hostOps0_1 (after hostOps0 X))) (Proc.devRef .tc main_v29)
      = disOf (colOf (X (Proc.devRef .tc main_arg2))) := by
  simp only [hostOps0, hostOps0_1, hostOps0_2, hostOps0_3]
  after_results_simp
  rfl

set_option maxHeartbeats 4000000 in
set_option maxRecDepth 8192 in
/-- Everything after the last region: pooling, the classifier, the log-softmax. -/
theorem tail_v184 (X : Valuation τ sig (Elt F)) :
    after hostOps4_3 (after hostOps4_2 (after hostOps4_1 (after hostOps4 X))) (Proc.devRef .tc main_v184)
      = tailOf (X (Proc.devRef .tc main_v149)) (X (Proc.devRef .tc main_arg3)) (X (Proc.devRef .tc main_arg4)) (X (Proc.devRef .tc main_arg21)) (X (Proc.devRef .tc main_arg22)) (X (Proc.devRef .tc main_arg23)) (X (Proc.devRef .tc main_arg24)) := by
  simp only [hostOps4, hostOps4_1, hostOps4_2, hostOps4_3]
  after_results_simp
  simp only [ofBuf_toBuf]
  rfl

end Cert.KernelIdeal.FoldHost

end
-- ==== Proof.FoldHostB.lean ====
/-
  The kernel program's host operations between its regions, read back as stages: after each dual projection the two
  projected feature arrays are aggregated over their edge lists (one round of message passing each), and the stacked
  first-layer weights of the perceptron that follows are cut into their two halves.  Each statement is over arbitrary
  buffer contents `X` at the start of the stretch and for any float instance.
-/
import proofs.«115669_j32847909880071_1_alg».proof.Proof.Gen.KernelIdeal.Launch
import proofs.«115669_j32847909880071_1_alg».proof.Proof.Stages
import Idealize.ShloMosaic.Lib.StableHlo.Run

noncomputable section

namespace Cert.KernelIdeal.FoldHost

open Cert.KernelIdeal Cert.KernelIdeal.Gen Idealize.ShloMosaic Idealize.ShloMosaic.StableHlo Idealize.ShloMosaic.TcCoe
open Cert.Stages

variable {F : FTy → Type} [FloatOps F]

set_option maxHeartbeats 4000000 in
set_option maxRecDepth 8192 in
/-- Round 1, first branch: the projection aggregated over the first edge list. -/
theorem s1_v58 (X : Valuation τ sig (Elt F)) :
    after hostOps1 X (Proc.devRef .tc main_v58)
      = aggOf (X (Proc.devRef .tc main_v30_0)) (X (Proc.devRef .tc main_v5)) (X (Proc.devRef .tc main_v6)) (X (Proc.devRef .tc main_v14)) := by
  simp only [hostOps1]
  after_results_simp
  rfl

set_option maxHeartbeats 4000000 in
set_option maxRecDepth 8192 in
/-- Round 1, second branch: the projection aggregated over the second edge list. -/
theorem s1_v86 (X : Valuation τ sig (Elt F)) :
    after hostOps1 X (Proc.devRef .tc main_v86)
      = aggOf (X (Proc.devRef .tc main_v30_1)) (X (Proc.devRef .tc main_v20)) (X (Proc.devRef .tc main_v21)) (X (Proc.devRef .tc main_v29)) := by
  simp only [hostOps1]
  after_results_simp
  rfl

set_option maxHeartbeats 4000000 in
set_option maxRecDepth 8192 in
/-- The first perceptron's weights for the first branch. -/
theorem s1_v87 (X : Valuation τ sig (Elt F)) :
    after hostOps1 X (Proc.devRef .tc main_v87)
      = sliceLo (X (Proc.devRef .tc main_arg13)) := by
  simp only [hostOps1]
  after_results_simp
  rfl

set_option maxHeartbeats 4000000 in
set_option maxRecDepth 8192 in
/-- The first perceptron's weights for the second branch. -/
theorem s1_v88 (X : Valuation τ sig (Elt F)) :
    after hostOps1 X (Proc.devRef .tc main_v88)
      = sliceHi (X (Proc.devRef .tc main_arg13)) := by
  simp only [hostOps1]
  after_results_simp
  rfl

set_option maxHeartbeats 4000000 in
set_option maxRecDepth 8192 in
/-- Round 2, first branch: the projection aggregated over the first edge list. -/
theorem s2_v118 (X : Valuation τ sig (Elt F)) :
    after hostOps3 X (Proc.devRef .tc main_v118)
      = aggOf (X (Proc.devRef .tc main_v90_0)) (X (Proc.devRef .tc main_v5)) (X (Proc.devRef .tc main_v6)) (X (Proc.devRef .tc main_v14)) := by
  simp only [hostOps3]
  after_results_simp
  rfl

set_option maxHeartbeats 4000000 in
set_option maxRecDepth 8192 in
/-- Round 2, second branch: the projection aggregated over the second edge list. -/
theorem s2_v146 (X : Valuation τ sig (Elt F)) :
    after hostOps3 X (Proc.devRef .tc main_v146)
      = aggOf (X (Proc.devRef .tc main_v90_1)) (X (Proc.devRef .tc main_v20)) (X (Proc.devRef .tc main_v21)) (X (Proc.devRef .tc main_v29)) := by
  simp only [hostOps3]
  after_results_simp
  rfl

set_option maxHeartbeats 4000000 in
set_option maxRecDepth 8192 in
/-- The second perceptron's weights for the first branch. -/
theorem s2_v147 (X : Valuation τ sig (Elt F)) :
    after hostOps3 X (Proc.devRef .tc main_v147)
      = sliceLo (X (Proc.devRef .tc main_arg17)) := by
  simp only [hostOps3]
  after_results_simp
  rfl

set_option maxHeartbeats 4000000 in
set_option maxRecDepth 8192 in
/-- The second perceptron's weights for the second branch. -/
theorem s2_v148 (X : Valuation τ sig (Elt F)) :
    after hostOps3 X (Proc.devRef .tc main_v148)
      = sliceHi (X (Proc.devRef .tc main_arg17)) := by
  simp only [hostOps3]
  after_results_simp
  rfl

end Cert.KernelIdeal.FoldHost

end
-- ==== Proof.Region0.lean ====
/-
  Region 0: the dual projection x @ w1, x @ w2 with 128 input features.

  The region runs over 50 points. At point t the body reads rows 2000 * t … 2000 * t + 1999 of x ([100000, 128]) and
  both weight matrices ([128, 256]) whole, multiplies the row block by each weight matrix into a zero accumulator
  (the conversions to bf16 are the identity on extended reals), and writes the two [2000, 256] products back as row
  block t of the two outputs ([100000, 256]).

  Entry (r, j) of a block product is the sum over k of x (2000 * t + r, k) * w (k, j), which is entry
  (2000 * t + r, j) of the whole product x @ w; row i of an output lies in the block of point i / 2000, so the 50
  blocks cover the array and each output ends as the whole product of the arrays the region found.
-/
import proofs.«115669_j32847909880071_1_alg».proof.Proof.Stages
import proofs.«115669_j32847909880071_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region

open Idealize.ShloMosaic Idealize.ShloMosaic.TcCoe Idealize.ShloMosaic.ValueIdx Cert.KernelIdeal Cert.KernelIdeal.Gen
open Idealize.ShloMosaic.Pipeline (Dat)
open scoped BigOperators

namespace Dual0

/-! ## The two products read at an index -/

/-- The host product's operand indices, coordinate by coordinate: the left operand is read at the output's row and the
    contraction coordinate, the right operand at the contraction coordinate and the output's column. -/
theorem host_lhs_0 (i : Cert.ReferenceIdeal.S100000x256.Idx) (q : Cert.ReferenceIdeal.dot_S100000x128_S128x256_S100000x256_1_0_0_1_n_n.contr.Idx) : (Cert.ReferenceIdeal.dot_S100000x128_S128x256_S100000x256_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x256_S100000x256_1_0_0_1_n_n.lhsBatch by decide), dif_pos (show (0 : Fin Cert.ReferenceIdeal.S100000x128.rank) ∈ Cert.ReferenceIdeal.dot_S100000x128_S128x256_S100000x256_1_0_0_1_n_n.lhsNonContracting by decide)]
  rfl
theorem host_lhs_1 (i : Cert.ReferenceIdeal.S100000x256.Idx) (q : Cert.ReferenceIdeal.dot_S100000x128_S128x256_S100000x256_1_0_0_1_n_n.contr.Idx) : (Cert.ReferenceIdeal.dot_S100000x128_S128x256_S100000x256_1_0_0_1_n_n.lhsIdx i q 1).val = (q ⟨0, by decide⟩).val :=
  Cert.ReferenceIdeal.dot_S100000x128_S128x256_S100000x256_1_0_0_1_n_n.lhsIdx_val_of_single rfl i q
theorem host_rhs_0 (i : Cert.ReferenceIdeal.S100000x256.Idx) (q : Cert.ReferenceIdeal.dot_S100000x128_S128x256_S100000x256_1_0_0_1_n_n.contr.Idx) : (Cert.ReferenceIdeal.dot_S100000x128_S128x256_S100000x256_1_0_0_1_n_n.rhsIdx i q 0).val = (q ⟨0, by decide⟩).val :=
  Cert.ReferenceIdeal.dot_S100000x128_S128x256_S100000x256_1_0_0_1_n_n.rhsIdx_val_of_single rfl i q
theorem host_rhs_1 (i : Cert.ReferenceIdeal.S100000x256.Idx) (q : Cert.ReferenceIdeal.dot_S100000x128_S128x256_S100000x256_1_0_0_1_n_n.contr.Idx) : (Cert.ReferenceIdeal.dot_S100000x128_S128x256_S100000x256_1_0_0_1_n_n.rhsIdx i q 1).val = (i 1).val := by
  unfold DotDims.rhsIdx
  rw [dif_neg (show ¬(1 : Fin Cert.ReferenceIdeal.S128x256.rank) ∈ Cert.ReferenceIdeal.dot_S100000x128_S128x256_S100000x256_1_0_0_1_n_n.rhsBatch by decide), dif_pos (show (1 : Fin Cert.ReferenceIdeal.S128x256.rank) ∈ Cert.ReferenceIdeal.dot_S100000x128_S128x256_S100000x256_1_0_0_1_n_n.rhsNonContracting by decide)]
  rfl

/-- At output (r, j) and contraction coordinate k the host product reads its left operand at (r, k). -/
theorem host_lhs (r : Fin 100000) (j : Fin 256) (k : Fin 128) :
    Cert.ReferenceIdeal.dot_S100000x128_S128x256_S100000x256_1_0_0_1_n_n.lhsIdx (ix2 r j) ((ValueIdx.contrEquiv1 Cert.ReferenceIdeal.dot_S100000x128_S128x256_S100000x256_1_0_0_1_n_n 128 rfl rfl).symm k) = ix2 r k := by
  have hk := ValueIdx.contrEquiv1_symm_val Cert.ReferenceIdeal.dot_S100000x128_S128x256_S100000x256_1_0_0_1_n_n 128 rfl rfl k
  exact funext fun a => Fin.ext (by
    match a with
    | ⟨0, _⟩ => exact host_lhs_0 _ _
    | ⟨1, _⟩ => exact (host_lhs_1 _ _).trans hk)

/-- … and its right operand at (k, j). -/
theorem host_rhs (r : Fin 100000) (j : Fin 256) (k : Fin 128) :
    Cert.ReferenceIdeal.dot_S100000x128_S128x256_S100000x256_1_0_0_1_n_n.rhsIdx (ix2 r j) ((ValueIdx.contrEquiv1 Cert.ReferenceIdeal.dot_S100000x128_S128x256_S100000x256_1_0_0_1_n_n 128 rfl rfl).symm k) = ix2 k j := by
  have hk := ValueIdx.contrEquiv1_symm_val Cert.ReferenceIdeal.dot_S100000x128_S128x256_S100000x256_1_0_0_1_n_n 128 rfl rfl k
  exact funext fun a => Fin.ext (by
    match a with
    | ⟨0, _⟩ => exact (host_rhs_0 _ _).trans hk
    | ⟨1, _⟩ => exact host_rhs_1 _ _)

/-- The host product at an index: entry (r, j) of x @ w is the sum over k of x (r, k) * w (k, j). -/
theorem dense_apply (x : (⟨S100000x128, .f32⟩ : BufTy).Contents (Elt Ideal)) (w : (⟨S128x256, .f32⟩ : BufTy).Contents (Elt Ideal))
    (r : Fin 100000) (j : Fin 256) :
    Cert.Stages.dense128 (F := Ideal) x w (ix2 r j) = ∑ k : Fin 128, x (ix2 r k) * w (ix2 k j) := by
  unfold Cert.Stages.dense128
  simp only [Host.dotGeneral]
  rw [Ideal.dotGeneral_apply, ← Equiv.sum_comp (ValueIdx.contrEquiv1 Cert.ReferenceIdeal.dot_S100000x128_S128x256_S100000x256_1_0_0_1_n_n 128 rfl rfl).symm]
  refine Finset.sum_congr rfl fun k _ => ?_
  rw [host_lhs, host_rhs]

/-- The block product's operand indices, coordinate by coordinate: the left operand is read at the output's row and the
    contraction coordinate, the right operand at the contraction coordinate and the output's column. -/
theorem blk_lhs_0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem blk_lhs_1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem blk_rhs_0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem blk_rhs_1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- At output (r, j) and contraction coordinate k the block product reads its left operand at (r, k). -/
theorem blk_lhs (r : Fin 2000) (j : Fin 256) (k : Fin 128) :
    dot_S2000x128_S128x256_S2000x256_1_0_0_1_n_n.lhsIdx (ix2 r j) ((ValueIdx.contrEquiv1 dot_S2000x128_S128x256_S2000x256_1_0_0_1_n_n 128 rfl rfl).symm k) = ix2 r k := by
  have hk := ValueIdx.contrEquiv1_symm_val dot_S2000x128_S128x256_S2000x256_1_0_0_1_n_n 128 rfl rfl k
  exact funext fun a => Fin.ext (by
    match a with
    | ⟨0, _⟩ => exact blk_lhs_0 _ _
    | ⟨1, _⟩ => exact (blk_lhs_1 _ _).trans hk)

/-- … and its right operand at (k, j). -/
theorem blk_rhs (r : Fin 2000) (j : Fin 256) (k : Fin 128) :
    dot_S2000x128_S128x256_S2000x256_1_0_0_1_n_n.rhsIdx (ix2 r j) ((ValueIdx.contrEquiv1 dot_S2000x128_S128x256_S2000x256_1_0_0_1_n_n 128 rfl rfl).symm k) = ix2 k j := by
  have hk := ValueIdx.contrEquiv1_symm_val dot_S2000x128_S128x256_S2000x256_1_0_0_1_n_n 128 rfl rfl k
  exact funext fun a => Fin.ext (by
    match a with
    | ⟨0, _⟩ => exact (blk_rhs_0 _ _).trans hk
    | ⟨1, _⟩ => exact blk_rhs_1 _ _)

/-- The body's first product at an index of the block: the conversions to bf16 are the identity on extended reals and
    the accumulator is zero, so entry (r, j) is the sum over k of x (r, k) * w (k, j). -/
theorem pay_first_apply (x0 : Vec Ideal S2000x128 .f32) (w : Vec Ideal S128x256 .f32) (r : Fin 2000) (j : Fin 256) :
    k0_pay2 x0 w (ix2 r j) = ∑ k : Fin 128, x0 (ix2 r k) * w (ix2 k j) := by
  unfold k0_pay2 k0_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  rw [blk_lhs, blk_rhs]
  rfl

/-- The body's second product, likewise. -/
theorem pay_second_apply (x0 : Vec Ideal S2000x128 .f32) (w : Vec Ideal S128x256 .f32) (r : Fin 2000) (j : Fin 256) :
    k0_pay3 x0 w (ix2 r j) = ∑ k : Fin 128, x0 (ix2 r k) * w (ix2 k j) := by
  unfold k0_pay3 k0_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  rw [blk_lhs, blk_rhs]
  rfl

/-! ## From the blocks to the arrays -/

theorem hz : (![0, 0] : Fin 2 → Nat) = fun _ => 0 := funext fun a => by fin_cases a <;> rfl

/-- One term of the sum, read at equal indices. -/
theorem term_congr (x : (⟨S100000x128, .f32⟩ : BufTy).Contents (Elt Ideal)) (w : (⟨S128x256, .f32⟩ : BufTy).Contents (Elt Ideal))
    {a a' : S100000x128.Idx} {b b' : S128x256.Idx} (ha : a = a') (hb : b = b') : x a * w b = x a' * w b' := by
  rw [ha, hb]

/-- The windows' block index maps over the 50 points: the row-blocked windows (x and the two outputs) sit at block
    row t, column block 0; the weight windows are whole at every point. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 49 ∧ win0_3.index t (1 : Fin 2) = 0
    ∧ win0_4.index t (0 : Fin 2) = win0_3.index t (0 : Fin 2) ∧ win0_4.index t (1 : Fin 2) = 0 :=
  (by decide +kernel : ∀ t : Fin grid0.N, _)

/-- Every block row is some point's. -/
theorem idx_onto : ∀ q : Fin 50, ∃ t : Fin cfg0.N, win0_3.index t (0 : Fin 2) = q.val :=
  (by decide +kernel : ∀ q : Fin 50, ∃ t : Fin grid0.N, win0_3.index t (0 : Fin 2) = q.val)

/-- An index of output array one is in point t's block iff each coordinate is in the block's range on its axis. -/
theorem mem_blk3 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v30_0).slice (win0_3.rect t)).set ↔ _
  rw [View.set_slice_whole, Rect.mem_set_unit]
  exact Iff.rfl

/-- What point t writes back to output array one is block t of x @ w1: row r of the block is row
    2000 * t + r of the array, and the weights are whole at every point. -/
theorem flushed3_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Cert.Stages.dense128 (F := Ideal) (V c (Pipeline.arrRef spec0 0)) (V c (Pipeline.arrRef spec0 1))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz]
  obtain ⟨e00, e01, e10, e11, e20, e21, e30, e31, e40, e41⟩ := idx_facts t
  funext y
  obtain ⟨r, j, rfl⟩ : ∃ (r : Fin 2000) (j : Fin 256), y = ix2 r j := ⟨y 0, y 1, eq_ix2 y⟩
  refine (pay_first_apply (iblk0 V c 0 t) (iblk0 V c 1 t) r j).trans ?_
  show _ = Cert.Stages.dense128 (F := Ideal) (V c (Pipeline.arrRef spec0 0)) (V c (Pipeline.arrRef spec0 1)) (((cfg0.win 3).blk t).view.emb (ix2 r j))
  obtain ⟨p, q, hpq⟩ : ∃ (p : Fin 100000) (q : Fin 256), ((cfg0.win 3).blk t).view.emb (ix2 r j) = ix2 p q := ⟨_, _, eq_ix2 _⟩
  have hp : win0_3.index t (0 : Fin 2) * 2000 + 1 * r.val = p.val := congrArg (fun f => (f 0).val) hpq
  have hq : win0_3.index t (1 : Fin 2) * 256 + 1 * j.val = q.val := congrArg (fun f => (f 1).val) hpq
  rw [hpq, dense_apply]
  refine Finset.sum_congr rfl fun k _ => ?_
  have hx : ((cfg0.win 0).blk t).view.emb (ix2 r k) = ix2 p k := by
    funext a; apply Fin.ext
    match a with
    | ⟨0, _⟩ => show win0_0.index t (0 : Fin 2) * 2000 + 1 * r.val = p.val; omega
    | ⟨1, _⟩ => show win0_0.index t (1 : Fin 2) * 128 + 1 * k.val = k.val; omega
  have hw : ((cfg0.win 1).blk t).view.emb (ix2 k j) = ix2 k q := by
    funext a; apply Fin.ext
    match a with
    | ⟨0, _⟩ => show win0_1.index t (0 : Fin 2) * 128 + 1 * k.val = k.val; omega
    | ⟨1, _⟩ => show win0_1.index t (1 : Fin 2) * 256 + 1 * j.val = q.val; omega
  exact term_congr (V c (Pipeline.arrRef spec0 0)) (V c (Pipeline.arrRef spec0 1)) hx hw

/-- Every index of output array one is in some point's block: row i is in the block of point i / 2000. -/
theorem cover3 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := idx_onto ⟨(i 0).val / 2000, by omega⟩
  obtain ⟨e00, e01, e10, e11, e20, e21, e30, e31, e40, e41⟩ := idx_facts t
  have q0 : win0_3.index t (0 : Fin 2) = (i 0).val / 2000 := ht
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- An index of output array two is in point t's block iff each coordinate is in the block's range on its axis. -/
theorem mem_blk4 (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v30_1).slice (win0_4.rect t)).set ↔ _
  rw [View.set_slice_whole, Rect.mem_set_unit]
  exact Iff.rfl

/-- What point t writes back to output array two is block t of x @ w2: row r of the block is row
    2000 * t + r of the array, and the weights are whole at every point. -/
theorem flushed4_eq (V : (c : Dev nD) → (b : Ref sig .tc) → Buf (Elt Ideal) ((c : Thread nD τ).loc b)) (c : Dev nD) (t : Fin cfg0.N) :
    (dat0 (F := Ideal) V c).flushed 4 t = ((cfg0.win 4).blk t).view.read (Elt Ideal)
      (Cert.Stages.dense128 (F := Ideal) (V c (Pipeline.arrRef spec0 0)) (V c (Pipeline.arrRef spec0 2))) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x256) hz]
  obtain ⟨e00, e01, e10, e11, e20, e21, e30, e31, e40, e41⟩ := idx_facts t
  funext y
  obtain ⟨r, j, rfl⟩ : ∃ (r : Fin 2000) (j : Fin 256), y = ix2 r j := ⟨y 0, y 1, eq_ix2 y⟩
  refine (pay_second_apply (iblk0 V c 0 t) (iblk0 V c 2 t) r j).trans ?_
  show _ = Cert.Stages.dense128 (F := Ideal) (V c (Pipeline.arrRef spec0 0)) (V c (Pipeline.arrRef spec0 2)) (((cfg0.win 4).blk t).view.emb (ix2 r j))
  obtain ⟨p, q, hpq⟩ : ∃ (p : Fin 100000) (q : Fin 256), ((cfg0.win 4).blk t).view.emb (ix2 r j) = ix2 p q := ⟨_, _, eq_ix2 _⟩
  have hp : win0_4.index t (0 : Fin 2) * 2000 + 1 * r.val = p.val := congrArg (fun f => (f 0).val) hpq
  have hq : win0_4.index t (1 : Fin 2) * 256 + 1 * j.val = q.val := congrArg (fun f => (f 1).val) hpq
  rw [hpq, dense_apply]
  refine Finset.sum_congr rfl fun k _ => ?_
  have hx : ((cfg0.win 0).blk t).view.emb (ix2 r k) = ix2 p k := by
    funext a; apply Fin.ext
    match a with
    | ⟨0, _⟩ => show win0_0.index t (0 : Fin 2) * 2000 + 1 * r.val = p.val; omega
    | ⟨1, _⟩ => show win0_0.index t (1 : Fin 2) * 128 + 1 * k.val = k.val; omega
  have hw : ((cfg0.win 2).blk t).view.emb (ix2 k j) = ix2 k q := by
    funext a; apply Fin.ext
    match a with
    | ⟨0, _⟩ => show win0_2.index t (0 : Fin 2) * 128 + 1 * k.val = k.val; omega
    | ⟨1, _⟩ => show win0_2.index t (1 : Fin 2) * 256 + 1 * j.val = q.val; omega
  exact term_congr (V c (Pipeline.arrRef spec0 0)) (V c (Pipeline.arrRef spec0 2)) hx hw

/-- Every index of output array two is in some point's block: row i is in the block of point i / 2000. -/
theorem cover4 (i : S100000x256.Idx) : ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ := idx_onto ⟨(i 0).val / 2000, by omega⟩
  obtain ⟨e00, e01, e10, e11, e20, e21, e30, e31, e40, e41⟩ := idx_facts t
  have q0 : win0_4.index t (0 : Fin 2) = (i 0).val / 2000 := by rw [e40]; exact ht
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

end Dual0

/-- After region 0, output array one is x @ w1 of the arrays the region found. -/
theorem region0_out3 (V : (c : Dev nD) → (b : Ref sig .tc) → Buf (Elt Ideal) ((c : Thread nD τ).loc b)) (c : Dev nD) :
    (Gen.dat0 (F := Ideal) V c).arrAt 3 cfg0.N = Cert.Stages.dense128 (F := Ideal) (V c (Pipeline.arrRef spec0 0)) (V c (Pipeline.arrRef spec0 1)) :=
  (Gen.dat0 (F := Ideal) V c).arrAt_eq_of_cover 3 _ (fun t _ => Dual0.flushed3_eq V c t) Dual0.cover3

/-- After region 0, output array two is x @ w2 of the arrays the region found. -/
theorem region0_out4 (V : (c : Dev nD) → (b : Ref sig .tc) → Buf (Elt Ideal) ((c : Thread nD τ).loc b)) (c : Dev nD) :
    (Gen.dat0 (F := Ideal) V c).arrAt 4 cfg0.N = Cert.Stages.dense128 (F := Ideal) (V c (Pipeline.arrRef spec0 0)) (V c (Pipeline.arrRef spec0 2)) :=
  (Gen.dat0 (F := Ideal) V c).arrAt_eq_of_cover 4 _ (fun t _ => Dual0.flushed4_eq V c t) Dual0.cover4

end Cert.KernelIdeal.Region

end
-- ==== Proof.RegionMlpAlgebra.lean ====
/-
  The perceptron that mixes two branches, read at one entry.

  Entry (i, j) of `relu(cat(x1, x2) @ w1 + b1) @ w2 + b2` depends on row i of the two branches only.  With the stacked
  first-layer weights cut into their upper rows (those that meet the first branch) and their lower rows (those that meet
  the second), the product of the concatenation is the sum of the two branch products: a sum over 512 = 256 + 256 terms
  splits at 256.  `mlpAt` is the entry as that explicit double sum over one row of each branch; `mlpOf_apply` says the
  whole-array stage `Cert.Stages.mlpOf` is `mlpAt` at every entry.  Addition of extended reals is commutative and
  associative, so no finiteness is asked anywhere.
-/
import proofs.«115669_j32847909880071_1_alg».proof.Proof.Stages
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx Cert.ReferenceIdeal Cert.ReferenceIdeal.Gen Cert.Stages

/-- Row `l` of the upper half of the 512 stacked rows. -/
abbrev lo (l : Fin 256) : Fin 512 := ⟨l.val, by have := l.isLt; omega⟩
/-- Row `l` of the lower half of the 512 stacked rows. -/
abbrev hi (l : Fin 256) : Fin 512 := ⟨256 + l.val, by have := l.isLt; omega⟩

/-- One entry of the perceptron from one row of each branch (`x1`, `x2`), the first layer's weights against each branch
    (`wa`, `wb`), its bias, and the second layer's weights and bias. -/
def mlpAt (x1 x2 : Fin 256 → EReal) (wa wb : Fin 256 → Fin 256 → EReal) (b1 : Fin 256 → EReal)
    (w2 : Fin 256 → Fin 256 → EReal) (b2 : Fin 256 → EReal) (j : Fin 256) : EReal :=
  (∑ k : Fin 256, max (((∑ l : Fin 256, x1 l * wa l k) + (∑ l : Fin 256, x2 l * wb l k)) + b1 k) 0 * w2 k j) + b2 j

/-- A sum over the 512 stacked rows is the sum over the upper 256 plus the sum over the lower 256. -/
theorem sum_split (f : Fin 512 → EReal) : ∑ k : Fin 512, f k = (∑ l : Fin 256, f (lo l)) + (∑ l : Fin 256, f (hi l)) := by
  have h := Fin.sum_univ_add (M := EReal) (a := 256) (b := 256) f
  refine h.trans ?_
  congr 1

/-- A bias row repeated along the rows reads, at (i, j), its entry j. -/
theorem biasOf_apply (b : (⟨S256, .f32⟩ : BufTy).Contents (Elt Ideal)) (i : Fin 100000) (j : Fin 256) :
    biasOf (F := Ideal) b (ix2 i j) = b (ix1 j) := by
  unfold biasOf
  refine (broadcastInDim_apply _ bcast_S1x256_S100000x256_0_1 _ (ix2 i j) (ix2 (0 : Fin 1) j) (fun a => match a with
    | ⟨0, _⟩ => by show 0 = if (1 : Nat) = 1 then 0 else i.val; rw [if_pos rfl]
    | ⟨1, _⟩ => by show j.val = if (256 : Nat) = 1 then 0 else j.val; rw [if_neg (by decide)])).trans ?_
  exact broadcastInDim_apply _ bcast_S256_S1x256_1 b (ix2 (0 : Fin 1) j) (ix1 j) (fun a => match a with
    | ⟨0, _⟩ => by show j.val = if (256 : Nat) = 1 then 0 else j.val; rw [if_neg (by decide)])

/-- The rectifier at an entry: the maximum with zero. -/
theorem reluOf_apply (x : (⟨S100000x256, .f32⟩ : BufTy).Contents (Elt Ideal)) (i : Fin 100000) (j : Fin 256) :
    reluOf (F := Ideal) x (ix2 i j) = max (x (ix2 i j)) 0 := by
  unfold reluOf
  show max (x (ix2 i j)) (broadcastInDim S100000x256 ![] bcast_S_S100000x256 (constant (F := Ideal) S_ .f32 0x00000000#32) (ix2 i j)) = _
  rw [broadcastInDim_apply _ bcast_S_S100000x256 _ (ix2 i j) ix0 (fun a => a.elim0)]
  show max _ (Ideal.ofBits .f32 0x00000000#32) = _
  rw [Ideal.ofBits_zero_f32]

/-- Bias, then rectifier, at an entry. -/
theorem actOf_apply (a : (⟨S100000x256, .f32⟩ : BufTy).Contents (Elt Ideal)) (b : (⟨S256, .f32⟩ : BufTy).Contents (Elt Ideal))
    (i : Fin 100000) (j : Fin 256) : actOf (F := Ideal) a b (ix2 i j) = max (a (ix2 i j) + b (ix1 j)) 0 := by
  unfold actOf
  rw [reluOf_apply]
  show max (a (ix2 i j) + biasOf (F := Ideal) b (ix2 i j)) 0 = _
  rw [biasOf_apply]

/-- The upper half of the stacked weights at (l, k) is the stack at (l, k). -/
theorem sliceLo_apply (w : (⟨S512x256, .f32⟩ : BufTy).Contents (Elt Ideal)) (l k : Fin 256) :
    sliceLo (F := Ideal) w (ix2 l k) = w (ix2 (lo l) k) := by
  unfold sliceLo
  exact extractStridedSlice_apply ![0, 0] w slices_lo (ix2 l k) (ix2 (lo l) k) (fun a => match a with
    | ⟨0, _⟩ => by show l.val = 0 + l.val; omega
    | ⟨1, _⟩ => by show k.val = 0 + k.val; omega)

/-- The lower half of the stacked weights at (l, k) is the stack at (256 + l, k). -/
theorem sliceHi_apply (w : (⟨S512x256, .f32⟩ : BufTy).Contents (Elt Ideal)) (l k : Fin 256) :
    sliceHi (F := Ideal) w (ix2 l k) = w (ix2 (hi l) k) := by
  unfold sliceHi
  exact extractStridedSlice_apply ![256, 0] w slices_hi (ix2 l k) (ix2 (hi l) k) (fun a => match a with
    | ⟨0, _⟩ => by show 256 + l.val = 256 + l.val; rfl
    | ⟨1, _⟩ => by show k.val = 0 + k.val; omega)

/-- Two branches side by side: a column of the left half reads the first branch. -/
theorem catOf_lo (x1 x2 : (⟨S100000x256, .f32⟩ : BufTy).Contents (Elt Ideal)) (i : Fin 100000) (l : Fin 256) :
    catOf (F := Ideal) x1 x2 (ix2 i (lo l)) = x1 (ix2 i l) := by
  unfold catOf
  exact concatenate_pair_apply_left (1 : Fin S100000x512.rank) x1 x2 concatenates_S100000x256_S100000x256_S100000x512_d1
    (ix2 i (lo l)) rfl (ix2 i l) (fun b => match b with
      | ⟨0, _⟩ => rfl
      | ⟨1, _⟩ => rfl)

/-- A column of the right half reads the second branch, 256 columns to the left. -/
theorem catOf_hi (x1 x2 : (⟨S100000x256, .f32⟩ : BufTy).Contents (Elt Ideal)) (i : Fin 100000) (l : Fin 256) :
    catOf (F := Ideal) x1 x2 (ix2 i (hi l)) = x2 (ix2 i l) := by
  unfold catOf
  exact concatenate_pair_apply_right (1 : Fin S100000x512.rank) x1 x2 concatenates_S100000x256_S100000x256_S100000x512_d1
    (ix2 i (hi l)) rfl rfl (ix2 i l) (fun b => match b with
      | ⟨0, _⟩ => fun _ => rfl
      | ⟨1, _⟩ => fun h => absurd rfl h)
    (by show l.val + 256 = 256 + l.val; omega)

theorem dense512_lhs0 (i : S100000x256.Idx) (q : dot_S100000x512_S512x256_S100000x256_1_0_0_1_n_n.contr.Idx) :
    (dot_S100000x512_S512x256_S100000x256_1_0_0_1_n_n.lhsIdx i q 0).val = (i 0).val := by
  unfold DotDims.lhsIdx
  rw [dif_neg (show ¬(0 : Fin S100000x512.rank) ∈ dot_S100000x512_S512x256_S100000x256_1_0_0_1_n_n.lhsBatch by decide), dif_pos (show (0 : Fin S100000x512.rank) ∈ dot_S100000x512_S512x256_S100000x256_1_0_0_1_n_n.lhsNonContracting by decide)]
  rfl
theorem dense512_rhs1 (i : S100000x256.Idx) (q : dot_S100000x512_S512x256_S100000x256_1_0_0_1_n_n.contr.Idx) :
    (dot_S100000x512_S512x256_S100000x256_1_0_0_1_n_n.rhsIdx i q 1).val = (i 1).val := by
  unfold DotDims.rhsIdx
  rw [dif_neg (show ¬(1 : Fin S512x256.rank) ∈ dot_S100000x512_S512x256_S100000x256_1_0_0_1_n_n.rhsBatch by decide), dif_pos (show (1 : Fin S512x256.rank) ∈ dot_S100000x512_S512x256_S100000x256_1_0_0_1_n_n.rhsNonContracting by decide)]
  rfl
/-- The product with the 512 stacked rows at an entry: the sum over the 512 columns of the row against the 512 rows of the column. -/
theorem dense512_apply (x : (⟨S100000x512, .f32⟩ : BufTy).Contents (Elt Ideal)) (w : (⟨S512x256, .f32⟩ : BufTy).Contents (Elt Ideal))
    (i : Fin 100000) (j : Fin 256) : dense512 (F := Ideal) x w (ix2 i j) = ∑ k : Fin 512, x (ix2 i k) * w (ix2 k j) := by
  unfold dense512
  simp only [Host.dotGeneral]
  rw [Ideal.dotGeneral_apply, ← Equiv.sum_comp (contrEquiv1 dot_S100000x512_S512x256_S100000x256_1_0_0_1_n_n 512 rfl rfl).symm]
  refine Finset.sum_congr rfl fun k _ => ?_
  have hk := contrEquiv1_symm_val dot_S100000x512_S512x256_S100000x256_1_0_0_1_n_n 512 rfl rfl k
  have el : dot_S100000x512_S512x256_S100000x256_1_0_0_1_n_n.lhsIdx (ix2 i j) ((contrEquiv1 dot_S100000x512_S512x256_S100000x256_1_0_0_1_n_n 512 rfl rfl).symm k) = ix2 i k := funext fun a => Fin.ext (by
    match a with
    | ⟨0, _⟩ => exact dense512_lhs0 _ _
    | ⟨1, _⟩ => exact (dot_S100000x512_S512x256_S100000x256_1_0_0_1_n_n.lhsIdx_val_of_single rfl (ix2 i j) _).trans hk)
  have er : dot_S100000x512_S512x256_S100000x256_1_0_0_1_n_n.rhsIdx (ix2 i j) ((contrEquiv1 dot_S100000x512_S512x256_S100000x256_1_0_0_1_n_n 512 rfl rfl).symm k) = ix2 k j := funext fun a => Fin.ext (by
    match a with
    | ⟨0, _⟩ => exact (dot_S100000x512_S512x256_S100000x256_1_0_0_1_n_n.rhsIdx_val_of_single rfl (ix2 i j) _).trans hk
    | ⟨1, _⟩ => exact dense512_rhs1 _ _)
  rw [el, er]

theorem dense256_lhs0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem dense256_rhs1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl
/-- The product with 256 rows at an entry. -/
theorem dense256_apply (x : (⟨S100000x256, .f32⟩ : BufTy).Contents (Elt Ideal)) (w : (⟨S256x256, .f32⟩ : BufTy).Contents (Elt Ideal))
    (i : Fin 100000) (j : Fin 256) : dense256 (F := Ideal) x w (ix2 i j) = ∑ k : Fin 256, x (ix2 i k) * w (ix2 k j) := by
  unfold dense256
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 i j) ((contrEquiv1 dot_S100000x256_S256x256_S100000x256_1_0_0_1_n_n 256 rfl rfl).symm k) = ix2 i k := funext fun a => Fin.ext (by
    match a with
    | ⟨0, _⟩ => exact dense256_lhs0 _ _
    | ⟨1, _⟩ => exact (dot_S100000x256_S256x256_S100000x256_1_0_0_1_n_n.lhsIdx_val_of_single rfl (ix2 i j) _).trans hk)
  have er : dot_S100000x256_S256x256_S100000x256_1_0_0_1_n_n.rhsIdx (ix2 i j) ((contrEquiv1 dot_S100000x256_S256x256_S100000x256_1_0_0_1_n_n 256 rfl rfl).symm k) = ix2 k j := funext fun a => Fin.ext (by
    match a with
    | ⟨0, _⟩ => exact (dot_S100000x256_S256x256_S100000x256_1_0_0_1_n_n.rhsIdx_val_of_single rfl (ix2 i j) _).trans hk
    | ⟨1, _⟩ => exact dense256_rhs1 _ _)
  rw [el, er]

/-- The whole-array perceptron at entry (i, j) is `mlpAt` of row i of the two branches, the upper and lower halves of
    the stacked first-layer weights, and the remaining weights: the 512-term product of the concatenation splits at 256. -/
theorem mlpOf_apply (x1 x2 : (⟨S100000x256, .f32⟩ : BufTy).Contents (Elt Ideal)) (w1 : (⟨S512x256, .f32⟩ : BufTy).Contents (Elt Ideal))
    (b1 : (⟨S256, .f32⟩ : BufTy).Contents (Elt Ideal)) (w2 : (⟨S256x256, .f32⟩ : BufTy).Contents (Elt Ideal))
    (b2 : (⟨S256, .f32⟩ : BufTy).Contents (Elt Ideal)) (i : Fin 100000) (j : Fin 256) :
    mlpOf (F := Ideal) x1 x2 w1 b1 w2 b2 (ix2 i j)
      = mlpAt (fun l => x1 (ix2 i l)) (fun l => x2 (ix2 i l)) (fun l k => w1 (ix2 (lo l) k)) (fun l k => w1 (ix2 (hi l) k))
          (fun k => b1 (ix1 k)) (fun k j => w2 (ix2 k j)) (fun j => b2 (ix1 j)) j := by
  unfold mlpOf mlpAt
  show dense256 (F := Ideal) _ w2 (ix2 i j) + biasOf (F := Ideal) b2 (ix2 i j) = _
  rw [dense256_apply, biasOf_apply]
  congr 1
  refine Finset.sum_congr rfl fun k _ => ?_
  congr 1
  rw [reluOf_apply]
  show max (dense512 (F := Ideal) (catOf x1 x2) w1 (ix2 i k) + biasOf (F := Ideal) b1 (ix2 i k)) 0 = _
  rw [dense512_apply, biasOf_apply, sum_split]
  simp only [catOf_lo, catOf_hi]

end Cert.Mlp

end
-- ==== Proof.RegionMlpBody1.lean ====
/-
  Region 1 of the kernel's @main, the fused perceptron: the body's arithmetic at one entry, and the blocks it reads.

  At each of the 50 grid points the body reads rows 2000 t … 2000 t + 1999 of the two aggregated branches, the two bias
  rows, the upper and the lower half of the stacked first-layer weights, and the remaining weights whole; it adds the bias
  row to every row of a branch and rectifies, multiplies each branch by its half of the first-layer weights, adds the two
  products and the bias, rectifies, multiplies by the second-layer weights and adds the last bias.  Every entry of the
  block it writes back is therefore `Cert.Mlp.mlpAt` of the rectified rows, which is what the whole-array perceptron
  `Cert.Stages.mlpOf` is at that entry (`Cert.Mlp.mlpOf_apply`).  This module reads the stored block at an entry
  (`r1_payload`) and each window's block at a point as rows of, or the whole of, the window's array.
-/
import proofs.«115669_j32847909880071_1_alg».proof.Proof.RegionMlpAlgebra
import proofs.«115669_j32847909880071_1_alg».proof.Proof.Gen.KernelIdeal.Frame
import Idealize.ShloMosaic.Lib.Pipeline.Value
import Idealize.ShloMosaic.Lib.ValueLayout

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

/-- A bias row, made a one-row matrix and repeated along the 2000 rows, reads its entry j at (r, j). -/
theorem r1_bias_row (g : Vec Ideal S256 .f32) (r : Fin 2000) (j : Fin 256) :
    broadcastTo S2000x256 (shapeCast S1x256 g shapeCasts_S256_S1x256) broadcasts_S1x256_S2000x256 (ix2 r j) = g (ix1 j) :=
  (broadcastTo_1b_ab_apply _ broadcasts_S1x256_S2000x256 r j).trans (shapeCast_a_1a_apply g shapeCasts_S256_S1x256 0 j)

/-- A branch's block with its bias row added and rectified, at (r, l). -/
theorem r1_act (a : Vec Ideal S2000x256 .f32) (g : Vec Ideal S256 .f32) (r : Fin 2000) (l : Fin 256) :
    maximumf (F := Ideal) (addf (shapeCast S2000x256 a shapeCasts_S2000x256_S2000x256)
        (broadcastTo S2000x256 (shapeCast S1x256 g shapeCasts_S256_S1x256) broadcasts_S1x256_S2000x256))
      (broadcast S2000x256 (Scalar.ofBits .f32 0x00000000#32)) (ix2 r l) = max (a (ix2 r l) + g (ix1 l)) 0 := by
  refine (maximumf_apply _ _ _).trans ?_
  refine congrArg₂ max ?_ Ideal.ofBits_zero_f32
  refine (addf_apply _ _ _).trans ?_
  exact congrArg₂ (· + ·) (congrFun (shapeCast_self a shapeCasts_S2000x256_S2000x256) _) (r1_bias_row g r l)

theorem r1_lhs0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem r1_rhs1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A matrix product into a zero accumulator, at (r, k): row r against column k. -/
theorem r1_matmul (x : FVec Ideal S2000x256 .bf16) (w : FVec Ideal S256x256 .bf16) (r : Fin 2000) (k : Fin 256) :
    matmul dot_S2000x256_S256x256_S2000x256_1_0_0_1_n_n none x w (constant (F := Ideal) S2000x256 .f32 0x00000000#32) (ix2 r k) = ∑ l : Fin 256, x (ix2 r l) * w (ix2 l k) := by
  simp only [matmul]
  rw [Ideal.matmul_constant_zero_apply, ← Equiv.sum_comp (contrEquiv1 dot_S2000x256_S256x256_S2000x256_1_0_0_1_n_n 256 rfl rfl).symm]
  refine Finset.sum_congr rfl fun l _ => ?_
  have hl := contrEquiv1_symm_val dot_S2000x256_S256x256_S2000x256_1_0_0_1_n_n 256 rfl rfl l
  have el : dot_S2000x256_S256x256_S2000x256_1_0_0_1_n_n.lhsIdx (ix2 r k) ((contrEquiv1 dot_S2000x256_S256x256_S2000x256_1_0_0_1_n_n 256 rfl rfl).symm l) = ix2 r l := funext fun a => Fin.ext (by
    match a with
    | ⟨0, _⟩ => exact r1_lhs0 _ _
    | ⟨1, _⟩ => exact (dot_S2000x256_S256x256_S2000x256_1_0_0_1_n_n.lhsIdx_val_of_single rfl (ix2 r k) _).trans hl)
  have er : dot_S2000x256_S256x256_S2000x256_1_0_0_1_n_n.rhsIdx (ix2 r k) ((contrEquiv1 dot_S2000x256_S256x256_S2000x256_1_0_0_1_n_n 256 rfl rfl).symm l) = ix2 l k := funext fun a => Fin.ext (by
    match a with
    | ⟨0, _⟩ => exact (dot_S2000x256_S256x256_S2000x256_1_0_0_1_n_n.rhsIdx_val_of_single rfl (ix2 r k) _).trans hl
    | ⟨1, _⟩ => exact r1_rhs1 _ _)
  rw [el, er]

/-- The block the body stores, at (r, j): `Cert.Mlp.mlpAt` of row r of the two rectified branches. -/
theorem r1_payload (a1 : Vec Ideal S2000x256 .f32) (gb1 : Vec Ideal S256 .f32) (a2 : Vec Ideal S2000x256 .f32) (gb2 : Vec Ideal S256 .f32)
    (wa wb : Vec Ideal S256x256 .f32) (mb1 : Vec Ideal S256 .f32) (w2 : Vec Ideal S256x256 .f32) (mb2 : Vec Ideal S256 .f32)
    (r : Fin 2000) (j : Fin 256) :
    k1_pay1 (F := Ideal) (k1_pay2 a1 gb1 a2 gb2 wa wb mb1 w2) (k1_pay3 mb2) (ix2 r j)
      = Cert.Mlp.mlpAt (fun l => max (a1 (ix2 r l) + gb1 (ix1 l)) 0) (fun l => max (a2 (ix2 r l) + gb2 (ix1 l)) 0)
          (fun l k => wa (ix2 l k)) (fun l k => wb (ix2 l k)) (fun k => mb1 (ix1 k)) (fun k j => w2 (ix2 k j)) (fun j => mb2 (ix1 j)) j := by
  unfold k1_pay1 k1_pay2 k1_pay3 Cert.Mlp.mlpAt
  dsimp only
  refine (addf_apply _ _ _).trans ?_
  refine congrArg₂ (· + ·) ?_ (r1_bias_row mb2 r j)
  refine (r1_matmul _ _ r j).trans ?_
  refine Finset.sum_congr rfl fun k _ => ?_
  refine congrArg₂ (· * ·) ?_ rfl
  refine (truncf_apply (ψ := FTy.bf16) _ bitsLt_bf16_f32 _).trans ?_
  refine (maximumf_apply _ _ _).trans ?_
  refine congrArg₂ max ?_ Ideal.ofBits_zero_f32
  refine (addf_apply _ _ _).trans ?_
  refine congrArg₂ (· + ·) ?_ (r1_bias_row mb1 r k)
  refine (addf_apply _ _ _).trans ?_
  refine congrArg₂ (· + ·) ?_ ?_
  · refine (r1_matmul _ _ r k).trans ?_
    refine Finset.sum_congr rfl fun l _ => ?_
    exact congrArg₂ (· * ·) ((truncf_apply (ψ := FTy.bf16) _ bitsLt_bf16_f32 _).trans (r1_act a1 gb1 r l))
      ((truncf_apply (ψ := FTy.bf16) _ bitsLt_bf16_f32 _).trans (congrFun (shapeCast_self wa shapeCasts_S256x256_S256x256) _))
  · refine (r1_matmul _ _ r k).trans ?_
    refine Finset.sum_congr rfl fun l _ => ?_
    exact congrArg₂ (· * ·) ((truncf_apply (ψ := FTy.bf16) _ bitsLt_bf16_f32 _).trans (r1_act a2 gb2 r l))
      ((truncf_apply (ψ := FTy.bf16) _ bitsLt_bf16_f32 _).trans (congrFun (shapeCast_self wb shapeCasts_S256x256_S256x256) _))

/-! ## The blocks the body reads and writes -/

theorem r1_hz2 : (![0, 0] : Fin 2 → Nat) = fun _ => 0 := funext fun a => by fin_cases a <;> rfl
theorem r1_hz1 : (![0] : Fin 1 → Nat) = fun _ => 0 := funext fun a => by fin_cases a <;> rfl

/-- The block index of every window at every grid point, decided over the 50 points: the two branches and the output move
    down their arrays one block of rows per point; the bias rows and the weights stay at their one block. -/
theorem r1_index : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_7.index t (0 : Fin 2) = 0
    ∧ win1_7.index t (1 : Fin 2) = 0
    ∧ win1_2.index t (0 : Fin 1) = 0
    ∧ win1_3.index t (0 : Fin 1) = 0
    ∧ win1_6.index t (0 : Fin 1) = 0
    ∧ win1_8.index t (0 : Fin 1) = 0 :=
  (by decide +kernel : ∀ t : Fin grid1.N, _)

/-- Row r of the block at point t is row 2000 t + r of the array. -/
def r1_row (t : Fin cfg1.N) (r : Fin 2000) : Fin 100000 :=
  ⟨2000 * t.val + r.val, by have h := t.isLt; have hN : cfg1.N = 50 := N_1; have hr := r.isLt; omega⟩

/-- Window 0's block at point t is rows 2000 t … 2000 t + 1999 of its array. -/
theorem r1_rows0 (V : (c : Dev nD) → (b : Ref sig .tc) → Buf (Elt Ideal) ((c : Thread nD τ).loc b)) (c : Dev nD) (t : Fin cfg1.N)
    (r : Fin 2000) (l : Fin 256) :
    (iblk1 (F := Ideal) V c 0 t : Vec Ideal S2000x256 .f32) (ix2 r l)
      = (V c (Pipeline.arrRef spec1 0) : (⟨Cert.ReferenceIdeal.S100000x256, .f32⟩ : BufTy).Contents (Elt Ideal)) (ix2 (r1_row t r) l) := by
  obtain ⟨e0, e1, e2, e3, e4, e5, e6, e7, e8, e9, e10, e11, e12, e13, e14, e15⟩ := r1_index t
  unfold iblk1
  rw [View.read_apply]
  show V c (Pipeline.arrRef spec1 0) (((cfg1.win 0).blk t).view.emb (ix2 r l)) = V c (Pipeline.arrRef spec1 0) (ix2 (r1_row t r) l)
  congr 1
  funext a; apply Fin.ext
  match a with
  | ⟨0, _⟩ => show win1_0.index t (0 : Fin 2) * 2000 + 1 * r.val = 2000 * t.val + r.val; rw [e0]; omega
  | ⟨1, _⟩ => show win1_0.index t (1 : Fin 2) * 256 + 1 * l.val = l.val; rw [e1]; omega

/-- Window 1's block at point t is rows 2000 t … 2000 t + 1999 of its array. -/
theorem r1_rows1 (V : (c : Dev nD) → (b : Ref sig .tc) → Buf (Elt Ideal) ((c : Thread nD τ).loc b)) (c : Dev nD) (t : Fin cfg1.N)
    (r : Fin 2000) (l : Fin 256) :
    (iblk1 (F := Ideal) V c 1 t : Vec Ideal S2000x256 .f32) (ix2 r l)
      = (V c (Pipeline.arrRef spec1 1) : (⟨Cert.ReferenceIdeal.S100000x256, .f32⟩ : BufTy).Contents (Elt Ideal)) (ix2 (r1_row t r) l) := by
  obtain ⟨e0, e1, e2, e3, e4, e5, e6, e7, e8, e9, e10, e11, e12, e13, e14, e15⟩ := r1_index t
  unfold iblk1
  rw [View.read_apply]
  show V c (Pipeline.arrRef spec1 1) (((cfg1.win 1).blk t).view.emb (ix2 r l)) = V c (Pipeline.arrRef spec1 1) (ix2 (r1_row t r) l)
  congr 1
  funext a; apply Fin.ext
  match a with
  | ⟨0, _⟩ => show win1_1.index t (0 : Fin 2) * 2000 + 1 * r.val = 2000 * t.val + r.val; rw [e2]; omega
  | ⟨1, _⟩ => show win1_1.index t (1 : Fin 2) * 256 + 1 * l.val = l.val; rw [e3]; omega

/-- Window 2's block at every point is its whole array. -/
theorem r1_whole2 (V : (c : Dev nD) → (b : Ref sig .tc) → Buf (Elt Ideal) ((c : Thread nD τ).loc b)) (c : Dev nD) (t : Fin cfg1.N) :
    (iblk1 (F := Ideal) V c 2 t : Vec Ideal S256 .f32) = V c (Pipeline.arrRef spec1 2) := by
  obtain ⟨e0, e1, e2, e3, e4, e5, e6, e7, e8, e9, e10, e11, e12, e13, e14, e15⟩ := r1_index t
  funext y
  unfold iblk1
  rw [View.read_apply]
  show V c (Pipeline.arrRef spec1 2) (((cfg1.win 2).blk t).view.emb y) = V c (Pipeline.arrRef spec1 2) y
  congr 1
  funext a; apply Fin.ext
  match a with
  | ⟨0, _⟩ => show win1_2.index t (0 : Fin 1) * 256 + 1 * (y 0).val = (y 0).val; rw [e12]; omega

/-- Window 3's block at every point is its whole array. -/
theorem r1_whole3 (V : (c : Dev nD) → (b : Ref sig .tc) → Buf (Elt Ideal) ((c : Thread nD τ).loc b)) (c : Dev nD) (t : Fin cfg1.N) :
    (iblk1 (F := Ideal) V c 3 t : Vec Ideal S256 .f32) = V c (Pipeline.arrRef spec1 3) := by
  obtain ⟨e0, e1, e2, e3, e4, e5, e6, e7, e8, e9, e10, e11, e12, e13, e14, e15⟩ := r1_index t
  funext y
  unfold iblk1
  rw [View.read_apply]
  show V c (Pipeline.arrRef spec1 3) (((cfg1.win 3).blk t).view.emb y) = V c (Pipeline.arrRef spec1 3) y
  congr 1
  funext a; apply Fin.ext
  match a with
  | ⟨0, _⟩ => show win1_3.index t (0 : Fin 1) * 256 + 1 * (y 0).val = (y 0).val; rw [e13]; omega

/-- Window 4's block at every point is its whole array. -/
theorem r1_whole4 (V : (c : Dev nD) → (b : Ref sig .tc) → Buf (Elt Ideal) ((c : Thread nD τ).loc b)) (c : Dev nD) (t : Fin cfg1.N) :
    (iblk1 (F := Ideal) V c 4 t : Vec Ideal S256x256 .f32) = V c (Pipeline.arrRef spec1 4) := by
  obtain ⟨e0, e1, e2, e3, e4, e5, e6, e7, e8, e9, e10, e11, e12, e13, e14, e15⟩ := r1_index t
  funext y
  unfold iblk1
  rw [View.read_apply]
  show V c (Pipeline.arrRef spec1 4) (((cfg1.win 4).blk t).view.emb y) = V c (Pipeline.arrRef spec1 4) y
  congr 1
  funext a; apply Fin.ext
  match a with
  | ⟨0, _⟩ => show win1_4.index t (0 : Fin 2) * 256 + 1 * (y 0).val = (y 0).val; rw [e6]; omega
  | ⟨1, _⟩ => show win1_4.index t (1 : Fin 2) * 256 + 1 * (y 1).val = (y 1).val; rw [e7]; omega

/-- Window 5's block at every point is its whole array. -/
theorem r1_whole5 (V : (c : Dev nD) → (b : Ref sig .tc) → Buf (Elt Ideal) ((c : Thread nD τ).loc b)) (c : Dev nD) (t : Fin cfg1.N) :
    (iblk1 (F := Ideal) V c 5 t : Vec Ideal S256x256 .f32) = V c (Pipeline.arrRef spec1 5) := by
  obtain ⟨e0, e1, e2, e3, e4, e5, e6, e7, e8, e9, e10, e11, e12, e13, e14, e15⟩ := r1_index t
  funext y
  unfold iblk1
  rw [View.read_apply]
  show V c (Pipeline.arrRef spec1 5) (((cfg1.win 5).blk t).view.emb y) = V c (Pipeline.arrRef spec1 5) y
  congr 1
  funext a; apply Fin.ext
  match a with
  | ⟨0, _⟩ => show win1_5.index t (0 : Fin 2) * 256 + 1 * (y 0).val = (y 0).val; rw [e8]; omega
  | ⟨1, _⟩ => show win1_5.index t (1 : Fin 2) * 256 + 1 * (y 1).val = (y 1).val; rw [e9]; omega

/-- Window 6's block at every point is its whole array. -/
theorem r1_whole6 (V : (c : Dev nD) → (b : Ref sig .tc) → Buf (Elt Ideal) ((c : Thread nD τ).loc b)) (c : Dev nD) (t : Fin cfg1.N) :
    (iblk1 (F := Ideal) V c 6 t : Vec Ideal S256 .f32) = V c (Pipeline.arrRef spec1 6) := by
  obtain ⟨e0, e1, e2, e3, e4, e5, e6, e7, e8, e9, e10, e11, e12, e13, e14, e15⟩ := r1_index t
  funext y
  unfold iblk1
  rw [View.read_apply]
  show V c (Pipeline.arrRef spec1 6) (((cfg1.win 6).blk t).view.emb y) = V c (Pipeline.arrRef spec1 6) y
  congr 1
  funext a; apply Fin.ext
  match a with
  | ⟨0, _⟩ => show win1_6.index t (0 : Fin 1) * 256 + 1 * (y 0).val = (y 0).val; rw [e14]; omega

/-- Window 7's block at every point is its whole array. -/
theorem r1_whole7 (V : (c : Dev nD) → (b : Ref sig .tc) → Buf (Elt Ideal) ((c : Thread nD τ).loc b)) (c : Dev nD) (t : Fin cfg1.N) :
    (iblk1 (F := Ideal) V c 7 t : Vec Ideal S256x256 .f32) = V c (Pipeline.arrRef spec1 7) := by
  obtain ⟨e0, e1, e2, e3, e4, e5, e6, e7, e8, e9, e10, e11, e12, e13, e14, e15⟩ := r1_index t
  funext y
  unfold iblk1
  rw [View.read_apply]
  show V c (Pipeline.arrRef spec1 7) (((cfg1.win 7).blk t).view.emb y) = V c (Pipeline.arrRef spec1 7) y
  congr 1
  funext a; apply Fin.ext
  match a with
  | ⟨0, _⟩ => show win1_7.index t (0 : Fin 2) * 256 + 1 * (y 0).val = (y 0).val; rw [e10]; omega
  | ⟨1, _⟩ => show win1_7.index t (1 : Fin 2) * 256 + 1 * (y 1).val = (y 1).val; rw [e11]; omega

/-- Window 8's block at every point is its whole array. -/
theorem r1_whole8 (V : (c : Dev nD) → (b : Ref sig .tc) → Buf (Elt Ideal) ((c : Thread nD τ).loc b)) (c : Dev nD) (t : Fin cfg1.N) :
    (iblk1 (F := Ideal) V c 8 t : Vec Ideal S256 .f32) = V c (Pipeline.arrRef spec1 8) := by
  obtain ⟨e0, e1, e2, e3, e4, e5, e6, e7, e8, e9, e10, e11, e12, e13, e14, e15⟩ := r1_index t
  funext y
  unfold iblk1
  rw [View.read_apply]
  show V c (Pipeline.arrRef spec1 8) (((cfg1.win 8).blk t).view.emb y) = V c (Pipeline.arrRef spec1 8) y
  congr 1
  funext a; apply Fin.ext
  match a with
  | ⟨0, _⟩ => show win1_8.index t (0 : Fin 1) * 256 + 1 * (y 0).val = (y 0).val; rw [e15]; omega

/-- Entry (r, j) of the output's block at point t is entry (2000 t + r, j) of the output array. -/
theorem r1_emb9 (t : Fin cfg1.N) (r : Fin 2000) (j : Fin 256) :
    ((cfg1.win 9).blk t).view.emb (ix2 r j) = (ix2 (r1_row t r) j : Cert.ReferenceIdeal.S100000x256.Idx) := by
  obtain ⟨e0, e1, e2, e3, e4, e5, e6, e7, e8, e9, e10, e11, e12, e13, e14, e15⟩ := r1_index t
  funext a; apply Fin.ext
  match a with
  | ⟨0, _⟩ => show win1_9.index t (0 : Fin 2) * 2000 + 1 * r.val = 2000 * t.val + r.val; rw [e4]; omega
  | ⟨1, _⟩ => show win1_9.index t (1 : Fin 2) * 256 + 1 * j.val = j.val; rw [e5]; omega

end Cert.KernelIdeal.Region

end
-- ==== Proof.Region1.lean ====
/-
  Region 1 of the kernel's @main: the fused perceptron on the two activated branches, from the blocks to the array.

  Entry (r, j) of the block that grid point t writes back is `Cert.Mlp.mlpAt` of row r of the two rectified branch
  blocks (`r1_payload`); row r of a branch's block at point t is row 2000 t + r of the branch's array, and the bias rows
  and the weights are read whole, the two first-layer weight blocks being the upper and the lower half of the stacked
  weights.  So the entry is entry (2000 t + r, j) of the whole-array perceptron `Cert.Stages.mlpOf`
  (`Cert.Mlp.mlpOf_apply`): point t writes back block t of that one array.  The 50 blocks of 2000 rows tile the 100000
  rows, so after the region the output array is the whole-array perceptron of the arrays the region found.
-/
import proofs.«115669_j32847909880071_1_alg».proof.Proof.RegionMlpBody1

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of the written block, and the block -/

/-- Entry (r, j) of the block the body stores, when row r of each branch's block is row i of the branch's array, the bias rows
    and the second-layer weights are their arrays and the two first-layer weight blocks are the halves of the stacked weights,
    is entry (i, j) of the whole-array perceptron. -/
theorem r1_point (A1 A2 : (⟨Cert.ReferenceIdeal.S100000x256, .f32⟩ : BufTy).Contents (Elt Ideal)) (GB1 GB2 : (⟨Cert.ReferenceIdeal.S256, .f32⟩ : BufTy).Contents (Elt Ideal)) (W1 : (⟨Cert.ReferenceIdeal.S512x256, .f32⟩ : BufTy).Contents (Elt Ideal))
    (MB1 : (⟨Cert.ReferenceIdeal.S256, .f32⟩ : BufTy).Contents (Elt Ideal)) (W2 : (⟨Cert.ReferenceIdeal.S256x256, .f32⟩ : BufTy).Contents (Elt Ideal)) (MB2 : (⟨Cert.ReferenceIdeal.S256, .f32⟩ : BufTy).Contents (Elt Ideal))
    (a1 a2 : Vec Ideal S2000x256 .f32) (gb1 gb2 : Vec Ideal S256 .f32) (wa wb : Vec Ideal S256x256 .f32)
    (mb1 : Vec Ideal S256 .f32) (w2 : Vec Ideal S256x256 .f32) (mb2 : Vec Ideal S256 .f32)
    (i : Fin 100000) (r : Fin 2000) (j : Fin 256)
    (h1 : ∀ l : Fin 256, a1 (ix2 r l) = A1 (ix2 i l)) (h2 : ∀ l : Fin 256, a2 (ix2 r l) = A2 (ix2 i l))
    (hg1 : gb1 = GB1) (hg2 : gb2 = GB2)
    (ha : wa = Cert.Stages.sliceLo (F := Ideal) W1) (hb : wb = Cert.Stages.sliceHi (F := Ideal) W1)
    (hm1 : mb1 = MB1) (hw2 : w2 = W2) (hm2 : mb2 = MB2) :
    k1_pay1 (F := Ideal) (k1_pay2 a1 gb1 a2 gb2 wa wb mb1 w2) (k1_pay3 mb2) (ix2 r j)
      = Cert.Stages.mlpOf (F := Ideal) (Cert.Stages.actOf A1 GB1) (Cert.Stages.actOf A2 GB2) W1 MB1 W2 MB2 (ix2 i j) := by
  subst hg1 hg2 ha hb hm1 hw2 hm2
  rw [r1_payload, Cert.Mlp.mlpOf_apply]
  simp only [h1, h2, Cert.Mlp.actOf_apply, Cert.Mlp.sliceLo_apply, Cert.Mlp.sliceHi_apply]

/-- What point t writes back is block t of the whole-array perceptron of the arrays the region found. -/
theorem r1_flushed (V : (c : Dev nD) → (b : Ref sig .tc) → Buf (Elt Ideal) ((c : Thread nD τ).loc b)) (c : Dev nD) (w1 : (⟨Cert.ReferenceIdeal.S512x256, .f32⟩ : BufTy).Contents (Elt Ideal))
    (h4 : V c (Pipeline.arrRef spec1 4) = Cert.Stages.sliceLo (F := Ideal) w1) (h5 : V c (Pipeline.arrRef spec1 5) = Cert.Stages.sliceHi (F := Ideal) w1)
    (t : Fin cfg1.N) :
    (dat1 (F := Ideal) V c).flushed 9 t = ((cfg1.win 9).blk t).view.read (Elt Ideal)
        (Cert.Stages.mlpOf (F := Ideal) (Cert.Stages.actOf (V c (Pipeline.arrRef spec1 0)) (V c (Pipeline.arrRef spec1 2))) (Cert.Stages.actOf (V c (Pipeline.arrRef spec1 1)) (V c (Pipeline.arrRef spec1 3)))
            w1 (V c (Pipeline.arrRef spec1 6)) (V c (Pipeline.arrRef spec1 7)) (V c (Pipeline.arrRef spec1 8))) := by
  show (cfg1.win 9).cut (grid1.coords t) ((dat1 V c).after 9 t) = _
  rw [after1_9]
  unfold out1_9
  rw [View.canon_unit_zero r1_hz2]
  simp only [View.ld_unit_zero (S := S2000x256) r1_hz2, View.ld_unit_zero (S := S256) r1_hz1, View.ld_unit_zero (S := S256x256) r1_hz2]
  funext y
  obtain ⟨r, j, rfl⟩ : ∃ (r : Fin 2000) (j : Fin 256), y = ix2 r j := ⟨y 0, y 1, eq_ix2 y⟩
  refine (r1_point (V c (Pipeline.arrRef spec1 0)) (V c (Pipeline.arrRef spec1 1)) (V c (Pipeline.arrRef spec1 2)) (V c (Pipeline.arrRef spec1 3)) w1 (V c (Pipeline.arrRef spec1 6)) (V c (Pipeline.arrRef spec1 7)) (V c (Pipeline.arrRef spec1 8))
    (iblk1 V c 0 t) (iblk1 V c 1 t) (iblk1 V c 2 t) (iblk1 V c 3 t) (iblk1 V c 4 t) (iblk1 V c 5 t) (iblk1 V c 6 t) (iblk1 V c 7 t) (iblk1 V c 8 t)
    (r1_row t r) r j (fun l => r1_rows0 V c t r l) (fun l => r1_rows1 V c t r l)
    (r1_whole2 V c t) (r1_whole3 V c t) ((r1_whole4 V c t).trans h4) ((r1_whole5 V c t).trans h5)
    (r1_whole6 V c t) (r1_whole7 V c t) (r1_whole8 V c t)).trans ?_
  show _ = (Cert.Stages.mlpOf (F := Ideal) (Cert.Stages.actOf (V c (Pipeline.arrRef spec1 0)) (V c (Pipeline.arrRef spec1 2))) (Cert.Stages.actOf (V c (Pipeline.arrRef spec1 1)) (V c (Pipeline.arrRef spec1 3)))
            w1 (V c (Pipeline.arrRef spec1 6)) (V c (Pipeline.arrRef spec1 7)) (V c (Pipeline.arrRef spec1 8))) (((cfg1.win 9).blk t).view.emb (ix2 r j))
  rw [r1_emb9 t r j]

/-! ## From the blocks to the array -/

/-- An entry of the output array is in point t's block iff each coordinate is in the block's range on its axis. -/
theorem r1_mem_blk (t : Fin cfg1.N) (i : S100000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v89).slice (win1_9.rect t)).set ↔ _
  rw [View.set_slice_whole, Rect.mem_set_unit]
  exact Iff.rfl

/-- The 50 blocks of 2000 rows tile the 100000 rows: row i is in the block of point i / 2000. -/
theorem r1_cover (i : S100000x256.Idx) : ∃ t : Fin cfg1.N, (cfg1.win 9).flush t = true ∧ i ∈ ((cfg1.win 9).blk t).view.set := by
  have hN : cfg1.N = 50 := N_1
  have hi0 : (i 0).val < 100000 := (i 0).isLt
  have hi1 : (i 1).val < 256 := (i 1).isLt
  obtain ⟨t, ht⟩ : ∃ t : Fin cfg1.N, t.val = (i 0).val / 2000 := ⟨⟨(i 0).val / 2000, by omega⟩, rfl⟩
  refine ⟨t, flush1_9 t, ?_⟩
  rw [r1_mem_blk]
  obtain ⟨e0, e1, e2, e3, e4, e5, e6, e7, e8, e9, e10, e11, e12, e13, e14, e15⟩ := r1_index t
  intro a
  match a with
  | ⟨0, _⟩ => show win1_9.index t (0 : Fin 2) * 2000 ≤ (i 0).val ∧ (i 0).val < win1_9.index t (0 : Fin 2) * 2000 + 2000; rw [e4]; omega
  | ⟨1, _⟩ => show win1_9.index t (1 : Fin 2) * 256 ≤ (i 1).val ∧ (i 1).val < win1_9.index t (1 : Fin 2) * 256 + 256; rw [e5]; omega

/-- After region 1 the output array is the whole-array perceptron of the two branches the region found, activated with their
    bias rows, under the stacked first-layer weights `w1` whose halves the region found in windows 4 and 5. -/
theorem region1_out (V : (c : Dev nD) → (b : Ref sig .tc) → Buf (Elt Ideal) ((c : Thread nD τ).loc b)) (c : Dev nD) (w1 : (⟨Cert.ReferenceIdeal.S512x256, .f32⟩ : BufTy).Contents (Elt Ideal))
    (h4 : V c (Pipeline.arrRef spec1 4) = Cert.Stages.sliceLo (F := Ideal) w1) (h5 : V c (Pipeline.arrRef spec1 5) = Cert.Stages.sliceHi (F := Ideal) w1) :
    (Gen.dat1 (F := Ideal) V c).arrAt 9 cfg1.N
      = Cert.Stages.mlpOf (F := Ideal) (Cert.Stages.actOf (V c (Pipeline.arrRef spec1 0)) (V c (Pipeline.arrRef spec1 2))) (Cert.Stages.actOf (V c (Pipeline.arrRef spec1 1)) (V c (Pipeline.arrRef spec1 3)))
            w1 (V c (Pipeline.arrRef spec1 6)) (V c (Pipeline.arrRef spec1 7)) (V c (Pipeline.arrRef spec1 8)) :=
  (dat1 (F := Ideal) V c).arrAt_eq_of_cover 9 _ (fun t _ => r1_flushed V c w1 h4 h5 t) r1_cover

end Cert.KernelIdeal.Region

end
-- ==== Proof.Region2.lean ====
/-
  Region 2: the dual projection x @ w1, x @ w2 with 256 input features.

  The region runs over 50 points. At point t the body reads rows 2000 * t … 2000 * t + 1999 of x ([100000, 256]) and
  both weight matrices ([256, 256]) whole, multiplies the row block by each weight matrix into a zero accumulator
  (the conversions to bf16 are the identity on extended reals), and writes the two [2000, 256] products back as row
  block t of the two outputs ([100000, 256]).

  Entry (r, j) of a block product is the sum over k of x (2000 * t + r, k) * w (k, j), which is entry
  (2000 * t + r, j) of the whole product x @ w; row i of an output lies in the block of point i / 2000, so the 50
  blocks cover the array and each output ends as the whole product of the arrays the region found.
-/
import proofs.«115669_j32847909880071_1_alg».proof.Proof.Stages
import proofs.«115669_j32847909880071_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region

open Idealize.ShloMosaic Idealize.ShloMosaic.TcCoe Idealize.ShloMosaic.ValueIdx Cert.KernelIdeal Cert.KernelIdeal.Gen
open Idealize.ShloMosaic.Pipeline (Dat)
open scoped BigOperators

namespace Dual2

/-! ## The two products read at an index -/

/-- The host product's operand indices, coordinate by coordinate: the left operand is read at the output's row and the
    contraction coordinate, the right operand at the contraction coordinate and the output's column. -/
theorem host_lhs_0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x256_S100000x256_1_0_0_1_n_n.lhsBatch by decide), dif_pos (show (0 : Fin Cert.ReferenceIdeal.S100000x256.rank) ∈ Cert.ReferenceIdeal.dot_S100000x256_S256x256_S100000x256_1_0_0_1_n_n.lhsNonContracting by decide)]
  rfl
theorem host_lhs_1 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.lhsIdx i q 1).val = (q ⟨0, by decide⟩).val :=
  Cert.ReferenceIdeal.dot_S100000x256_S256x256_S100000x256_1_0_0_1_n_n.lhsIdx_val_of_single rfl i q
theorem host_rhs_0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.rhsIdx i q 0).val = (q ⟨0, by decide⟩).val :=
  Cert.ReferenceIdeal.dot_S100000x256_S256x256_S100000x256_1_0_0_1_n_n.rhsIdx_val_of_single rfl i q
theorem host_rhs_1 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.rhsIdx i q 1).val = (i 1).val := by
  unfold DotDims.rhsIdx
  rw [dif_neg (show ¬(1 : Fin Cert.ReferenceIdeal.S256x256.rank) ∈ Cert.ReferenceIdeal.dot_S100000x256_S256x256_S100000x256_1_0_0_1_n_n.rhsBatch by decide), dif_pos (show (1 : Fin Cert.ReferenceIdeal.S256x256.rank) ∈ Cert.ReferenceIdeal.dot_S100000x256_S256x256_S100000x256_1_0_0_1_n_n.rhsNonContracting by decide)]
  rfl

/-- At output (r, j) and contraction coordinate k the host product reads its left operand at (r, k). -/
theorem host_lhs (r : Fin 100000) (j : Fin 256) (k : Fin 256) :
    Cert.ReferenceIdeal.dot_S100000x256_S256x256_S100000x256_1_0_0_1_n_n.lhsIdx (ix2 r j) ((ValueIdx.contrEquiv1 Cert.ReferenceIdeal.dot_S100000x256_S256x256_S100000x256_1_0_0_1_n_n 256 rfl rfl).symm k) = ix2 r k := by
  have hk := ValueIdx.contrEquiv1_symm_val Cert.ReferenceIdeal.dot_S100000x256_S256x256_S100000x256_1_0_0_1_n_n 256 rfl rfl k
  exact funext fun a => Fin.ext (by
    match a with
    | ⟨0, _⟩ => exact host_lhs_0 _ _
    | ⟨1, _⟩ => exact (host_lhs_1 _ _).trans hk)

/-- … and its right operand at (k, j). -/
theorem host_rhs (r : Fin 100000) (j : Fin 256) (k : Fin 256) :
    Cert.ReferenceIdeal.dot_S100000x256_S256x256_S100000x256_1_0_0_1_n_n.rhsIdx (ix2 r j) ((ValueIdx.contrEquiv1 Cert.ReferenceIdeal.dot_S100000x256_S256x256_S100000x256_1_0_0_1_n_n 256 rfl rfl).symm k) = ix2 k j := by
  have hk := ValueIdx.contrEquiv1_symm_val Cert.ReferenceIdeal.dot_S100000x256_S256x256_S100000x256_1_0_0_1_n_n 256 rfl rfl k
  exact funext fun a => Fin.ext (by
    match a with
    | ⟨0, _⟩ => exact (host_rhs_0 _ _).trans hk
    | ⟨1, _⟩ => exact host_rhs_1 _ _)

/-- The host product at an index: entry (r, j) of x @ w is the sum over k of x (r, k) * w (k, j). -/
theorem dense_apply (x : (⟨S100000x256, .f32⟩ : BufTy).Contents (Elt Ideal)) (w : (⟨S256x256, .f32⟩ : BufTy).Contents (Elt Ideal))
    (r : Fin 100000) (j : Fin 256) :
    Cert.Stages.dense256 (F := Ideal) x w (ix2 r j) = ∑ k : Fin 256, x (ix2 r k) * w (ix2 k j) := by
  unfold Cert.Stages.dense256
  simp only [Host.dotGeneral]
  rw [Ideal.dotGeneral_apply, ← Equiv.sum_comp (ValueIdx.contrEquiv1 Cert.ReferenceIdeal.dot_S100000x256_S256x256_S100000x256_1_0_0_1_n_n 256 rfl rfl).symm]
  refine Finset.sum_congr rfl fun k _ => ?_
  rw [host_lhs, host_rhs]

/-- The block product's operand indices, coordinate by coordinate: the left operand is read at the output's row and the
    contraction coordinate, the right operand at the contraction coordinate and the output's column. -/
theorem blk_lhs_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem blk_lhs_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem blk_rhs_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem blk_rhs_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- At output (r, j) and contraction coordinate k the block product reads its left operand at (r, k). -/
theorem blk_lhs (r : Fin 2000) (j : Fin 256) (k : Fin 256) :
    dot_S2000x256_S256x256_S2000x256_1_0_0_1_n_n.lhsIdx (ix2 r j) ((ValueIdx.contrEquiv1 dot_S2000x256_S256x256_S2000x256_1_0_0_1_n_n 256 rfl rfl).symm k) = ix2 r k := by
  have hk := ValueIdx.contrEquiv1_symm_val dot_S2000x256_S256x256_S2000x256_1_0_0_1_n_n 256 rfl rfl k
  exact funext fun a => Fin.ext (by
    match a with
    | ⟨0, _⟩ => exact blk_lhs_0 _ _
    | ⟨1, _⟩ => exact (blk_lhs_1 _ _).trans hk)

/-- … and its right operand at (k, j). -/
theorem blk_rhs (r : Fin 2000) (j : Fin 256) (k : Fin 256) :
    dot_S2000x256_S256x256_S2000x256_1_0_0_1_n_n.rhsIdx (ix2 r j) ((ValueIdx.contrEquiv1 dot_S2000x256_S256x256_S2000x256_1_0_0_1_n_n 256 rfl rfl).symm k) = ix2 k j := by
  have hk := ValueIdx.contrEquiv1_symm_val dot_S2000x256_S256x256_S2000x256_1_0_0_1_n_n 256 rfl rfl k
  exact funext fun a => Fin.ext (by
    match a with
    | ⟨0, _⟩ => exact (blk_rhs_0 _ _).trans hk
    | ⟨1, _⟩ => exact blk_rhs_1 _ _)

/-- The body's first product at an index of the block: the conversions to bf16 are the identity on extended reals and
    the accumulator is zero, so entry (r, j) is the sum over k of x (r, k) * w (k, j). -/
theorem pay_first_apply (x0 : Vec Ideal S2000x256 .f32) (w : Vec Ideal S256x256 .f32) (r : Fin 2000) (j : Fin 256) :
    k2_pay2 x0 w (ix2 r j) = ∑ k : Fin 256, x0 (ix2 r k) * w (ix2 k j) := by
  unfold k2_pay2 k2_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  rw [blk_lhs, blk_rhs]
  rw [shapeCast_self]
  rfl

/-- The body's second product, likewise. -/
theorem pay_second_apply (x0 : Vec Ideal S2000x256 .f32) (w : Vec Ideal S256x256 .f32) (r : Fin 2000) (j : Fin 256) :
    k2_pay3 x0 w (ix2 r j) = ∑ k : Fin 256, x0 (ix2 r k) * w (ix2 k j) := by
  unfold k2_pay3 k2_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  rw [blk_lhs, blk_rhs]
  rw [shapeCast_self]
  rfl

/-! ## From the blocks to the arrays -/

theorem hz : (![0, 0] : Fin 2 → Nat) = fun _ => 0 := funext fun a => by fin_cases a <;> rfl

/-- One term of the sum, read at equal indices. -/
theorem term_congr (x : (⟨S100000x256, .f32⟩ : BufTy).Contents (Elt Ideal)) (w : (⟨S256x256, .f32⟩ : BufTy).Contents (Elt Ideal))
    {a a' : S100000x256.Idx} {b b' : S256x256.Idx} (ha : a = a') (hb : b = b') : x a * w b = x a' * w b' := by
  rw [ha, hb]

/-- The windows' block index maps over the 50 points: the row-blocked windows (x and the two outputs) sit at block
    row t, column block 0; the weight windows are whole at every point. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 49 ∧ win2_3.index t (1 : Fin 2) = 0
    ∧ win2_4.index t (0 : Fin 2) = win2_3.index t (0 : Fin 2) ∧ win2_4.index t (1 : Fin 2) = 0 :=
  (by decide +kernel : ∀ t : Fin grid2.N, _)

/-- Every block row is some point's. -/
theorem idx_onto : ∀ q : Fin 50, ∃ t : Fin cfg2.N, win2_3.index t (0 : Fin 2) = q.val :=
  (by decide +kernel : ∀ q : Fin 50, ∃ t : Fin grid2.N, win2_3.index t (0 : Fin 2) = q.val)

/-- An index of output array one is in point t's block iff each coordinate is in the block's range on its axis. -/
theorem mem_blk3 (t : Fin cfg2.N) (i : S100000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v90_0).slice (win2_3.rect t)).set ↔ _
  rw [View.set_slice_whole, Rect.mem_set_unit]
  exact Iff.rfl

/-- What point t writes back to output array one is block t of x @ w1: row r of the block is row
    2000 * t + r of the array, and the weights are whole at every point. -/
theorem flushed3_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal)
      (Cert.Stages.dense256 (F := Ideal) (V c (Pipeline.arrRef spec2 0)) (V c (Pipeline.arrRef spec2 1))) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz]
  obtain ⟨e00, e01, e10, e11, e20, e21, e30, e31, e40, e41⟩ := idx_facts t
  funext y
  obtain ⟨r, j, rfl⟩ : ∃ (r : Fin 2000) (j : Fin 256), y = ix2 r j := ⟨y 0, y 1, eq_ix2 y⟩
  refine (pay_first_apply (iblk2 V c 0 t) (iblk2 V c 1 t) r j).trans ?_
  show _ = Cert.Stages.dense256 (F := Ideal) (V c (Pipeline.arrRef spec2 0)) (V c (Pipeline.arrRef spec2 1)) (((cfg2.win 3).blk t).view.emb (ix2 r j))
  obtain ⟨p, q, hpq⟩ : ∃ (p : Fin 100000) (q : Fin 256), ((cfg2.win 3).blk t).view.emb (ix2 r j) = ix2 p q := ⟨_, _, eq_ix2 _⟩
  have hp : win2_3.index t (0 : Fin 2) * 2000 + 1 * r.val = p.val := congrArg (fun f => (f 0).val) hpq
  have hq : win2_3.index t (1 : Fin 2) * 256 + 1 * j.val = q.val := congrArg (fun f => (f 1).val) hpq
  rw [hpq, dense_apply]
  refine Finset.sum_congr rfl fun k _ => ?_
  have hx : ((cfg2.win 0).blk t).view.emb (ix2 r k) = ix2 p k := by
    funext a; apply Fin.ext
    match a with
    | ⟨0, _⟩ => show win2_0.index t (0 : Fin 2) * 2000 + 1 * r.val = p.val; omega
    | ⟨1, _⟩ => show win2_0.index t (1 : Fin 2) * 256 + 1 * k.val = k.val; omega
  have hw : ((cfg2.win 1).blk t).view.emb (ix2 k j) = ix2 k q := by
    funext a; apply Fin.ext
    match a with
    | ⟨0, _⟩ => show win2_1.index t (0 : Fin 2) * 256 + 1 * k.val = k.val; omega
    | ⟨1, _⟩ => show win2_1.index t (1 : Fin 2) * 256 + 1 * j.val = q.val; omega
  exact term_congr (V c (Pipeline.arrRef spec2 0)) (V c (Pipeline.arrRef spec2 1)) hx hw

/-- Every index of output array one is in some point's block: row i is in the block of point i / 2000. -/
theorem cover3 (i : S100000x256.Idx) : ∃ t : Fin cfg2.N, (cfg2.win 3).flush t = true ∧ i ∈ ((cfg2.win 3).blk t).view.set := by
  have hi0 : (i 0).val < 100000 := (i 0).isLt
  have hi1 : (i 1).val < 256 := (i 1).isLt
  obtain ⟨t, ht⟩ := idx_onto ⟨(i 0).val / 2000, by omega⟩
  obtain ⟨e00, e01, e10, e11, e20, e21, e30, e31, e40, e41⟩ := idx_facts t
  have q0 : win2_3.index t (0 : Fin 2) = (i 0).val / 2000 := ht
  refine ⟨t, flush2_3 t, ?_⟩
  rw [mem_blk3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- An index of output array two is in point t's block iff each coordinate is in the block's range on its axis. -/
theorem mem_blk4 (t : Fin cfg2.N) (i : S100000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v90_1).slice (win2_4.rect t)).set ↔ _
  rw [View.set_slice_whole, Rect.mem_set_unit]
  exact Iff.rfl

/-- What point t writes back to output array two is block t of x @ w2: row r of the block is row
    2000 * t + r of the array, and the weights are whole at every point. -/
theorem flushed4_eq (V : (c : Dev nD) → (b : Ref sig .tc) → Buf (Elt Ideal) ((c : Thread nD τ).loc b)) (c : Dev nD) (t : Fin cfg2.N) :
    (dat2 (F := Ideal) V c).flushed 4 t = ((cfg2.win 4).blk t).view.read (Elt Ideal)
      (Cert.Stages.dense256 (F := Ideal) (V c (Pipeline.arrRef spec2 0)) (V c (Pipeline.arrRef spec2 2))) := by
  show (cfg2.win 4).cut (grid2.coords t) ((dat2 V c).after 4 t) = _
  rw [after2_4]
  unfold out2_4
  rw [View.canon_unit_zero hz]
  simp only [View.ld_unit_zero (S := S2000x256) hz, View.ld_unit_zero (S := S256x256) hz]
  obtain ⟨e00, e01, e10, e11, e20, e21, e30, e31, e40, e41⟩ := idx_facts t
  funext y
  obtain ⟨r, j, rfl⟩ : ∃ (r : Fin 2000) (j : Fin 256), y = ix2 r j := ⟨y 0, y 1, eq_ix2 y⟩
  refine (pay_second_apply (iblk2 V c 0 t) (iblk2 V c 2 t) r j).trans ?_
  show _ = Cert.Stages.dense256 (F := Ideal) (V c (Pipeline.arrRef spec2 0)) (V c (Pipeline.arrRef spec2 2)) (((cfg2.win 4).blk t).view.emb (ix2 r j))
  obtain ⟨p, q, hpq⟩ : ∃ (p : Fin 100000) (q : Fin 256), ((cfg2.win 4).blk t).view.emb (ix2 r j) = ix2 p q := ⟨_, _, eq_ix2 _⟩
  have hp : win2_4.index t (0 : Fin 2) * 2000 + 1 * r.val = p.val := congrArg (fun f => (f 0).val) hpq
  have hq : win2_4.index t (1 : Fin 2) * 256 + 1 * j.val = q.val := congrArg (fun f => (f 1).val) hpq
  rw [hpq, dense_apply]
  refine Finset.sum_congr rfl fun k _ => ?_
  have hx : ((cfg2.win 0).blk t).view.emb (ix2 r k) = ix2 p k := by
    funext a; apply Fin.ext
    match a with
    | ⟨0, _⟩ => show win2_0.index t (0 : Fin 2) * 2000 + 1 * r.val = p.val; omega
    | ⟨1, _⟩ => show win2_0.index t (1 : Fin 2) * 256 + 1 * k.val = k.val; omega
  have hw : ((cfg2.win 2).blk t).view.emb (ix2 k j) = ix2 k q := by
    funext a; apply Fin.ext
    match a with
    | ⟨0, _⟩ => show win2_2.index t (0 : Fin 2) * 256 + 1 * k.val = k.val; omega
    | ⟨1, _⟩ => show win2_2.index t (1 : Fin 2) * 256 + 1 * j.val = q.val; omega
  exact term_congr (V c (Pipeline.arrRef spec2 0)) (V c (Pipeline.arrRef spec2 2)) hx hw

/-- Every index of output array two is in some point's block: row i is in the block of point i / 2000. -/
theorem cover4 (i : S100000x256.Idx) : ∃ t : Fin cfg2.N, (cfg2.win 4).flush t = true ∧ i ∈ ((cfg2.win 4).blk t).view.set := by
  have hi0 : (i 0).val < 100000 := (i 0).isLt
  have hi1 : (i 1).val < 256 := (i 1).isLt
  obtain ⟨t, ht⟩ := idx_onto ⟨(i 0).val / 2000, by omega⟩
  obtain ⟨e00, e01, e10, e11, e20, e21, e30, e31, e40, e41⟩ := idx_facts t
  have q0 : win2_4.index t (0 : Fin 2) = (i 0).val / 2000 := by rw [e40]; exact ht
  refine ⟨t, flush2_4 t, ?_⟩
  rw [mem_blk4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

end Dual2

/-- After region 2, output array one is x @ w1 of the arrays the region found. -/
theorem region2_out3 (V : (c : Dev nD) → (b : Ref sig .tc) → Buf (Elt Ideal) ((c : Thread nD τ).loc b)) (c : Dev nD) :
    (Gen.dat2 (F := Ideal) V c).arrAt 3 cfg2.N = Cert.Stages.dense256 (F := Ideal) (V c (Pipeline.arrRef spec2 0)) (V c (Pipeline.arrRef spec2 1)) :=
  (Gen.dat2 (F := Ideal) V c).arrAt_eq_of_cover 3 _ (fun t _ => Dual2.flushed3_eq V c t) Dual2.cover3

/-- After region 2, output array two is x @ w2 of the arrays the region found. -/
theorem region2_out4 (V : (c : Dev nD) → (b : Ref sig .tc) → Buf (Elt Ideal) ((c : Thread nD τ).loc b)) (c : Dev nD) :
    (Gen.dat2 (F := Ideal) V c).arrAt 4 cfg2.N = Cert.Stages.dense256 (F := Ideal) (V c (Pipeline.arrRef spec2 0)) (V c (Pipeline.arrRef spec2 2)) :=
  (Gen.dat2 (F := Ideal) V c).arrAt_eq_of_cover 4 _ (fun t _ => Dual2.flushed4_eq V c t) Dual2.cover4

end Cert.KernelIdeal.Region

end
-- ==== Proof.RegionMlpBody3.lean ====
/-
  Region 3 of the kernel's @main, the fused perceptron: the body's arithmetic at one entry, and the blocks it reads.

  At each of the 50 grid points the body reads rows 2000 t … 2000 t + 1999 of the two aggregated branches, the two bias
  rows, the upper and the lower half of the stacked first-layer weights, and the remaining weights whole; it adds the bias
  row to every row of a branch and rectifies, multiplies each branch by its half of the first-layer weights, adds the two
  products and the bias, rectifies, multiplies by the second-layer weights and adds the last bias.  Every entry of the
  block it writes back is therefore `Cert.Mlp.mlpAt` of the rectified rows, which is what the whole-array perceptron
  `Cert.Stages.mlpOf` is at that entry (`Cert.Mlp.mlpOf_apply`).  This module reads the stored block at an entry
  (`r3_payload`) and each window's block at a point as rows of, or the whole of, the window's array.
-/
import proofs.«115669_j32847909880071_1_alg».proof.Proof.RegionMlpAlgebra
import proofs.«115669_j32847909880071_1_alg».proof.Proof.Gen.KernelIdeal.Frame
import Idealize.ShloMosaic.Lib.Pipeline.Value
import Idealize.ShloMosaic.Lib.ValueLayout

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of the block -/

/-- A bias row, made a one-row matrix and repeated along the 2000 rows, reads its entry j at (r, j). -/
theorem r3_bias_row (g : Vec Ideal S256 .f32) (r : Fin 2000) (j : Fin 256) :
    broadcastTo S2000x256 (shapeCast S1x256 g shapeCasts_S256_S1x256) broadcasts_S1x256_S2000x256 (ix2 r j) = g (ix1 j) :=
  (broadcastTo_1b_ab_apply _ broadcasts_S1x256_S2000x256 r j).trans (shapeCast_a_1a_apply g shapeCasts_S256_S1x256 0 j)

/-- A branch's block with its bias row added and rectified, at (r, l). -/
theorem r3_act (a : Vec Ideal S2000x256 .f32) (g : Vec Ideal S256 .f32) (r : Fin 2000) (l : Fin 256) :
    maximumf (F := Ideal) (addf (shapeCast S2000x256 a shapeCasts_S2000x256_S2000x256)
        (broadcastTo S2000x256 (shapeCast S1x256 g shapeCasts_S256_S1x256) broadcasts_S1x256_S2000x256))
      (broadcast S2000x256 (Scalar.ofBits .f32 0x00000000#32)) (ix2 r l) = max (a (ix2 r l) + g (ix1 l)) 0 := by
  refine (maximumf_apply _ _ _).trans ?_
  refine congrArg₂ max ?_ Ideal.ofBits_zero_f32
  refine (addf_apply _ _ _).trans ?_
  exact congrArg₂ (· + ·) (congrFun (shapeCast_self a shapeCasts_S2000x256_S2000x256) _) (r3_bias_row g r l)

theorem r3_lhs0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem r3_rhs1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A matrix product into a zero accumulator, at (r, k): row r against column k. -/
theorem r3_matmul (x : FVec Ideal S2000x256 .bf16) (w : FVec Ideal S256x256 .bf16) (r : Fin 2000) (k : Fin 256) :
    matmul dot_S2000x256_S256x256_S2000x256_1_0_0_1_n_n none x w (constant (F := Ideal) S2000x256 .f32 0x00000000#32) (ix2 r k) = ∑ l : Fin 256, x (ix2 r l) * w (ix2 l k) := by
  simp only [matmul]
  rw [Ideal.matmul_constant_zero_apply, ← Equiv.sum_comp (contrEquiv1 dot_S2000x256_S256x256_S2000x256_1_0_0_1_n_n 256 rfl rfl).symm]
  refine Finset.sum_congr rfl fun l _ => ?_
  have hl := contrEquiv1_symm_val dot_S2000x256_S256x256_S2000x256_1_0_0_1_n_n 256 rfl rfl l
  have el : dot_S2000x256_S256x256_S2000x256_1_0_0_1_n_n.lhsIdx (ix2 r k) ((contrEquiv1 dot_S2000x256_S256x256_S2000x256_1_0_0_1_n_n 256 rfl rfl).symm l) = ix2 r l := funext fun a => Fin.ext (by
    match a with
    | ⟨0, _⟩ => exact r3_lhs0 _ _
    | ⟨1, _⟩ => exact (dot_S2000x256_S256x256_S2000x256_1_0_0_1_n_n.lhsIdx_val_of_single rfl (ix2 r k) _).trans hl)
  have er : dot_S2000x256_S256x256_S2000x256_1_0_0_1_n_n.rhsIdx (ix2 r k) ((contrEquiv1 dot_S2000x256_S256x256_S2000x256_1_0_0_1_n_n 256 rfl rfl).symm l) = ix2 l k := funext fun a => Fin.ext (by
    match a with
    | ⟨0, _⟩ => exact (dot_S2000x256_S256x256_S2000x256_1_0_0_1_n_n.rhsIdx_val_of_single rfl (ix2 r k) _).trans hl
    | ⟨1, _⟩ => exact r3_rhs1 _ _)
  rw [el, er]

/-- The block the body stores, at (r, j): `Cert.Mlp.mlpAt` of row r of the two rectified branches. -/
theorem r3_payload (a1 : Vec Ideal S2000x256 .f32) (gb1 : Vec Ideal S256 .f32) (a2 : Vec Ideal S2000x256 .f32) (gb2 : Vec Ideal S256 .f32)
    (wa wb : Vec Ideal S256x256 .f32) (mb1 : Vec Ideal S256 .f32) (w2 : Vec Ideal S256x256 .f32) (mb2 : Vec Ideal S256 .f32)
    (r : Fin 2000) (j : Fin 256) :
    k3_pay1 (F := Ideal) (k3_pay2 a1 gb1 a2 gb2 wa wb mb1 w2) (k3_pay3 mb2) (ix2 r j)
      = Cert.Mlp.mlpAt (fun l => max (a1 (ix2 r l) + gb1 (ix1 l)) 0) (fun l => max (a2 (ix2 r l) + gb2 (ix1 l)) 0)
          (fun l k => wa (ix2 l k)) (fun l k => wb (ix2 l k)) (fun k => mb1 (ix1 k)) (fun k j => w2 (ix2 k j)) (fun j => mb2 (ix1 j)) j := by
  unfold k3_pay1 k3_pay2 k3_pay3 Cert.Mlp.mlpAt
  dsimp only
  refine (addf_apply _ _ _).trans ?_
  refine congrArg₂ (· + ·) ?_ (r3_bias_row mb2 r j)
  refine (r3_matmul _ _ r j).trans ?_
  refine Finset.sum_congr rfl fun k _ => ?_
  refine congrArg₂ (· * ·) ?_ rfl
  refine (truncf_apply (ψ := FTy.bf16) _ bitsLt_bf16_f32 _).trans ?_
  refine (maximumf_apply _ _ _).trans ?_
  refine congrArg₂ max ?_ Ideal.ofBits_zero_f32
  refine (addf_apply _ _ _).trans ?_
  refine congrArg₂ (· + ·) ?_ (r3_bias_row mb1 r k)
  refine (addf_apply _ _ _).trans ?_
  refine congrArg₂ (· + ·) ?_ ?_
  · refine (r3_matmul _ _ r k).trans ?_
    refine Finset.sum_congr rfl fun l _ => ?_
    exact congrArg₂ (· * ·) ((truncf_apply (ψ := FTy.bf16) _ bitsLt_bf16_f32 _).trans (r3_act a1 gb1 r l))
      ((truncf_apply (ψ := FTy.bf16) _ bitsLt_bf16_f32 _).trans (congrFun (shapeCast_self wa shapeCasts_S256x256_S256x256) _))
  · refine (r3_matmul _ _ r k).trans ?_
    refine Finset.sum_congr rfl fun l _ => ?_
    exact congrArg₂ (· * ·) ((truncf_apply (ψ := FTy.bf16) _ bitsLt_bf16_f32 _).trans (r3_act a2 gb2 r l))
      ((truncf_apply (ψ := FTy.bf16) _ bitsLt_bf16_f32 _).trans (congrFun (shapeCast_self wb shapeCasts_S256x256_S256x256) _))

/-! ## The blocks the body reads and writes -/

theorem r3_hz2 : (![0, 0] : Fin 2 → Nat) = fun _ => 0 := funext fun a => by fin_cases a <;> rfl
theorem r3_hz1 : (![0] : Fin 1 → Nat) = fun _ => 0 := funext fun a => by fin_cases a <;> rfl

/-- The block index of every window at every grid point, decided over the 50 points: the two branches and the output move
    down their arrays one block of rows per point; the bias rows and the weights stay at their one block. -/
theorem r3_index : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_9.index t (0 : Fin 2) = t.val
    ∧ win3_9.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_7.index t (0 : Fin 2) = 0
    ∧ win3_7.index t (1 : Fin 2) = 0
    ∧ win3_2.index t (0 : Fin 1) = 0
    ∧ win3_3.index t (0 : Fin 1) = 0
    ∧ win3_6.index t (0 : Fin 1) = 0
    ∧ win3_8.index t (0 : Fin 1) = 0 :=
  (by decide +kernel : ∀ t : Fin grid3.N, _)

/-- Row r of the block at point t is row 2000 t + r of the array. -/
def r3_row (t : Fin cfg3.N) (r : Fin 2000) : Fin 100000 :=
  ⟨2000 * t.val + r.val, by have h := t.isLt; have hN : cfg3.N = 50 := N_3; have hr := r.isLt; omega⟩

/-- Window 0's block at point t is rows 2000 t … 2000 t + 1999 of its array. -/
theorem r3_rows0 (V : (c : Dev nD) → (b : Ref sig .tc) → Buf (Elt Ideal) ((c : Thread nD τ).loc b)) (c : Dev nD) (t : Fin cfg3.N)
    (r : Fin 2000) (l : Fin 256) :
    (iblk3 (F := Ideal) V c 0 t : Vec Ideal S2000x256 .f32) (ix2 r l)
      = (V c (Pipeline.arrRef spec3 0) : (⟨Cert.ReferenceIdeal.S100000x256, .f32⟩ : BufTy).Contents (Elt Ideal)) (ix2 (r3_row t r) l) := by
  obtain ⟨e0, e1, e2, e3, e4, e5, e6, e7, e8, e9, e10, e11, e12, e13, e14, e15⟩ := r3_index t
  unfold iblk3
  rw [View.read_apply]
  show V c (Pipeline.arrRef spec3 0) (((cfg3.win 0).blk t).view.emb (ix2 r l)) = V c (Pipeline.arrRef spec3 0) (ix2 (r3_row t r) l)
  congr 1
  funext a; apply Fin.ext
  match a with
  | ⟨0, _⟩ => show win3_0.index t (0 : Fin 2) * 2000 + 1 * r.val = 2000 * t.val + r.val; rw [e0]; omega
  | ⟨1, _⟩ => show win3_0.index t (1 : Fin 2) * 256 + 1 * l.val = l.val; rw [e1]; omega

/-- Window 1's block at point t is rows 2000 t … 2000 t + 1999 of its array. -/
theorem r3_rows1 (V : (c : Dev nD) → (b : Ref sig .tc) → Buf (Elt Ideal) ((c : Thread nD τ).loc b)) (c : Dev nD) (t : Fin cfg3.N)
    (r : Fin 2000) (l : Fin 256) :
    (iblk3 (F := Ideal) V c 1 t : Vec Ideal S2000x256 .f32) (ix2 r l)
      = (V c (Pipeline.arrRef spec3 1) : (⟨Cert.ReferenceIdeal.S100000x256, .f32⟩ : BufTy).Contents (Elt Ideal)) (ix2 (r3_row t r) l) := by
  obtain ⟨e0, e1, e2, e3, e4, e5, e6, e7, e8, e9, e10, e11, e12, e13, e14, e15⟩ := r3_index t
  unfold iblk3
  rw [View.read_apply]
  show V c (Pipeline.arrRef spec3 1) (((cfg3.win 1).blk t).view.emb (ix2 r l)) = V c (Pipeline.arrRef spec3 1) (ix2 (r3_row t r) l)
  congr 1
  funext a; apply Fin.ext
  match a with
  | ⟨0, _⟩ => show win3_1.index t (0 : Fin 2) * 2000 + 1 * r.val = 2000 * t.val + r.val; rw [e2]; omega
  | ⟨1, _⟩ => show win3_1.index t (1 : Fin 2) * 256 + 1 * l.val = l.val; rw [e3]; omega

/-- Window 2's block at every point is its whole array. -/
theorem r3_whole2 (V : (c : Dev nD) → (b : Ref sig .tc) → Buf (Elt Ideal) ((c : Thread nD τ).loc b)) (c : Dev nD) (t : Fin cfg3.N) :
    (iblk3 (F := Ideal) V c 2 t : Vec Ideal S256 .f32) = V c (Pipeline.arrRef spec3 2) := by
  obtain ⟨e0, e1, e2, e3, e4, e5, e6, e7, e8, e9, e10, e11, e12, e13, e14, e15⟩ := r3_index t
  funext y
  unfold iblk3
  rw [View.read_apply]
  show V c (Pipeline.arrRef spec3 2) (((cfg3.win 2).blk t).view.emb y) = V c (Pipeline.arrRef spec3 2) y
  congr 1
  funext a; apply Fin.ext
  match a with
  | ⟨0, _⟩ => show win3_2.index t (0 : Fin 1) * 256 + 1 * (y 0).val = (y 0).val; rw [e12]; omega

/-- Window 3's block at every point is its whole array. -/
theorem r3_whole3 (V : (c : Dev nD) → (b : Ref sig .tc) → Buf (Elt Ideal) ((c : Thread nD τ).loc b)) (c : Dev nD) (t : Fin cfg3.N) :
    (iblk3 (F := Ideal) V c 3 t : Vec Ideal S256 .f32) = V c (Pipeline.arrRef spec3 3) := by
  obtain ⟨e0, e1, e2, e3, e4, e5, e6, e7, e8, e9, e10, e11, e12, e13, e14, e15⟩ := r3_index t
  funext y
  unfold iblk3
  rw [View.read_apply]
  show V c (Pipeline.arrRef spec3 3) (((cfg3.win 3).blk t).view.emb y) = V c (Pipeline.arrRef spec3 3) y
  congr 1
  funext a; apply Fin.ext
  match a with
  | ⟨0, _⟩ => show win3_3.index t (0 : Fin 1) * 256 + 1 * (y 0).val = (y 0).val; rw [e13]; omega

/-- Window 4's block at every point is its whole array. -/
theorem r3_whole4 (V : (c : Dev nD) → (b : Ref sig .tc) → Buf (Elt Ideal) ((c : Thread nD τ).loc b)) (c : Dev nD) (t : Fin cfg3.N) :
    (iblk3 (F := Ideal) V c 4 t : Vec Ideal S256x256 .f32) = V c (Pipeline.arrRef spec3 4) := by
  obtain ⟨e0, e1, e2, e3, e4, e5, e6, e7, e8, e9, e10, e11, e12, e13, e14, e15⟩ := r3_index t
  funext y
  unfold iblk3
  rw [View.read_apply]
  show V c (Pipeline.arrRef spec3 4) (((cfg3.win 4).blk t).view.emb y) = V c (Pipeline.arrRef spec3 4) y
  congr 1
  funext a; apply Fin.ext
  match a with
  | ⟨0, _⟩ => show win3_4.index t (0 : Fin 2) * 256 + 1 * (y 0).val = (y 0).val; rw [e6]; omega
  | ⟨1, _⟩ => show win3_4.index t (1 : Fin 2) * 256 + 1 * (y 1).val = (y 1).val; rw [e7]; omega

/-- Window 5's block at every point is its whole array. -/
theorem r3_whole5 (V : (c : Dev nD) → (b : Ref sig .tc) → Buf (Elt Ideal) ((c : Thread nD τ).loc b)) (c : Dev nD) (t : Fin cfg3.N) :
    (iblk3 (F := Ideal) V c 5 t : Vec Ideal S256x256 .f32) = V c (Pipeline.arrRef spec3 5) := by
  obtain ⟨e0, e1, e2, e3, e4, e5, e6, e7, e8, e9, e10, e11, e12, e13, e14, e15⟩ := r3_index t
  funext y
  unfold iblk3
  rw [View.read_apply]
  show V c (Pipeline.arrRef spec3 5) (((cfg3.win 5).blk t).view.emb y) = V c (Pipeline.arrRef spec3 5) y
  congr 1
  funext a; apply Fin.ext
  match a with
  | ⟨0, _⟩ => show win3_5.index t (0 : Fin 2) * 256 + 1 * (y 0).val = (y 0).val; rw [e8]; omega
  | ⟨1, _⟩ => show win3_5.index t (1 : Fin 2) * 256 + 1 * (y 1).val = (y 1).val; rw [e9]; omega

/-- Window 6's block at every point is its whole array. -/
theorem r3_whole6 (V : (c : Dev nD) → (b : Ref sig .tc) → Buf (Elt Ideal) ((c : Thread nD τ).loc b)) (c : Dev nD) (t : Fin cfg3.N) :
    (iblk3 (F := Ideal) V c 6 t : Vec Ideal S256 .f32) = V c (Pipeline.arrRef spec3 6) := by
  obtain ⟨e0, e1, e2, e3, e4, e5, e6, e7, e8, e9, e10, e11, e12, e13, e14, e15⟩ := r3_index t
  funext y
  unfold iblk3
  rw [View.read_apply]
  show V c (Pipeline.arrRef spec3 6) (((cfg3.win 6).blk t).view.emb y) = V c (Pipeline.arrRef spec3 6) y
  congr 1
  funext a; apply Fin.ext
  match a with
  | ⟨0, _⟩ => show win3_6.index t (0 : Fin 1) * 256 + 1 * (y 0).val = (y 0).val; rw [e14]; omega

/-- Window 7's block at every point is its whole array. -/
theorem r3_whole7 (V : (c : Dev nD) → (b : Ref sig .tc) → Buf (Elt Ideal) ((c : Thread nD τ).loc b)) (c : Dev nD) (t : Fin cfg3.N) :
    (iblk3 (F := Ideal) V c 7 t : Vec Ideal S256x256 .f32) = V c (Pipeline.arrRef spec3 7) := by
  obtain ⟨e0, e1, e2, e3, e4, e5, e6, e7, e8, e9, e10, e11, e12, e13, e14, e15⟩ := r3_index t
  funext y
  unfold iblk3
  rw [View.read_apply]
  show V c (Pipeline.arrRef spec3 7) (((cfg3.win 7).blk t).view.emb y) = V c (Pipeline.arrRef spec3 7) y
  congr 1
  funext a; apply Fin.ext
  match a with
  | ⟨0, _⟩ => show win3_7.index t (0 : Fin 2) * 256 + 1 * (y 0).val = (y 0).val; rw [e10]; omega
  | ⟨1, _⟩ => show win3_7.index t (1 : Fin 2) * 256 + 1 * (y 1).val = (y 1).val; rw [e11]; omega

/-- Window 8's block at every point is its whole array. -/
theorem r3_whole8 (V : (c : Dev nD) → (b : Ref sig .tc) → Buf (Elt Ideal) ((c : Thread nD τ).loc b)) (c : Dev nD) (t : Fin cfg3.N) :
    (iblk3 (F := Ideal) V c 8 t : Vec Ideal S256 .f32) = V c (Pipeline.arrRef spec3 8) := by
  obtain ⟨e0, e1, e2, e3, e4, e5, e6, e7, e8, e9, e10, e11, e12, e13, e14, e15⟩ := r3_index t
  funext y
  unfold iblk3
  rw [View.read_apply]
  show V c (Pipeline.arrRef spec3 8) (((cfg3.win 8).blk t).view.emb y) = V c (Pipeline.arrRef spec3 8) y
  congr 1
  funext a; apply Fin.ext
  match a with
  | ⟨0, _⟩ => show win3_8.index t (0 : Fin 1) * 256 + 1 * (y 0).val = (y 0).val; rw [e15]; omega

/-- Entry (r, j) of the output's block at point t is entry (2000 t + r, j) of the output array. -/
theorem r3_emb9 (t : Fin cfg3.N) (r : Fin 2000) (j : Fin 256) :
    ((cfg3.win 9).blk t).view.emb (ix2 r j) = (ix2 (r3_row t r) j : Cert.ReferenceIdeal.S100000x256.Idx) := by
  obtain ⟨e0, e1, e2, e3, e4, e5, e6, e7, e8, e9, e10, e11, e12, e13, e14, e15⟩ := r3_index t
  funext a; apply Fin.ext
  match a with
  | ⟨0, _⟩ => show win3_9.index t (0 : Fin 2) * 2000 + 1 * r.val = 2000 * t.val + r.val; rw [e4]; omega
  | ⟨1, _⟩ => show win3_9.index t (1 : Fin 2) * 256 + 1 * j.val = j.val; rw [e5]; omega

end Cert.KernelIdeal.Region

end
-- ==== Proof.Region3.lean ====
/-
  Region 3 of the kernel's @main: the fused perceptron on the two activated branches, from the blocks to the array.

  Entry (r, j) of the block that grid point t writes back is `Cert.Mlp.mlpAt` of row r of the two rectified branch
  blocks (`r3_payload`); row r of a branch's block at point t is row 2000 t + r of the branch's array, and the bias rows
  and the weights are read whole, the two first-layer weight blocks being the upper and the lower half of the stacked
  weights.  So the entry is entry (2000 t + r, j) of the whole-array perceptron `Cert.Stages.mlpOf`
  (`Cert.Mlp.mlpOf_apply`): point t writes back block t of that one array.  The 50 blocks of 2000 rows tile the 100000
  rows, so after the region the output array is the whole-array perceptron of the arrays the region found.
-/
import proofs.«115669_j32847909880071_1_alg».proof.Proof.RegionMlpBody3

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of the written block, and the block -/

/-- Entry (r, j) of the block the body stores, when row r of each branch's block is row i of the branch's array, the bias rows
    and the second-layer weights are their arrays and the two first-layer weight blocks are the halves of the stacked weights,
    is entry (i, j) of the whole-array perceptron. -/
theorem r3_point (A1 A2 : (⟨Cert.ReferenceIdeal.S100000x256, .f32⟩ : BufTy).Contents (Elt Ideal)) (GB1 GB2 : (⟨Cert.ReferenceIdeal.S256, .f32⟩ : BufTy).Contents (Elt Ideal)) (W1 : (⟨Cert.ReferenceIdeal.S512x256, .f32⟩ : BufTy).Contents (Elt Ideal))
    (MB1 : (⟨Cert.ReferenceIdeal.S256, .f32⟩ : BufTy).Contents (Elt Ideal)) (W2 : (⟨Cert.ReferenceIdeal.S256x256, .f32⟩ : BufTy).Contents (Elt Ideal)) (MB2 : (⟨Cert.ReferenceIdeal.S256, .f32⟩ : BufTy).Contents (Elt Ideal))
    (a1 a2 : Vec Ideal S2000x256 .f32) (gb1 gb2 : Vec Ideal S256 .f32) (wa wb : Vec Ideal S256x256 .f32)
    (mb1 : Vec Ideal S256 .f32) (w2 : Vec Ideal S256x256 .f32) (mb2 : Vec Ideal S256 .f32)
    (i : Fin 100000) (r : Fin 2000) (j : Fin 256)
    (h1 : ∀ l : Fin 256, a1 (ix2 r l) = A1 (ix2 i l)) (h2 : ∀ l : Fin 256, a2 (ix2 r l) = A2 (ix2 i l))
    (hg1 : gb1 = GB1) (hg2 : gb2 = GB2)
    (ha : wa = Cert.Stages.sliceLo (F := Ideal) W1) (hb : wb = Cert.Stages.sliceHi (F := Ideal) W1)
    (hm1 : mb1 = MB1) (hw2 : w2 = W2) (hm2 : mb2 = MB2) :
    k3_pay1 (F := Ideal) (k3_pay2 a1 gb1 a2 gb2 wa wb mb1 w2) (k3_pay3 mb2) (ix2 r j)
      = Cert.Stages.mlpOf (F := Ideal) (Cert.Stages.actOf A1 GB1) (Cert.Stages.actOf A2 GB2) W1 MB1 W2 MB2 (ix2 i j) := by
  subst hg1 hg2 ha hb hm1 hw2 hm2
  rw [r3_payload, Cert.Mlp.mlpOf_apply]
  simp only [h1, h2, Cert.Mlp.actOf_apply, Cert.Mlp.sliceLo_apply, Cert.Mlp.sliceHi_apply]

set_option maxHeartbeats 1000000 in
/-- What point t writes back is block t of the whole-array perceptron of the arrays the region found. -/
theorem r3_flushed (V : (c : Dev nD) → (b : Ref sig .tc) → Buf (Elt Ideal) ((c : Thread nD τ).loc b)) (c : Dev nD) (w1 : (⟨Cert.ReferenceIdeal.S512x256, .f32⟩ : BufTy).Contents (Elt Ideal))
    (h4 : V c (Pipeline.arrRef spec3 4) = Cert.Stages.sliceLo (F := Ideal) w1) (h5 : V c (Pipeline.arrRef spec3 5) = Cert.Stages.sliceHi (F := Ideal) w1)
    (t : Fin cfg3.N) :
    (dat3 (F := Ideal) V c).flushed 9 t = ((cfg3.win 9).blk t).view.read (Elt Ideal)
        (Cert.Stages.mlpOf (F := Ideal) (Cert.Stages.actOf (V c (Pipeline.arrRef spec3 0)) (V c (Pipeline.arrRef spec3 2))) (Cert.Stages.actOf (V c (Pipeline.arrRef spec3 1)) (V c (Pipeline.arrRef spec3 3)))
            w1 (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero r3_hz2]
  simp only [View.ld_unit_zero (S := S2000x256) r3_hz2, View.ld_unit_zero (S := S256) r3_hz1, View.ld_unit_zero (S := S256x256) r3_hz2]
  funext y
  obtain ⟨r, j, rfl⟩ : ∃ (r : Fin 2000) (j : Fin 256), y = ix2 r j := ⟨y 0, y 1, eq_ix2 y⟩
  refine (r3_point (V c (Pipeline.arrRef spec3 0)) (V c (Pipeline.arrRef spec3 1)) (V c (Pipeline.arrRef spec3 2)) (V c (Pipeline.arrRef spec3 3)) w1 (V c (Pipeline.arrRef spec3 6)) (V c (Pipeline.arrRef spec3 7)) (V c (Pipeline.arrRef spec3 8))
    (iblk3 V c 0 t) (iblk3 V c 1 t) (iblk3 V c 2 t) (iblk3 V c 3 t) (iblk3 V c 4 t) (iblk3 V c 5 t) (iblk3 V c 6 t) (iblk3 V c 7 t) (iblk3 V c 8 t)
    (r3_row t r) r j (fun l => r3_rows0 V c t r l) (fun l => r3_rows1 V c t r l)
    (r3_whole2 V c t) (r3_whole3 V c t) ((r3_whole4 V c t).trans h4) ((r3_whole5 V c t).trans h5)
    (r3_whole6 V c t) (r3_whole7 V c t) (r3_whole8 V c t)).trans ?_
  show _ = (Cert.Stages.mlpOf (F := Ideal) (Cert.Stages.actOf (V c (Pipeline.arrRef spec3 0)) (V c (Pipeline.arrRef spec3 2))) (Cert.Stages.actOf (V c (Pipeline.arrRef spec3 1)) (V c (Pipeline.arrRef spec3 3)))
            w1 (V c (Pipeline.arrRef spec3 6)) (V c (Pipeline.arrRef spec3 7)) (V c (Pipeline.arrRef spec3 8))) (((cfg3.win 9).blk t).view.emb (ix2 r j))
  rw [r3_emb9 t r j]

/-! ## From the blocks to the array -/

/-- An entry of the output array is in point t's block iff each coordinate is in the block's range on its axis. -/
theorem r3_mem_blk (t : Fin cfg3.N) (i : S100000x256.Idx) :
    i ∈ ((cfg3.win 9).blk t).view.set ↔ ∀ a : Fin 2, win3_9.index t a * S2000x256.size a ≤ (i a).val ∧ (i a).val < win3_9.index t a * S2000x256.size a + S2000x256.size a := by
  show i ∈ ((View.whole main_v149).slice (win3_9.rect t)).set ↔ _
  rw [View.set_slice_whole, Rect.mem_set_unit]
  exact Iff.rfl

/-- The 50 blocks of 2000 rows tile the 100000 rows: row i is in the block of point i / 2000. -/
theorem r3_cover (i : S100000x256.Idx) : ∃ t : Fin cfg3.N, (cfg3.win 9).flush t = true ∧ i ∈ ((cfg3.win 9).blk t).view.set := by
  have hN : cfg3.N = 50 := N_3
  have hi0 : (i 0).val < 100000 := (i 0).isLt
  have hi1 : (i 1).val < 256 := (i 1).isLt
  obtain ⟨t, ht⟩ : ∃ t : Fin cfg3.N, t.val = (i 0).val / 2000 := ⟨⟨(i 0).val / 2000, by omega⟩, rfl⟩
  refine ⟨t, flush3_9 t, ?_⟩
  rw [r3_mem_blk]
  obtain ⟨e0, e1, e2, e3, e4, e5, e6, e7, e8, e9, e10, e11, e12, e13, e14, e15⟩ := r3_index t
  intro a
  match a with
  | ⟨0, _⟩ => show win3_9.index t (0 : Fin 2) * 2000 ≤ (i 0).val ∧ (i 0).val < win3_9.index t (0 : Fin 2) * 2000 + 2000; rw [e4]; omega
  | ⟨1, _⟩ => show win3_9.index t (1 : Fin 2) * 256 ≤ (i 1).val ∧ (i 1).val < win3_9.index t (1 : Fin 2) * 256 + 256; rw [e5]; omega

/-- After region 3 the output array is the whole-array perceptron of the two branches the region found, activated with their
    bias rows, under the stacked first-layer weights `w1` whose halves the region found in windows 4 and 5. -/
theorem region3_out (V : (c : Dev nD) → (b : Ref sig .tc) → Buf (Elt Ideal) ((c : Thread nD τ).loc b)) (c : Dev nD) (w1 : (⟨Cert.ReferenceIdeal.S512x256, .f32⟩ : BufTy).Contents (Elt Ideal))
    (h4 : V c (Pipeline.arrRef spec3 4) = Cert.Stages.sliceLo (F := Ideal) w1) (h5 : V c (Pipeline.arrRef spec3 5) = Cert.Stages.sliceHi (F := Ideal) w1) :
    (Gen.dat3 (F := Ideal) V c).arrAt 9 cfg3.N
      = Cert.Stages.mlpOf (F := Ideal) (Cert.Stages.actOf (V c (Pipeline.arrRef spec3 0)) (V c (Pipeline.arrRef spec3 2))) (Cert.Stages.actOf (V c (Pipeline.arrRef spec3 1)) (V c (Pipeline.arrRef spec3 3)))
            w1 (V c (Pipeline.arrRef spec3 6)) (V c (Pipeline.arrRef spec3 7)) (V c (Pipeline.arrRef spec3 8)) :=
  (dat3 (F := Ideal) V c).arrAt_eq_of_cover 9 _ (fun t _ => r3_flushed V c w1 h4 h5 t) r3_cover

end Cert.KernelIdeal.Region

end
-- ==== Proof.Fold.lean ====
/-
  The kernel program's result as ONE function of its arguments.  The buffer contents at the fourteen segment boundaries
  of @main are a fold from the launch memory.  Walking the fold: the two edge lists are prepared from arguments 1 and 2;
  region 0 projects x by the two first-round weight matrices; the projections are aggregated over the edge lists;
  region 1 adds the convolution biases, rectifies and applies the first perceptron; region 2 projects its output by the
  second-round weight matrices; aggregation again; region 3 is the second perceptron; the tail pools, classifies and
  takes the log-softmax.  Every boundary keeps the arguments, and the edge lists' normalisation data are kept from the
  first region to the second aggregation.  The stages are those of `Cert.Stages`, and their composition is `netOf`.
-/
import proofs.«115669_j32847909880071_1_alg».proof.Proof.FoldKeep
import Idealize.ShloMosaic.PureOps.Ideal
import proofs.«115669_j32847909880071_1_alg».proof.Proof.FoldHostA
import proofs.«115669_j32847909880071_1_alg».proof.Proof.FoldHostB
import proofs.«115669_j32847909880071_1_alg».proof.Proof.Region0
import proofs.«115669_j32847909880071_1_alg».proof.Proof.Region1
import proofs.«115669_j32847909880071_1_alg».proof.Proof.Region2
import proofs.«115669_j32847909880071_1_alg».proof.Proof.Region3

set_option maxRecDepth 16384

noncomputable section

namespace Cert.KernelIdeal.Fold

open Cert.KernelIdeal Cert.KernelIdeal.Gen Idealize.ShloMosaic Idealize.ShloMosaic.StableHlo Idealize.ShloMosaic.TcCoe Idealize.SL.Sem
open Cert.Stages Cert.KernelIdeal.FoldHost Cert.KernelIdeal.Region

variable (m : (ℓ : Loc nD τ sig) → Buf (Elt Ideal) ℓ) (ρ : Dev nD → PrngReg)

/-- An argument array's launch contents on core `c`. -/
abbrev Arg (c : Dev nD) (b : Ref sig .tc) : Buf (Elt Ideal) ((c : Thread nD τ).loc b) := m ((c : Thread nD τ).loc b)

/-- The first edge list's normalisation data and the second's, as the first stretch leaves them. -/
abbrev row1 (c : Dev nD) := rowOf (F := Ideal) (Arg m c main_arg1)
abbrev col1 (c : Dev nD) := colOf (F := Ideal) (Arg m c main_arg1)
abbrev dis1 (c : Dev nD) := disOf (F := Ideal) (colOf (Arg m c main_arg1))
abbrev row2 (c : Dev nD) := rowOf (F := Ideal) (Arg m c main_arg2)
abbrev col2 (c : Dev nD) := colOf (F := Ideal) (Arg m c main_arg2)
abbrev dis2 (c : Dev nD) := disOf (F := Ideal) (colOf (Arg m c main_arg2))

/-- The first perceptron's output: both first-round convolutions mixed. -/
abbrev hid1 (c : Dev nD) :=
  mlpOf (F := Ideal) (actOf (aggOf (dense128 (Arg m c main_arg0) (Arg m c main_arg5)) (row1 m c) (col1 m c) (dis1 m c)) (Arg m c main_arg6))
    (actOf (aggOf (dense128 (Arg m c main_arg0) (Arg m c main_arg7)) (row2 m c) (col2 m c) (dis2 m c)) (Arg m c main_arg8)) (Arg m c main_arg13) (Arg m c main_arg14) (Arg m c main_arg15) (Arg m c main_arg16)

/-- The second perceptron's output. -/
abbrev hid2 (c : Dev nD) :=
  mlpOf (F := Ideal) (actOf (aggOf (dense256 (hid1 m c) (Arg m c main_arg9)) (row1 m c) (col1 m c) (dis1 m c)) (Arg m c main_arg10))
    (actOf (aggOf (dense256 (hid1 m c) (Arg m c main_arg11)) (row2 m c) (col2 m c) (dis2 m c)) (Arg m c main_arg12)) (Arg m c main_arg17) (Arg m c main_arg18) (Arg m c main_arg19) (Arg m c main_arg20)

set_option maxHeartbeats 4000000 in
/-- The result buffer at the last boundary is the network of the 25 argument arrays. -/
theorem fold_v184 (c : Dev nD) :
    W14 (F := Ideal) m ρ c (Proc.devRef .tc main_v184)
      = netOf (F := Ideal) (Arg m c main_arg0) (Arg m c main_arg1) (Arg m c main_arg2) (Arg m c main_arg3) (Arg m c main_arg4) (Arg m c main_arg5) (Arg m c main_arg6) (Arg m c main_arg7) (Arg m c main_arg8) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) (Arg m c main_arg20) (Arg m c main_arg21) (Arg m c main_arg22) (Arg m c main_arg23) (Arg m c main_arg24) := by
  -- what each segment keeps
  have k04 : Agree argRefs (W0 m ρ c) (W4 m ρ c) :=
    ((keep_hostOps0 (W0 m ρ c)).trans (keep_hostOps0_1 (W1 m ρ c))).trans ((keep_hostOps0_2 (W2 m ρ c)).trans (keep_hostOps0_3 (W3 m ρ c)))
  have k45 : Agree liveRefs (W4 m ρ c) (W5 m ρ c) := keep_region0 m ρ c
  have k56 : Agree liveRefs (W5 m ρ c) (W6 m ρ c) := keep_hostOps1 (W5 m ρ c)
  have k67 : Agree liveRefs (W6 m ρ c) (W7 m ρ c) := keep_region1 m ρ c
  have k78 : Agree liveRefs (W7 m ρ c) (W8 m ρ c) := keep_region2 m ρ c
  have k89 : Agree argRefs (W8 m ρ c) (W9 m ρ c) := keep_hostOps3 (W8 m ρ c)
  have k910 : Agree argRefs (W9 m ρ c) (W10 m ρ c) := keep_region3 m ρ c
  -- the arguments at every boundary
  have a4 : ∀ b ∈ argRefs, W4 m ρ c (Proc.devRef .tc b) = Arg m c b := fun b hb => (k04 b hb).trans (W0_eq m ρ c b)
  have a5 : ∀ b ∈ argRefs, W5 m ρ c (Proc.devRef .tc b) = Arg m c b := fun b hb => (k45 b (argRefs_sub_liveRefs b hb)).trans (a4 b hb)
  have a6 : ∀ b ∈ argRefs, W6 m ρ c (Proc.devRef .tc b) = Arg m c b := fun b hb => (k56 b (argRefs_sub_liveRefs b hb)).trans (a5 b hb)
  have a7 : ∀ b ∈ argRefs, W7 m ρ c (Proc.devRef .tc b) = Arg m c b := fun b hb => (k67 b (argRefs_sub_liveRefs b hb)).trans (a6 b hb)
  have a8 : ∀ b ∈ argRefs, W8 m ρ c (Proc.devRef .tc b) = Arg m c b := fun b hb => (k78 b (argRefs_sub_liveRefs b hb)).trans (a7 b hb)
  have a9 : ∀ b ∈ argRefs, W9 m ρ c (Proc.devRef .tc b) = Arg m c b := fun b hb => (k89 b hb).trans (a8 b hb)
  have a10 : ∀ b ∈ argRefs, W10 m ρ c (Proc.devRef .tc b) = Arg m c b := fun b hb => (k910 b hb).trans (a9 b hb)
  -- the edge lists' normalisation data, from the first stretch to the second aggregation
  have n5 : ∀ b ∈ liveRefs, W5 m ρ c (Proc.devRef .tc b) = W4 m ρ c (Proc.devRef .tc b) := k45
  have n8 : ∀ b ∈ liveRefs, W8 m ρ c (Proc.devRef .tc b) = W4 m ρ c (Proc.devRef .tc b) :=
    fun b hb => (k78 b hb).trans ((k67 b hb).trans ((k56 b hb).trans (k45 b hb)))
  have v5 : W4 m ρ c (Proc.devRef .tc main_v5) = row1 m c := s0_v5 (W0 m ρ c)
  have v6 : W4 m ρ c (Proc.devRef .tc main_v6) = col1 m c := s0_v6 (W0 m ρ c)
  have v14 : W4 m ρ c (Proc.devRef .tc main_v14) = dis1 m c := s0_v14 (W0 m ρ c)
  have v20 : W4 m ρ c (Proc.devRef .tc main_v20) = row2 m c := s0_v20 (W0 m ρ c)
  have v21 : W4 m ρ c (Proc.devRef .tc main_v21) = col2 m c := s0_v21 (W0 m ρ c)
  have v29 : W4 m ρ c (Proc.devRef .tc main_v29) = dis2 m c := s0_v29 (W0 m ρ c)
  -- region 0: the first-round projections
  have p1 : W5 m ρ c (Proc.devRef .tc main_v30_0) = dense128 (Arg m c main_arg0) (Arg m c main_arg5) :=
    (W5_arr m ρ c 3).trans ((region0_out3 (V4 m ρ) c).trans (congrArg₂ dense128 (a4 main_arg0 (by decide : main_arg0 ∈ argRefs)) (a4 main_arg5 (by decide : main_arg5 ∈ argRefs))))
  have p2 : W5 m ρ c (Proc.devRef .tc main_v30_1) = dense128 (Arg m c main_arg0) (Arg m c main_arg7) :=
    (W5_arr m ρ c 4).trans ((region0_out4 (V4 m ρ) c).trans (congrArg₂ dense128 (a4 main_arg0 (by decide : main_arg0 ∈ argRefs)) (a4 main_arg7 (by decide : main_arg7 ∈ argRefs))))
  -- the first aggregation
  have g1 : W6 m ρ c (Proc.devRef .tc main_v58) = aggOf (dense128 (Arg m c main_arg0) (Arg m c main_arg5)) (row1 m c) (col1 m c) (dis1 m c) := by
    rw [show W6 m ρ c (Proc.devRef .tc main_v58) = _ from s1_v58 (W5 m ρ c), p1,
      n5 main_v5 (by decide), n5 main_v6 (by decide), n5 main_v14 (by decide), v5, v6, v14]
  have g2 : W6 m ρ c (Proc.devRef .tc main_v86) = aggOf (dense128 (Arg m c main_arg0) (Arg m c main_arg7)) (row2 m c) (col2 m c) (dis2 m c) := by
    rw [show W6 m ρ c (Proc.devRef .tc main_v86) = _ from s1_v86 (W5 m ρ c), p2,
      n5 main_v20 (by decide), n5 main_v21 (by decide), n5 main_v29 (by decide), v20, v21, v29]
  have lo1 : W6 m ρ c (Proc.devRef .tc main_v87) = sliceLo (Arg m c main_arg13) :=
    (s1_v87 (W5 m ρ c)).trans (congrArg sliceLo (a5 main_arg13 (by decide : main_arg13 ∈ argRefs)))
  have hi1 : W6 m ρ c (Proc.devRef .tc main_v88) = sliceHi (Arg m c main_arg13) :=
    (s1_v88 (W5 m ρ c)).trans (congrArg sliceHi (a5 main_arg13 (by decide : main_arg13 ∈ argRefs)))
  -- region 1: the first perceptron
  have h1 : W7 m ρ c (Proc.devRef .tc main_v89) = hid1 m c := by
    refine (W7_arr m ρ c 9).trans ((region1_out (V6 m ρ) c (Arg m c main_arg13) lo1 hi1).trans ?_)
    show mlpOf (actOf (W6 m ρ c (Proc.devRef .tc main_v58)) (W6 m ρ c (Proc.devRef .tc main_arg6)))
        (actOf (W6 m ρ c (Proc.devRef .tc main_v86)) (W6 m ρ c (Proc.devRef .tc main_arg8))) (Arg m c main_arg13)
        (W6 m ρ c (Proc.devRef .tc main_arg14)) (W6 m ρ c (Proc.devRef .tc main_arg15)) (W6 m ρ c (Proc.devRef .tc main_arg16)) = _
    rw [g1, g2, a6 main_arg6 (by decide), a6 main_arg8 (by decide), a6 main_arg14 (by decide), a6 main_arg15 (by decide), a6 main_arg16 (by decide)]
  -- region 2: the second-round projections
  have q1 : W8 m ρ c (Proc.devRef .tc main_v90_0) = dense256 (hid1 m c) (Arg m c main_arg9) :=
    (W8_arr m ρ c 3).trans ((region2_out3 (V7 m ρ) c).trans (congrArg₂ dense256 h1 (a7 main_arg9 (by decide : main_arg9 ∈ argRefs))))
  have q2 : W8 m ρ c (Proc.devRef .tc main_v90_1) = dense256 (hid1 m c) (Arg m c main_arg11) :=
    (W8_arr m ρ c 4).trans ((region2_out4 (V7 m ρ) c).trans (congrArg₂ dense256 h1 (a7 main_arg11 (by decide : main_arg11 ∈ argRefs))))
  -- the second aggregation
  have g3 : W9 m ρ c (Proc.devRef .tc main_v118) = aggOf (dense256 (hid1 m c) (Arg m c main_arg9)) (row1 m c) (col1 m c) (dis1 m c) := by
    rw [show W9 m ρ c (Proc.devRef .tc main_v118) = _ from s2_v118 (W8 m ρ c), q1,
      n8 main_v5 (by decide), n8 main_v6 (by decide), n8 main_v14 (by decide), v5, v6, v14]
  have g4 : W9 m ρ c (Proc.devRef .tc main_v146) = aggOf (dense256 (hid1 m c) (Arg m c main_arg11)) (row2 m c) (col2 m c) (dis2 m c) := by
    rw [show W9 m ρ c (Proc.devRef .tc main_v146) = _ from s2_v146 (W8 m ρ c), q2,
      n8 main_v20 (by decide), n8 main_v21 (by decide), n8 main_v29 (by decide), v20, v21, v29]
  have lo2 : W9 m ρ c (Proc.devRef .tc main_v147) = sliceLo (Arg m c main_arg17) :=
    (s2_v147 (W8 m ρ c)).trans (congrArg sliceLo (a8 main_arg17 (by decide : main_arg17 ∈ argRefs)))
  have hi2 : W9 m ρ c (Proc.devRef .tc main_v148) = sliceHi (Arg m c main_arg17) :=
    (s2_v148 (W8 m ρ c)).trans (congrArg sliceHi (a8 main_arg17 (by decide : main_arg17 ∈ argRefs)))
  -- region 3: the second perceptron
  have h2 : W10 m ρ c (Proc.devRef .tc main_v149) = hid2 m c := by
    refine (W10_arr m ρ c 9).trans ((region3_out (V9 m ρ) c (Arg m c main_arg17) lo2 hi2).trans ?_)
    show mlpOf (actOf (W9 m ρ c (Proc.devRef .tc main_v118)) (W9 m ρ c (Proc.devRef .tc main_arg10)))
        (actOf (W9 m ρ c (Proc.devRef .tc main_v146)) (W9 m ρ c (Proc.devRef .tc main_arg12))) (Arg m c main_arg17)
        (W9 m ρ c (Proc.devRef .tc main_arg18)) (W9 m ρ c (Proc.devRef .tc main_arg19)) (W9 m ρ c (Proc.devRef .tc main_arg20)) = _
    rw [g3, g4, a9 main_arg10 (by decide), a9 main_arg12 (by decide), a9 main_arg18 (by decide), a9 main_arg19 (by decide), a9 main_arg20 (by decide)]
  -- the tail
  rw [show W14 m ρ c (Proc.devRef .tc main_v184) = _ from tail_v184 (W10 m ρ c), h2,
    a10 main_arg3 (by decide), a10 main_arg4 (by decide), a10 main_arg21 (by decide), a10 main_arg22 (by decide),
    a10 main_arg23 (by decide), a10 main_arg24 (by decide)]
  rfl

end Cert.KernelIdeal.Fold

end
-- ==== Proof.RefRun.lean ====
/-
  The reference program's run, read back stage by stage.

  The reference's @main is a straight line of 335 host operations, cut in RefOps.lean into nine consecutive pieces
  `w1 … w9`.  Running a piece from ANY buffer contents `V` leaves, at each buffer the later pieces read from it, a
  whole-array stage function of Stages.lean applied to `V` at the piece's input buffers (`stK_out`), and leaves every
  buffer the piece does not write as it was (`stK_keep`).  The pieces composed give the network `netOf` of the 25
  arguments at `main_v246` and the arguments unchanged; `run_seq` carries this to every weakly fair execution.
-/
import proofs.«115669_j32847909880071_1_alg».proof.Proof.RefOps
import proofs.«115669_j32847909880071_1_alg».proof.Proof.Stages

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo
open Cert.Stages

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a buffer's own type and back are the contents: the two transports are along one equation
    and its converse. -/
theorem ofBuf_toBuf {T : BufTy} (x : TRef sig T) (v : T.Contents (Elt F)) : x.ofBuf (x.toBuf v) = v := by
  simp only [TRef.ofBuf, TRef.toBuf, cast_cast, cast_eq]

/-- The buffers after the first convolution over the first edge list, run from contents `V`. -/
def st1 (V : Valuation τ sig (Elt F)) : Valuation τ sig (Elt F) := after w1 V
/-- The buffers after the first convolution over the second edge list, run from contents `V`. -/
def st2 (V : Valuation τ sig (Elt F)) : Valuation τ sig (Elt F) := after w2 V
/-- The buffers after the first perceptron, run from contents `V`. -/
def st3 (V : Valuation τ sig (Elt F)) : Valuation τ sig (Elt F) := after w3 V
/-- The buffers after the second convolution over the first edge list, run from contents `V`. -/
def st4 (V : Valuation τ sig (Elt F)) : Valuation τ sig (Elt F) := after w4 V
/-- The buffers after the second convolution over the second edge list, run from contents `V`. -/
def st5 (V : Valuation τ sig (Elt F)) : Valuation τ sig (Elt F) := after w5 V
/-- The buffers after the second perceptron, run from contents `V`. -/
def st6 (V : Valuation τ sig (Elt F)) : Valuation τ sig (Elt F) := after w6 V
/-- The buffers after the two poolings, run from contents `V`. -/
def st7 (V : Valuation τ sig (Elt F)) : Valuation τ sig (Elt F) := after w7 V
/-- The buffers after the classifier, run from contents `V`. -/
def st8 (V : Valuation τ sig (Elt F)) : Valuation τ sig (Elt F) := after w8 V
/-- The buffers after the log-softmax, run from contents `V`. -/
def st9 (V : Valuation τ sig (Elt F)) : Valuation τ sig (Elt F) := after w9 V

/-- The whole line is the nine stages in order. -/
theorem after_ops (V : Valuation τ sig (Elt F)) : after ops V = st9 (st8 (st7 (st6 (st5 (st4 (st3 (st2 (st1 V)))))))) := by
  simp only [ops, after_append, st1, st2, st3, st4, st5, st6, st7, st8, st9]

/-! ### A stage leaves the buffers it does not write -/

theorem st1_keep (V : Valuation τ sig (Elt F)) (r : Ref sig .tc) (h : r ∉ w1_W) :
    st1 V (no_index (Proc.devRef .tc r)) = V (Proc.devRef .tc r) :=
  after_of_writes_sub w1 V w1_writes h
theorem st2_keep (V : Valuation τ sig (Elt F)) (r : Ref sig .tc) (h : r ∉ w2_W) :
    st2 V (no_index (Proc.devRef .tc r)) = V (Proc.devRef .tc r) :=
  after_of_writes_sub w2 V w2_writes h
theorem st3_keep (V : Valuation τ sig (Elt F)) (r : Ref sig .tc) (h : r ∉ w3_W) :
    st3 V (no_index (Proc.devRef .tc r)) = V (Proc.devRef .tc r) :=
  after_of_writes_sub w3 V w3_writes h
theorem st4_keep (V : Valuation τ sig (Elt F)) (r : Ref sig .tc) (h : r ∉ w4_W) :
    st4 V (no_index (Proc.devRef .tc r)) = V (Proc.devRef .tc r) :=
  after_of_writes_sub w4 V w4_writes h
theorem st5_keep (V : Valuation τ sig (Elt F)) (r : Ref sig .tc) (h : r ∉ w5_W) :
    st5 V (no_index (Proc.devRef .tc r)) = V (Proc.devRef .tc r) :=
  after_of_writes_sub w5 V w5_writes h
theorem st6_keep (V : Valuation τ sig (Elt F)) (r : Ref sig .tc) (h : r ∉ w6_W) :
    st6 V (no_index (Proc.devRef .tc r)) = V (Proc.devRef .tc r) :=
  after_of_writes_sub w6 V w6_writes h
theorem st7_keep (V : Valuation τ sig (Elt F)) (r : Ref sig .tc) (h : r ∉ w7_W) :
    st7 V (no_index (Proc.devRef .tc r)) = V (Proc.devRef .tc r) :=
  after_of_writes_sub w7 V w7_writes h
theorem st8_keep (V : Valuation τ sig (Elt F)) (r : Ref sig .tc) (h : r ∉ w8_W) :
    st8 V (no_index (Proc.devRef .tc r)) = V (Proc.devRef .tc r) :=
  after_of_writes_sub w8 V w8_writes h
theorem st9_keep (V : Valuation τ sig (Elt F)) (r : Ref sig .tc) (h : r ∉ w9_W) :
    st9 V (no_index (Proc.devRef .tc r)) = V (Proc.devRef .tc r) :=
  after_of_writes_sub w9 V w9_writes h

/-! ### What a stage leaves at its results: the stage function of its inputs -/

set_option maxRecDepth 8192 in
set_option maxHeartbeats 4000000 in
theorem st1_out (V : Valuation τ sig (Elt F)) :
    st1 V (no_index (Proc.devRef .tc main_v47))
      = actOf (aggOf (dense128 (V (Proc.devRef .tc main_arg0)) (V (Proc.devRef .tc main_arg5))) (rowOf (V (Proc.devRef .tc main_arg1))) (colOf (V (Proc.devRef .tc main_arg1))) (disOf (colOf (V (Proc.devRef .tc main_arg1))))) (V (Proc.devRef .tc main_arg6)) := by
  unfold st1
  simp only [w1]
  after_results_simp
  rfl

set_option maxRecDepth 8192 in
set_option maxHeartbeats 4000000 in
theorem st2_out (V : Valuation τ sig (Elt F)) :
    st2 V (no_index (Proc.devRef .tc main_v95))
      = actOf (aggOf (dense128 (V (Proc.devRef .tc main_arg0)) (V (Proc.devRef .tc main_arg7))) (rowOf (V (Proc.devRef .tc main_arg2))) (colOf (V (Proc.devRef .tc main_arg2))) (disOf (colOf (V (Proc.devRef .tc main_arg2))))) (V (Proc.devRef .tc main_arg8)) := by
  unfold st2
  simp only [w2]
  after_results_simp
  rfl

set_option maxRecDepth 8192 in
set_option maxHeartbeats 4000000 in
theorem st3_out (V : Valuation τ sig (Elt F)) :
    st3 V (no_index (Proc.devRef .tc main_v105))
      = mlpOf (V (Proc.devRef .tc main_v47)) (V (Proc.devRef .tc main_v95)) (V (Proc.devRef .tc main_arg13)) (V (Proc.devRef .tc main_arg14)) (V (Proc.devRef .tc main_arg15)) (V (Proc.devRef .tc main_arg16)) := by
  unfold st3
  simp only [w3]
  after_results_simp
  rfl

set_option maxRecDepth 8192 in
set_option maxHeartbeats 4000000 in
theorem st4_out (V : Valuation τ sig (Elt F)) :
    st4 V (no_index (Proc.devRef .tc main_v153))
      = actOf (aggOf (dense256 (V (Proc.devRef .tc main_v105)) (V (Proc.devRef .tc main_arg9))) (rowOf (V (Proc.devRef .tc main_arg1))) (colOf (V (Proc.devRef .tc main_arg1))) (disOf (colOf (V (Proc.devRef .tc main_arg1))))) (V (Proc.devRef .tc main_arg10)) := by
  unfold st4
  simp only [w4]
  after_results_simp
  rfl

set_option maxRecDepth 8192 in
set_option maxHeartbeats 4000000 in
theorem st5_out (V : Valuation τ sig (Elt F)) :
    st5 V (no_index (Proc.devRef .tc main_v201))
      = actOf (aggOf (dense256 (V (Proc.devRef .tc main_v105)) (V (Proc.devRef .tc main_arg11))) (rowOf (V (Proc.devRef .tc main_arg2))) (colOf (V (Proc.devRef .tc main_arg2))) (disOf (colOf (V (Proc.devRef .tc main_arg2))))) (V (Proc.devRef .tc main_arg12)) := by
  unfold st5
  simp only [w5]
  after_results_simp
  rfl

set_option maxRecDepth 8192 in
set_option maxHeartbeats 4000000 in
theorem st6_out (V : Valuation τ sig (Elt F)) :
    st6 V (no_index (Proc.devRef .tc main_v211))
      = mlpOf (V (Proc.devRef .tc main_v153)) (V (Proc.devRef .tc main_v201)) (V (Proc.devRef .tc main_arg17)) (V (Proc.devRef .tc main_arg18)) (V (Proc.devRef .tc main_arg19)) (V (Proc.devRef .tc main_arg20)) := by
  unfold st6
  simp only [w6]
  after_results_simp
  rfl

set_option maxRecDepth 8192 in
set_option maxHeartbeats 4000000 in
theorem st7_out1 (V : Valuation τ sig (Elt F)) :
    st7 V (no_index (Proc.devRef .tc main_v223))
      = poolOf (V (Proc.devRef .tc main_v211)) (V (Proc.devRef .tc main_arg3)) := by
  unfold st7
  simp only [w7]
  after_results_simp
  rfl

set_option maxRecDepth 8192 in
set_option maxHeartbeats 4000000 in
theorem st7_out2 (V : Valuation τ sig (Elt F)) :
    st7 V (no_index (Proc.devRef .tc main_v235))
      = poolOf (V (Proc.devRef .tc main_v211)) (V (Proc.devRef .tc main_arg4)) := by
  unfold st7
  simp only [w7]
  after_results_simp
  rfl

set_option maxRecDepth 8192 in
set_option maxHeartbeats 4000000 in
theorem st8_out (V : Valuation τ sig (Elt F)) :
    st8 V (no_index (Proc.devRef .tc main_v245))
      = logitsOf (V (Proc.devRef .tc main_v223)) (V (Proc.devRef .tc main_v235)) (V (Proc.devRef .tc main_arg21)) (V (Proc.devRef .tc main_arg22)) (V (Proc.devRef .tc main_arg23)) (V (Proc.devRef .tc main_arg24)) := by
  unfold st8
  simp only [w8]
  after_results_simp
  simp only [ofBuf_toBuf]
  rfl

set_option maxRecDepth 8192 in
set_option maxHeartbeats 4000000 in
theorem st9_out (V : Valuation τ sig (Elt F)) :
    st9 V (no_index (Proc.devRef .tc main_v246))
      = logSoftmaxOf (V (Proc.devRef .tc main_v245)) := by
  unfold st9
  simp only [w9]
  after_results_simp
  simp only [ofBuf_toBuf]
  rfl

/-! ### The stages composed -/

set_option maxRecDepth 8192 in
set_option maxHeartbeats 4000000 in
/-- From any contents `V`, the whole line leaves the network of the 25 arguments at `main_v246`: each stage's result is read
    where it was written, and every other buffer a stage reads is one the stages since its writing do not write. -/
theorem ops_out (V : Valuation τ sig (Elt F)) :
    after ops V (Proc.devRef .tc main_v246)
      = netOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  rw [after_ops]
  simp (disch := decide) only [st9_out, st8_out, st7_out2, st7_out1, st6_out, st5_out, st4_out, st3_out, st2_out, st1_out, st9_keep, st8_keep, st7_keep, st6_keep, st5_keep, st4_keep, st3_keep, st2_keep, st1_keep]
  rfl

/-- A buffer no stage writes (an argument) is left by the whole line as it was. -/
theorem ops_keep (V : Valuation τ sig (Elt F)) (r : Ref sig .tc)
    (h : r ∉ w1_W ∧ r ∉ w2_W ∧ r ∉ w3_W ∧ r ∉ w4_W ∧ r ∉ w5_W ∧ r ∉ w6_W ∧ r ∉ w7_W ∧ r ∉ w8_W ∧ r ∉ w9_W) :
    after ops V (Proc.devRef .tc r) = V (Proc.devRef .tc r) :=
  (congrFun (after_ops V) _).trans ((st9_keep _ r h.2.2.2.2.2.2.2.2).trans ((st8_keep _ r h.2.2.2.2.2.2.2.1).trans ((st7_keep _ r h.2.2.2.2.2.2.1).trans ((st6_keep _ r h.2.2.2.2.2.1).trans ((st5_keep _ r h.2.2.2.2.1).trans ((st4_keep _ r h.2.2.2.1).trans ((st3_keep _ r h.2.2.1).trans ((st2_keep _ r h.2.1).trans (st1_keep V r h.1)))))))))

/-! ### No operation allocates a buffer -/

theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w3_fresh : (w3 : List (HloOp τ sig (Elt F))).Forall fun op => op.fresh = ∅ :=
  ⟨rfl, rfl, rfl, rfl, rfl, rfl, rfl, rfl, rfl, rfl, rfl, rfl⟩
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w6_fresh : (w6 : List (HloOp τ sig (Elt F))).Forall fun op => op.fresh = ∅ :=
  ⟨rfl, rfl, rfl, rfl, rfl, rfl, rfl, rfl, rfl, rfl, rfl, rfl⟩
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w8_fresh : (w8 : List (HloOp τ sig (Elt F))).Forall fun op => op.fresh = ∅ :=
  ⟨rfl, rfl, rfl, rfl, rfl, rfl, rfl, rfl, rfl, rfl, rfl, rfl⟩
theorem w9_fresh : (w9 : List (HloOp τ sig (Elt F))).Forall fun op => op.fresh = ∅ :=
  ⟨rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (forall_append w1_fresh (forall_append w2_fresh (forall_append w3_fresh (forall_append w4_fresh (forall_append w5_fresh (forall_append w6_fresh (forall_append w7_fresh (forall_append w8_fresh (w9_fresh)))))))))

/-! ### The run -/

set_option maxRecDepth 8192 in
set_option maxHeartbeats 4000000 in
/-- On every device, for any float values, from any memory with zero counters: every weakly fair execution of the reference's
    @main terminates with its result the network `netOf` of the 25 arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v246)
        = Cert.Stages.netOf (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v246).trans (ops_out _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide)),
      (h c main_arg21).trans (ops_keep _ main_arg21 (by decide)),
      (h c main_arg22).trans (ops_keep _ main_arg22 (by decide)),
      (h c main_arg23).trans (ops_keep _ main_arg23 (by decide)),
      (h c main_arg24).trans (ops_keep _ main_arg24 (by decide))⟩)
    (run_seq scopedRefs_eq scopedSems_eq defs main (fun _ => ops) main_eq (fun _ => ops_sub) m ρ (fun _ => ops_fresh))

end Cert.ReferenceIdeal.RefRun

end
-- ==== Proof.lean ====
/-
  The certificate of the two-round graph convolution network: a kernel program whose dense linear algebra runs in four
  pipelined regions (two dual projections and two fused perceptrons, each over row blocks of 2000 nodes) against a
  reference that is one line of host operations.

  Frames.  The word-level kernel program and its idealization run, fault-free, with their arguments unchanged: the
  generated frame certificates.  The reference's frame is its run (`RefRun.run`) with the result dropped.

  `preserves`.  The ideal pass applied no rewrite: the conjunct is `True`.

  `algebraic`.  Both idealized programs end with the SAME function of the 25 argument arrays in their result buffer,
  `Cert.Stages.netOf`:
    * the reference's line of operations reads back as that function window by window (`RefRun.run`);
    * the kernel program's buffer contents at its fourteen segment boundaries are a fold from the launch memory
      (`KerRun.run_result`), and the fold's value at the result buffer is that function (`Fold.fold_v184`): a host
      stretch reads back as its stages; a dual-projection region leaves `x @ w` in each output (entry (i, j) is the sum
      over k of x(i, k) · w(k, j) on both sides; at the ideal instance the bf16 conversions are the identity and a
      product accumulated from zero is the plain sum); a fused-perceptron region leaves
      `relu(cat(x1, x2) @ w1 + b1) @ w2 + b2` with `xk = relu(ak + gbk)`, where the kernel's split first layer
      `x1 @ w1[:256] + x2 @ w1[256:]` is the reference's product on the concatenation because a sum over 512 terms is the
      sum over its first 256 plus the sum over its last 256 (addition of extended reals is commutative and associative:
      no finiteness is used, and the precondition is never opened).
-/
import proofs.«115669_j32847909880071_1_alg».proof.Defs
import proofs.«115669_j32847909880071_1_alg».proof.Proof.Gen.Kernel
import proofs.«115669_j32847909880071_1_alg».proof.Proof.Gen.Kernel.Skeleton
import proofs.«115669_j32847909880071_1_alg».proof.Proof.Gen.Kernel.Launch
import proofs.«115669_j32847909880071_1_alg».proof.Proof.Gen.Kernel.Points
import proofs.«115669_j32847909880071_1_alg».proof.Proof.Gen.Kernel.Frame
import proofs.«115669_j32847909880071_1_alg».proof.Proof.Gen.KernelIdeal
import proofs.«115669_j32847909880071_1_alg».proof.Proof.Gen.KernelIdeal.Skeleton
import proofs.«115669_j32847909880071_1_alg».proof.Proof.Gen.KernelIdeal.Launch
import proofs.«115669_j32847909880071_1_alg».proof.Proof.Gen.KernelIdeal.Points
import proofs.«115669_j32847909880071_1_alg».proof.Proof.Gen.KernelIdeal.Frame
import proofs.«115669_j32847909880071_1_alg».proof.Proof.Gen.ReferenceIdeal
import proofs.«115669_j32847909880071_1_alg».proof.Proof.Gen.Pre_finite_inputs
import proofs.«115669_j32847909880071_1_alg».proof.Proof.KerRun
import proofs.«115669_j32847909880071_1_alg».proof.Proof.Fold
import proofs.«115669_j32847909880071_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

set_option maxHeartbeats 1000000 in
/-- Both idealized programs end with `netOf` of the argument arrays in their result buffer, and the arguments agree. -/
theorem algebraic : Cert.algebraic_KernelIdeal_ReferenceIdeal := by
  intro m ρ m' ρ' _ hagree
  refine ⟨fun c => Cert.Stages.netOf (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24)), ?_, ?_⟩
  · exact (θ_run Cert.KernelIdeal.defs _ _).mono
      (fun _ h c => ⟨(h c).1.trans (Cert.KernelIdeal.Fold.fold_v184 m ρ c), (h c).2⟩)
      (Cert.KernelIdeal.KerRun.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
